-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x96x96 : Shape := ⟨4, ![1, 32, 96, 96]⟩
abbrev S_ : Shape := ⟨0, ![]⟩

class Facts : Prop where
  bcast_S_S1x32x96x96 : S_.BroadcastsInDim S1x32x96x96 (![] : Fin 0 → Fin S1x32x96x96.rank)
  reducesTo_S1x32x96x96_S_d0_1_2_3 : S1x32x96x96.ReducesTo [0, 1, 2, 3] S_
  h_S_ : 0 < S_.numel

variable [Facts]

def fn {F : FTy → Type} [FloatOps F] (main_arg0 : FVec F S1x32x96x96 .f32) : IVec S_ 1 :=
  let main_v0 : FVec F S1x32x96x96 .f32 := Host.absf main_arg0
  let main_cst : FVec F S_ .f32 := constant S_ .f32 0x7F800000#32
  let main_v1 : FVec F S1x32x96x96 .f32 := broadcastInDim S1x32x96x96 ![] bcast_S_S1x32x96x96 main_cst
  let main_v2 : IVec S1x32x96x96 1 := cmpf .olt main_v0 main_v1
  let main_c : IVec S_ 1 := constantI S_ 1 1#1
  let main_v3 : IVec S_ 1 := (fun x v => Host.reduce IntOp.andi x v reducesTo_S1x32x96x96_S_d0_1_2_3 h_S_) main_v2 main_c
  main_v3
-- ==== Kernel.lean ====
abbrev S1x32x96x96 : Shape := ⟨4, ![1, 32, 96, 96]⟩
abbrev S32x9216 : Shape := ⟨2, ![32, 9216]⟩
abbrev S_ : Shape := ⟨0, ![]⟩
abbrev S1x9216 : Shape := ⟨2, ![1, 9216]⟩
abbrev S7x9216 : Shape := ⟨2, ![7, 9216]⟩
abbrev S40x9216 : Shape := ⟨2, ![40, 9216]⟩
abbrev S32x2304 : Shape := ⟨2, ![32, 2304]⟩
abbrev S40x1152 : Shape := ⟨2, ![40, 1152]⟩
abbrev S40x2304 : Shape := ⟨2, ![40, 2304]⟩
abbrev S32x1152 : Shape := ⟨2, ![32, 1152]⟩
abbrev S1152x2304 : Shape := ⟨2, ![1152, 2304]⟩
abbrev S1x2304 : Shape := ⟨2, ![1, 2304]⟩
abbrev S32x96x96 : Shape := ⟨3, ![32, 96, 96]⟩
abbrev S3x32x96x96 : Shape := ⟨4, ![3, 32, 96, 96]⟩

abbrev nBuf : Space → Nat
  | .hbm => 28
  | .vmem => 21
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S_, .f32⟩
  | .hbm, ⟨3, _⟩ => ⟨S1x9216, .f32⟩
  | .hbm, ⟨4, _⟩ => ⟨S_, .f32⟩
  | .hbm, ⟨5, _⟩ => ⟨S7x9216, .f32⟩
  | .hbm, ⟨6, _⟩ => ⟨S40x9216, .f32⟩
  | .hbm, ⟨7, _⟩ => ⟨S32x9216, .f32⟩
  | .hbm, ⟨8, _⟩ => ⟨S32x96x96, .f32⟩
  | .hbm, ⟨9, _⟩ => ⟨S_, .f32⟩
  | .hbm, ⟨10, _⟩ => ⟨S1x9216, .f32⟩
  | .hbm, ⟨11, _⟩ => ⟨S_, .f32⟩
  | .hbm, ⟨12, _⟩ => ⟨S7x9216, .f32⟩
  | .hbm, ⟨13, _⟩ => ⟨S40x9216, .f32⟩
  | .hbm, ⟨14, _⟩ => ⟨S32x9216, .f32⟩
  | .hbm, ⟨15, _⟩ => ⟨S32x96x96, .f32⟩
  | .hbm, ⟨16, _⟩ => ⟨S_, .f32⟩
  | .hbm, ⟨17, _⟩ => ⟨S1x9216, .f32⟩
  | .hbm, ⟨18, _⟩ => ⟨S_, .f32⟩
  | .hbm, ⟨19, _⟩ => ⟨S7x9216, .f32⟩
  | .hbm, ⟨20, _⟩ => ⟨S40x9216, .f32⟩
  | .hbm, ⟨21, _⟩ => ⟨S32x9216, .f32⟩
  | .hbm, ⟨22, _⟩ => ⟨S32x96x96, .f32⟩
  | .hbm, ⟨23, _⟩ => ⟨S32x96x96, .f32⟩
  | .hbm, ⟨24, _⟩ => ⟨S1x32x96x96, .f32⟩
  | .hbm, ⟨25, _⟩ => ⟨S1x32x96x96, .f32⟩
  | .hbm, ⟨26, _⟩ => ⟨S1x32x96x96, .f32⟩
  | .hbm, ⟨27, _⟩ => ⟨S3x32x96x96, .f32⟩
  | .local _ .vmem, ⟨0, _⟩ => ⟨S32x2304, .f32⟩
  | .local _ .vmem, ⟨1, _⟩ => ⟨S32x2304, .f32⟩
  | .local _ .vmem, ⟨2, _⟩ => ⟨S40x1152, .f32⟩
  | .local _ .vmem, ⟨3, _⟩ => ⟨S40x1152, .f32⟩
  | .local _ .vmem, ⟨4, _⟩ => ⟨S32x2304, .f32⟩
  | .local _ .vmem, ⟨5, _⟩ => ⟨S32x2304, .f32⟩
  | .local _ .vmem, ⟨6, _⟩ => ⟨S40x2304, .f32⟩
  | .local _ .vmem, ⟨7, _⟩ => ⟨S32x2304, .f32⟩
  | .local _ .vmem, ⟨8, _⟩ => ⟨S32x2304, .f32⟩
  | .local _ .vmem, ⟨9, _⟩ => ⟨S40x1152, .f32⟩
  | .local _ .vmem, ⟨10, _⟩ => ⟨S40x1152, .f32⟩
  | .local _ .vmem, ⟨11, _⟩ => ⟨S32x2304, .f32⟩
  | .local _ .vmem, ⟨12, _⟩ => ⟨S32x2304, .f32⟩
  | .local _ .vmem, ⟨13, _⟩ => ⟨S40x2304, .f32⟩
  | .local _ .vmem, ⟨14, _⟩ => ⟨S32x2304, .f32⟩
  | .local _ .vmem, ⟨15, _⟩ => ⟨S32x2304, .f32⟩
  | .local _ .vmem, ⟨16, _⟩ => ⟨S40x1152, .f32⟩
  | .local _ .vmem, ⟨17, _⟩ => ⟨S40x1152, .f32⟩
  | .local _ .vmem, ⟨18, _⟩ => ⟨S32x2304, .f32⟩
  | .local _ .vmem, ⟨19, _⟩ => ⟨S32x2304, .f32⟩
  | .local _ .vmem, ⟨20, _⟩ => ⟨S40x2304, .f32⟩
  | _, _ => ⟨S1x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S40x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S40x1152 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x2304 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x2304 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S40x1152 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S32x2304 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S1x32x96x96_S32x9216 : S1x32x96x96.ShapeCasts S32x9216
  bcast_S_S1x9216 : S_.BroadcastsInDim S1x9216 (![] : Fin 0 → Fin S1x9216.rank)
  bcast_S_S7x9216 : S_.BroadcastsInDim S7x9216 (![] : Fin 0 → Fin S7x9216.rank)
  concatenates_S32x9216_S1x9216_S7x9216_S40x9216_d0 : Shape.Concatenates [S32x9216, S1x9216, S7x9216] S40x9216 0
  inb_S40x2304_S40x2304_0_0 : ∀ a, (![0, 0] : Fin 2 → Nat) a + S40x2304.size a ≤ S40x2304.size a
  h_S40x2304 : 0 < S40x2304.numel
  shapeCasts_S40x2304_S40x2304 : S40x2304.ShapeCasts S40x2304
  inb_S32x2304_S32x2304_0_0 : ∀ a, (![0, 0] : Fin 2 → Nat) a + S32x2304.size a ≤ S32x2304.size a
  h_S32x2304 : 0 < S32x2304.numel
  shapeCasts_S32x2304_S32x2304 : S32x2304.ShapeCasts S32x2304
  inb_S40x1152_S40x1152_0_0 : ∀ a, (![0, 0] : Fin 2 → Nat) a + S40x1152.size a ≤ S40x1152.size a
  h_S40x1152 : 0 < S40x1152.numel
  shapeCasts_S40x1152_S40x1152 : S40x1152.ShapeCasts S40x1152
  slices_S40x1152_o0_0_S32x1152 : S40x1152.Slices ![0, 0] S32x1152
  bitsLt_bf16_f32 : FTy.bits .bf16 < FTy.bits .f32
  slices_S40x2304_o0_0_S32x2304 : S40x2304.Slices ![0, 0] S32x2304
  slices_S40x2304_o32_0_S1x2304 : S40x2304.Slices ![32, 0] S1x2304
  broadcasts_S1x2304_S32x2304 : S1x2304.Broadcasts S32x2304
  shapeCasts_S32x9216_S32x96x96 : S32x9216.ShapeCasts S32x96x96
  bcast_S32x96x96_S1x32x96x96_1_2_3 : S32x96x96.BroadcastsInDim S1x32x96x96 (![1, 2, 3] : Fin 3 → Fin S1x32x96x96.rank)
  concatenates_S1x32x96x96_S1x32x96x96_S1x32x96x96_S3x32x96x96_d0 : Shape.Concatenates [S1x32x96x96, S1x32x96x96, S1x32x96x96] S3x32x96x96 0
  dot_S32x1152_S32x2304_S1152x2304_0_0_1_1_n_n_wf : DotDims.WF S32x1152 S32x2304 S1152x2304 [0] [0] [1] [1] [] []
  dot_S40x1152_S1152x2304_S40x2304_1_0_0_1_n_n_wf : DotDims.WF S40x1152 S1152x2304 S40x2304 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x2304.size a ≤ S32x9216.size a
  hwx0_0 : ∀ i : grid0.Coords, EltTy.bits .f32 = 32 ∨ (Rect.block (s := S32x9216) S32x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x1152.size a ≤ S40x9216.size a
  hwx0_1 : ∀ i : grid0.Coords, EltTy.bits .f32 = 32 ∨ (Rect.block (s := S40x9216) S40x1152.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x2304.size a ≤ S32x9216.size a
  hwx0_2 : ∀ i : grid0.Coords, EltTy.bits .f32 = 32 ∨ (Rect.block (s := S32x9216) S32x2304.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2304.size a ≤ S32x9216.size a
  hwx1_0 : ∀ i : grid1.Coords, EltTy.bits .f32 = 32 ∨ (Rect.block (s := S32x9216) S32x2304.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S40x1152.size a ≤ S40x9216.size a
  hwx1_1 : ∀ i : grid1.Coords, EltTy.bits .f32 = 32 ∨ (Rect.block (s := S40x9216) S40x1152.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x2304.size a ≤ S32x9216.size a
  hwx1_2 : ∀ i : grid1.Coords, EltTy.bits .f32 = 32 ∨ (Rect.block (s := S32x9216) S32x2304.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x2304.size a ≤ S32x9216.size a
  hwx2_0 : ∀ i : grid2.Coords, EltTy.bits .f32 = 32 ∨ (Rect.block (s := S32x9216) S32x2304.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S40x1152.size a ≤ S40x9216.size a
  hwx2_1 : ∀ i : grid2.Coords, EltTy.bits .f32 = 32 ∨ (Rect.block (s := S40x9216) S40x1152.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x2304.size a ≤ S32x9216.size a
  hwx2_2 : ∀ i : grid2.Coords, EltTy.bits .f32 = 32 ∨ (Rect.block (s := S32x9216) S32x2304.size (cc2_transform_2 i) (hinb2_2 i)).WholeWords (EltTy.packing .f32)

variable [Facts₀]

def dot_S32x1152_S32x2304_S1152x2304_0_0_1_1_n_n : DotDims S32x1152 S32x2304 S1152x2304 where
  lhsContracting := [0]
  rhsContracting := [0]
  lhsNonContracting := [1]
  rhsNonContracting := [1]
  lhsBatch := []
  rhsBatch := []
  wf := dot_S32x1152_S32x2304_S1152x2304_0_0_1_1_n_n_wf
def dot_S40x1152_S1152x2304_S40x2304_1_0_0_1_n_n : DotDims S40x1152 S1152x2304 S40x2304 where
  lhsContracting := [1]
  rhsContracting := [0]
  lhsNonContracting := [0]
  rhsNonContracting := [1]
  lhsBatch := []
  rhsBatch := []
  wf := dot_S40x1152_S1152x2304_S40x2304_1_0_0_1_n_n_wf

abbrev win0_0 : Pipeline.Window sig grid0 :=
  Pipeline.Window.ofSpec (Memref.whole main_v0) S32x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S40x1152.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v4) S32x2304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S40x1152.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S32x2304.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v9) S32x2304.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S40x1152.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S32x2304.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S1x32x96x96 : Shape := ⟨4, ![1, 32, 96, 96]⟩
abbrev S32x9216 : Shape := ⟨2, ![32, 9216]⟩
abbrev S9216x32 : Shape := ⟨2, ![9216, 32]⟩
abbrev S9216x9216 : Shape := ⟨2, ![9216, 9216]⟩
abbrev S_ : Shape := ⟨0, ![]⟩
abbrev S9216 : Shape := ⟨1, ![9216]⟩
abbrev S1x9216 : Shape := ⟨2, ![1, 9216]⟩
abbrev S32x96x96 : Shape := ⟨3, ![32, 96, 96]⟩
abbrev S3x32x96x96 : Shape := ⟨4, ![3, 32, 96, 96]⟩

abbrev nBuf : Space → Nat
  | .hbm => 67
  | .vmem => 0
  | .smem => 0
  | _ => 0

abbrev bufTy : (tb : Table) → Fin (tcTables nBuf tb) → BufTy
  | .hbm, ⟨0, _⟩ => ⟨S1x32x96x96, .f32⟩
  | .hbm, ⟨1, _⟩ => ⟨S32x9216, .f32⟩
  | .hbm, ⟨2, _⟩ => ⟨S9216x32, .f32⟩
  | .hbm, ⟨3, _⟩ => ⟨S9216x9216, .f32⟩
  | .hbm, ⟨4, _⟩ => ⟨S_, .f32⟩
  | .hbm, ⟨5, _⟩ => ⟨S9216x9216, .f32⟩
  | .hbm, ⟨6, _⟩ => ⟨S9216x9216, .f32⟩
  | .hbm, ⟨7, _⟩ => ⟨S9216x9216, .f32⟩
  | .hbm, ⟨8, _⟩ => ⟨S_, .f32⟩
  | .hbm, ⟨9, _⟩ => ⟨S9216, .f32⟩
  | .hbm, ⟨10, _⟩ => ⟨S32x9216, .f32⟩
  | .hbm, ⟨11, _⟩ => ⟨S_, .f32⟩
  | .hbm, ⟨12, _⟩ => ⟨S32x9216, .f32⟩
  | .hbm, ⟨13, _⟩ => ⟨S32x9216, .f32⟩
  | .hbm, ⟨14, _⟩ => ⟨S1x9216, .f32⟩
  | .hbm, ⟨15, _⟩ => ⟨S32x9216, .f32⟩
  | .hbm, ⟨16, _⟩ => ⟨S32x9216, .f32⟩
  | .hbm, ⟨17, _⟩ => ⟨S_, .f32⟩
  | .hbm, ⟨18, _⟩ => ⟨S32x9216, .f32⟩
  | .hbm, ⟨19, _⟩ => ⟨S32x9216, .f32⟩
  | .hbm, ⟨20, _⟩ => ⟨S32x9216, .f32⟩
  | .hbm, ⟨21, _⟩ => ⟨S32x96x96, .f32⟩
  | .hbm, ⟨22, _⟩ => ⟨S9216x32, .f32⟩
  | .hbm, ⟨23, _⟩ => ⟨S9216x9216, .f32⟩
  | .hbm, ⟨24, _⟩ => ⟨S_, .f32⟩
  | .hbm, ⟨25, _⟩ => ⟨S9216x9216, .f32⟩
  | .hbm, ⟨26, _⟩ => ⟨S9216x9216, .f32⟩
  | .hbm, ⟨27, _⟩ => ⟨S9216x9216, .f32⟩
  | .hbm, ⟨28, _⟩ => ⟨S_, .f32⟩
  | .hbm, ⟨29, _⟩ => ⟨S9216, .f32⟩
  | .hbm, ⟨30, _⟩ => ⟨S32x9216, .f32⟩
  | .hbm, ⟨31, _⟩ => ⟨S_, .f32⟩
  | .hbm, ⟨32, _⟩ => ⟨S32x9216, .f32⟩
  | .hbm, ⟨33, _⟩ => ⟨S32x9216, .f32⟩
  | .hbm, ⟨34, _⟩ => ⟨S1x9216, .f32⟩
  | .hbm, ⟨35, _⟩ => ⟨S32x9216, .f32⟩
  | .hbm, ⟨36, _⟩ => ⟨S32x9216, .f32⟩
  | .hbm, ⟨37, _⟩ => ⟨S_, .f32⟩
  | .hbm, ⟨38, _⟩ => ⟨S32x9216, .f32⟩
  | .hbm, ⟨39, _⟩ => ⟨S32x9216, .f32⟩
  | .hbm, ⟨40, _⟩ => ⟨S32x9216, .f32⟩
  | .hbm, ⟨41, _⟩ => ⟨S32x96x96, .f32⟩
  | .hbm, ⟨42, _⟩ => ⟨S9216x32, .f32⟩
  | .hbm, ⟨43, _⟩ => ⟨S9216x9216, .f32⟩
  | .hbm, ⟨44, _⟩ => ⟨S_, .f32⟩
  | .hbm, ⟨45, _⟩ => ⟨S9216x9216, .f32⟩
  | .hbm, ⟨46, _⟩ => ⟨S9216x9216, .f32⟩
  | .hbm, ⟨47, _⟩ => ⟨S9216x9216, .f32⟩
  | .hbm, ⟨48, _⟩ => ⟨S_, .f32⟩
  | .hbm, ⟨49, _⟩ => ⟨S9216, .f32⟩
  | .hbm, ⟨50, _⟩ => ⟨S32x9216, .f32⟩
  | .hbm, ⟨51, _⟩ => ⟨S_, .f32⟩
  | .hbm, ⟨52, _⟩ => ⟨S32x9216, .f32⟩
  | .hbm, ⟨53, _⟩ => ⟨S32x9216, .f32⟩
  | .hbm, ⟨54, _⟩ => ⟨S1x9216, .f32⟩
  | .hbm, ⟨55, _⟩ => ⟨S32x9216, .f32⟩
  | .hbm, ⟨56, _⟩ => ⟨S32x9216, .f32⟩
  | .hbm, ⟨57, _⟩ => ⟨S_, .f32⟩
  | .hbm, ⟨58, _⟩ => ⟨S32x9216, .f32⟩
  | .hbm, ⟨59, _⟩ => ⟨S32x9216, .f32⟩
  | .hbm, ⟨60, _⟩ => ⟨S32x9216, .f32⟩
  | .hbm, ⟨61, _⟩ => ⟨S32x96x96, .f32⟩
  | .hbm, ⟨62, _⟩ => ⟨S32x96x96, .f32⟩
  | .hbm, ⟨63, _⟩ => ⟨S1x32x96x96, .f32⟩
  | .hbm, ⟨64, _⟩ => ⟨S1x32x96x96, .f32⟩
  | .hbm, ⟨65, _⟩ => ⟨S1x32x96x96, .f32⟩
  | .hbm, ⟨66, _⟩ => ⟨S3x32x96x96, .f32⟩
  | _, _ => ⟨S1x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_8 : Ref sig .tc := ⟨.hbm, 48, rfl⟩
abbrev main_v38 : Ref sig .tc := ⟨.hbm, 49, rfl⟩
abbrev main_v39 : Ref sig .tc := ⟨.hbm, 50, rfl⟩
abbrev main_cst_9 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_10 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  shapeCasts_S1x32x96x96_S32x9216 : S1x32x96x96.ShapeCasts S32x9216
  transposes_S32x9216_S9216x32_1_0 : S32x9216.Transposes [1, 0] S9216x32
  bcast_S_S9216x9216 : S_.BroadcastsInDim S9216x9216 (![] : Fin 0 → Fin S9216x9216.rank)
  reducesTo_S9216x9216_S9216_d0 : S9216x9216.ReducesTo [0] S9216
  h_S_ : 0 < S_.numel
  bcast_S_S32x9216 : S_.BroadcastsInDim S32x9216 (![] : Fin 0 → Fin S32x9216.rank)
  bcast_S9216_S1x9216_1 : S9216.BroadcastsInDim S1x9216 (![1] : Fin 1 → Fin S1x9216.rank)
  bcast_S1x9216_S32x9216_0_1 : S1x9216.BroadcastsInDim S32x9216 (![0, 1] : Fin 2 → Fin S32x9216.rank)
  shapeCasts_S32x9216_S32x96x96 : S32x9216.ShapeCasts S32x96x96
  bcast_S32x96x96_S1x32x96x96_1_2_3 : S32x96x96.BroadcastsInDim S1x32x96x96 (![1, 2, 3] : Fin 3 → Fin S1x32x96x96.rank)
  concatenates_S1x32x96x96_S1x32x96x96_S1x32x96x96_S3x32x96x96_d0 : Shape.Concatenates [S1x32x96x96, S1x32x96x96, S1x32x96x96] S3x32x96x96 0
  dot_S9216x32_S32x9216_S9216x9216_1_0_0_1_n_n_wf : DotDims.WF S9216x32 S32x9216 S9216x9216 [1] [0] [0] [1] [] []
  dot_S32x9216_S9216x9216_S32x9216_1_0_0_1_n_n_wf : DotDims.WF S32x9216 S9216x9216 S32x9216 [1] [0] [0] [1] [] []

variable [Facts₀]

def dot_S9216x32_S32x9216_S9216x9216_1_0_0_1_n_n : DotDims S9216x32 S32x9216 S9216x9216 where
  lhsContracting := [1]
  rhsContracting := [0]
  lhsNonContracting := [0]
  rhsNonContracting := [1]
  lhsBatch := []
  rhsBatch := []
  wf := dot_S9216x32_S32x9216_S9216x9216_1_0_0_1_n_n_wf
def dot_S32x9216_S9216x9216_S32x9216_1_0_0_1_n_n : DotDims S32x9216 S9216x9216 S32x9216 where
  lhsContracting := [1]
  rhsContracting := [0]
  lhsNonContracting := [0]
  rhsNonContracting := [1]
  lhsBatch := []
  rhsBatch := []
  wf := dot_S32x9216_S9216x9216_S32x9216_1_0_0_1_n_n_wf

class Facts : Prop extends Facts₀ where

variable [Facts]
-- ==== Proof.KB.Base.lean ====
/-
  The three kernel calls of the program: the points of each call's 4×8 grid at which the body clears its accumulator
  (the first key tile of a query tile) and at which it writes its output block (the last key tile), the output window's
  idleness elsewhere, and the region invariant with the call's accumulator named.
-/
import proofs.«120442_j39496519254112_2_alg».proof.Proof.Gen.Kernel.Launch
import proofs.«120442_j39496519254112_2_alg».proof.Proof.Gen.Kernel.Skeleton
import proofs.«120442_j39496519254112_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Kernel call 0: where its two conditionals hold, where its output window is idle, its memrefs -/

/-- The first conditional of the body (the accumulator is cleared): the key-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional (the output block is written): the key-tile coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Where the output block is not written the window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window and the scratch, as views through which contents are stated. -/
abbrev VO0_2 : View sig .tc .vmem S32x2304 .f32 := (Memref.whole cc0_stg2_0 : Memref sig .tc .vmem S32x2304 .f32).view
abbrev ms0_0 (t : Fin cfg0.N) : Memref sig .tc .vmem S32x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2304 .f32 := win0_2.stage (cfg0.slots t 2)
abbrev hs0_2 (t : Fin cfg0.N) : (ms0_2 t).IsWhole := hstage0_2 ((cfg0.slots t 2).cast nbuf0_2)
abbrev scM0 : Memref sig .tc .vmem S40x2304 .f32 := Memref.whole cc0_scratch0
abbrev VS0 : View sig .tc .vmem S40x2304 .f32 := scM0.view

/-- The other scoped buffers of the core (the other calls' staging buffers and accumulators), at some contents. -/
abbrev Rest0 (c : Dev nD) : sProp 𝕄 :=
  Pipeline.scopedRestBut (Ix := Unit) (Name := ℕ) (U := UR sig nD τ) (Lvl := ℕ) (Val := Elt F) spec0 c [cc0_scratch0]

/-- The region's class invariant with this call's accumulator split off as an owned memref. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  rw [show bigSepL [cc0_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc0_scratch0), ((c.tc : Thread nD τ).loc cc0_scratch0) ↦{fullShare} f) from rfl]
  simp only [scM0, owns_whole]
  try rfl

/-! ## Kernel call 1: where its two conditionals hold, where its output window is idle, its memrefs -/

/-- The first conditional of the body (the accumulator is cleared): the key-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the output block is written): the key-tile coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not written the window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window and the scratch, as views through which contents are stated. -/
abbrev VO1_2 : View sig .tc .vmem S32x2304 .f32 := (Memref.whole cc1_stg2_0 : Memref sig .tc .vmem S32x2304 .f32).view
abbrev ms1_0 (t : Fin cfg1.N) : Memref sig .tc .vmem S32x2304 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S40x1152 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x2304 .f32 := win1_2.stage (cfg1.slots t 2)
abbrev hs1_2 (t : Fin cfg1.N) : (ms1_2 t).IsWhole := hstage1_2 ((cfg1.slots t 2).cast nbuf1_2)
abbrev scM1 : Memref sig .tc .vmem S40x2304 .f32 := Memref.whole cc1_scratch0
abbrev VS1 : View sig .tc .vmem S40x2304 .f32 := scM1.view

/-- The other scoped buffers of the core (the other calls' staging buffers and accumulators), at some contents. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with this call's accumulator split off as an owned memref. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  rw [show bigSepL [cc1_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc1_scratch0), ((c.tc : Thread nD τ).loc cc1_scratch0) ↦{fullShare} f) from rfl]
  simp only [scM1, owns_whole]
  try rfl

/-! ## Kernel call 2: where its two conditionals hold, where its output window is idle, its memrefs -/

/-- The first conditional of the body (the accumulator is cleared): the key-tile coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional (the output block is written): the key-tile coordinate is 7. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
/-- Where the output block is not written the window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window and the scratch, as views through which contents are stated. -/
abbrev VO2_2 : View sig .tc .vmem S32x2304 .f32 := (Memref.whole cc2_stg2_0 : Memref sig .tc .vmem S32x2304 .f32).view
abbrev ms2_0 (t : Fin cfg2.N) : Memref sig .tc .vmem S32x2304 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S40x1152 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x2304 .f32 := win2_2.stage (cfg2.slots t 2)
abbrev hs2_2 (t : Fin cfg2.N) : (ms2_2 t).IsWhole := hstage2_2 ((cfg2.slots t 2).cast nbuf2_2)
abbrev scM2 : Memref sig .tc .vmem S40x2304 .f32 := Memref.whole cc2_scratch0
abbrev VS2 : View sig .tc .vmem S40x2304 .f32 := scM2.view

/-- The other scoped buffers of the core (the other calls' staging buffers and accumulators), at some contents. -/
abbrev Rest2 (c : Dev nD) : sProp 𝕄 :=
  Pipeline.scopedRestBut (Ix := Unit) (Name := ℕ) (U := UR sig nD τ) (Lvl := ℕ) (Val := Elt F) spec2 c [cc2_scratch0]

/-- The region's class invariant with this call's accumulator split off as an owned memref. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  rw [show bigSepL [cc2_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc2_scratch0), ((c.tc : Thread nD τ).loc cc2_scratch0) ↦{fullShare} f) from rfl]
  simp only [scM2, owns_whole]
  try rfl

end Cert.Kernel.Body

end
-- ==== Proof.KB.Run0A.lean ====
/-
  Kernel call 0: the body's run at a first key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨[], ?_, fun xi2 E K => ?run⟩
  case run =>
    simp only [cc0__ms_iter_kernel_eq_skeleton]; unfold cc0__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run0B.lean ====
/-
  Kernel call 0: the body's run at a middle key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨[], ?_, fun xi2 E K => ?run⟩
  case run =>
    simp only [cc0__ms_iter_kernel_eq_skeleton]; unfold cc0__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run0C.lean ====
/-
  Kernel call 0: the body's run at a last key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨?_, ?_, fun E K => ?run⟩
  case run =>
    simp only [cc0__ms_iter_kernel_eq_skeleton]; unfold cc0__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.KB.Reg0.lean ====
/-
  Kernel call 0 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KB.Run0A
import proofs.«120442_j39496519254112_2_alg».proof.Proof.KB.Run0B
import proofs.«120442_j39496519254112_2_alg».proof.Proof.KB.Run0C

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 0 at the entry contents `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator and the output buffer -/

theorem scover0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) (y : S40x2304.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S40x2304.size (by sl_kernel_rfl) y
/-- What a first key tile leaves in the accumulator: its pieces read back. -/
def sout0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) : Vec F S40x2304 .f32 :=
  VS0.read (Elt F) (VS0.writes (Elt F) VS0.junk (kernelRun0_A c i arg2 harg2 arg3 harg3 arg4 harg4 arg5 harg5 hc0 hc1 x0 x1).2.1)

theorem scover0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) (y : S40x2304.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S40x2304.size (by sl_kernel_rfl) y
/-- What a middle key tile leaves in the accumulator. -/
def sout0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) : Vec F S40x2304 .f32 :=
  VS0.read (Elt F) (VS0.writes (Elt F) VS0.junk (kernelRun0_B c i arg2 harg2 arg3 harg3 arg4 harg4 arg5 harg5 hc0 hc1 x0 x1 xs0).2.1)

theorem cover0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) (y : S32x2304.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S32x2304.size (by sl_kernel_rfl) y
/-- What a last key tile leaves in the output buffer. -/
def out0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) : Vec F S32x2304 .f32 :=
  VO0_2.read (Elt F) (VO0_2.writes (Elt F) VO0_2.junk (kernelRun0_C c i arg2 harg2 arg3 harg3 arg4 harg4 arg5 harg5 hc0 hc1 x0 x1 xs0).1)
theorem scover0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) (y : S40x2304.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S40x2304.size (by sl_kernel_rfl) y
/-- What a last key tile leaves in the accumulator. -/
def sout0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) : Vec F S40x2304 .f32 :=
  VS0.read (Elt F) (VS0.writes (Elt F) VS0.junk (kernelRun0_C c i arg2 harg2 arg3 harg3 arg4 harg4 arg5 harg5 hc0 hc1 x0 x1 xs0).2.1)

/-- Where the body writes no output block the output buffer's contents are never consulted: a placeholder. -/
def idleOut0 : Vec F S32x2304 .f32 := VO0_2.read (Elt F) VO0_2.junk

/-! ## The accumulation, point by point -/

/-- What the output buffer and the accumulator hold after the body at position `n`: the case the position selects
    (≡ 0, ≡ 7, or between, modulo 8), run at the point's memrefs and input blocks, the accumulator entering a later key
    tile at what the position before left. -/
def outsAt0 (c : Dev nD) : (n : ℕ) → n < cfg0.N → Vec F S32x2304 .f32 × Vec F S40x2304 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The call's proof data -/

/-- The arrays as the call finds them; after the body at point `t` each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end Cert.Kernel.Body

end
-- ==== Proof.KB.Run1A.lean ====
/-
  Kernel call 1: the body's run at a first key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨[], ?_, fun xi2 E K => ?run⟩
  case run =>
    simp only [cc1__ms_iter_kernel_eq_skeleton]; unfold cc1__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run1B.lean ====
/-
  Kernel call 1: the body's run at a middle key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨[], ?_, fun xi2 E K => ?run⟩
  case run =>
    simp only [cc1__ms_iter_kernel_eq_skeleton]; unfold cc1__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run1C.lean ====
/-
  Kernel call 1: the body's run at a last key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨?_, ?_, fun E K => ?run⟩
  case run =>
    simp only [cc1__ms_iter_kernel_eq_skeleton]; unfold cc1__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.KB.Reg1.lean ====
/-
  Kernel call 1 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KB.Run1A
import proofs.«120442_j39496519254112_2_alg».proof.Proof.KB.Run1B
import proofs.«120442_j39496519254112_2_alg».proof.Proof.KB.Run1C

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 1 at the entry contents `V` -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and the output buffer -/

theorem scover1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) (y : S40x2304.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S40x2304.size (by sl_kernel_rfl) y
/-- What a first key tile leaves in the accumulator: its pieces read back. -/
def sout1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) : Vec F S40x2304 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) (y : S40x2304.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S40x2304.size (by sl_kernel_rfl) y
/-- What a middle key tile leaves in the accumulator. -/
def sout1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) : Vec F S40x2304 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) (y : S32x2304.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x2304.size (by sl_kernel_rfl) y
/-- What a last key tile leaves in the output buffer. -/
def out1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) : Vec F S32x2304 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) (y : S40x2304.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S40x2304.size (by sl_kernel_rfl) y
/-- What a last key tile leaves in the accumulator. -/
def sout1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) : Vec F S40x2304 .f32 :=
  VS1.read (Elt F) (VS1.writes (Elt F) VS1.junk (kernelRun1_C c i arg2 harg2 arg3 harg3 arg4 harg4 arg5 harg5 hc0 hc1 x0 x1 xs0).2.1)

/-- Where the body writes no output block the output buffer's contents are never consulted: a placeholder. -/
def idleOut1 : Vec F S32x2304 .f32 := VO1_2.read (Elt F) VO1_2.junk

/-! ## The accumulation, point by point -/

/-- What the output buffer and the accumulator hold after the body at position `n`: the case the position selects
    (≡ 0, ≡ 7, or between, modulo 8), run at the point's memrefs and input blocks, the accumulator entering a later key
    tile at what the position before left. -/
def outsAt1 (c : Dev nD) : (n : ℕ) → n < cfg1.N → Vec F S32x2304 .f32 × Vec F S40x2304 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The call's proof data -/

/-- The arrays as the call finds them; after the body at point `t` each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, HR⟩, Hg⟩
  isplitl [HS0 HR]
  · isplitl [HS0]
    · iexists _; iexact HS0
    iexact HR
  iexact Hg

end Cert.Kernel.Body

end
-- ==== Proof.KB.Run2A.lean ====
/-
  Kernel call 2: the body's run at a first key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨[], ?_, fun xi2 E K => ?run⟩
  case run =>
    simp only [cc2__ms_iter_kernel_eq_skeleton]; unfold cc2__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run2B.lean ====
/-
  Kernel call 2: the body's run at a middle key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨[], ?_, fun xi2 E K => ?run⟩
  case run =>
    simp only [cc2__ms_iter_kernel_eq_skeleton]; unfold cc2__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.KB.Run2C.lean ====
/-
  Kernel call 2: the body's run at a last key tile, by symbolic execution of its skeleton, with what it leaves in the
  accumulator (and in the output buffer) found as pieces.
-/
import proofs.«120442_j39496519254112_2_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨?_, ?_, fun E K => ?run⟩
  case run =>
    simp only [cc2__ms_iter_kernel_eq_skeleton]; unfold cc2__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.KB.Reg2.lean ====
/-
  Kernel call 2 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KB.Run2A
import proofs.«120442_j39496519254112_2_alg».proof.Proof.KB.Run2B
import proofs.«120442_j39496519254112_2_alg».proof.Proof.KB.Run2C

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 2 at the entry contents `V` -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and the output buffer -/

theorem scover2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) (y : S40x2304.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S40x2304.size (by sl_kernel_rfl) y
/-- What a first key tile leaves in the accumulator: its pieces read back. -/
def sout2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) : Vec F S40x2304 .f32 :=
  VS2.read (Elt F) (VS2.writes (Elt F) VS2.junk (kernelRun2_A c i arg2 harg2 arg3 harg3 arg4 harg4 arg5 harg5 hc0 hc1 x0 x1).2.1)

theorem scover2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) (y : S40x2304.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S40x2304.size (by sl_kernel_rfl) y
/-- What a middle key tile leaves in the accumulator. -/
def sout2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) : Vec F S40x2304 .f32 :=
  VS2.read (Elt F) (VS2.writes (Elt F) VS2.junk (kernelRun2_B c i arg2 harg2 arg3 harg3 arg4 harg4 arg5 harg5 hc0 hc1 x0 x1 xs0).2.1)

theorem cover2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) (y : S32x2304.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S32x2304.size (by sl_kernel_rfl) y
/-- What a last key tile leaves in the output buffer. -/
def out2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) : Vec F S32x2304 .f32 :=
  VO2_2.read (Elt F) (VO2_2.writes (Elt F) VO2_2.junk (kernelRun2_C c i arg2 harg2 arg3 harg3 arg4 harg4 arg5 harg5 hc0 hc1 x0 x1 xs0).1)
theorem scover2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) (y : S40x2304.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S40x2304.size (by sl_kernel_rfl) y
/-- What a last key tile leaves in the accumulator. -/
def sout2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) : Vec F S40x2304 .f32 :=
  VS2.read (Elt F) (VS2.writes (Elt F) VS2.junk (kernelRun2_C c i arg2 harg2 arg3 harg3 arg4 harg4 arg5 harg5 hc0 hc1 x0 x1 xs0).2.1)

/-- Where the body writes no output block the output buffer's contents are never consulted: a placeholder. -/
def idleOut2 : Vec F S32x2304 .f32 := VO2_2.read (Elt F) VO2_2.junk

/-! ## The accumulation, point by point -/

/-- What the output buffer and the accumulator hold after the body at position `n`: the case the position selects
    (≡ 0, ≡ 7, or between, modulo 8), run at the point's memrefs and input blocks, the accumulator entering a later key
    tile at what the position before left. -/
def outsAt2 (c : Dev nD) : (n : ℕ) → n < cfg2.N → Vec F S32x2304 .f32 × Vec F S40x2304 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The call's proof data -/

/-- The arrays as the call finds them; after the body at point `t` each input's buffer at its block and the output's
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end Cert.Kernel.Body

end
-- ==== Proof.KB.Main.lean ====
/-
  The program's @main as a run: three host stretches, each followed by a kernel call, and a last host stretch. The
  buffers' contents at every boundary are a fold from the launch memory — a host stretch applies its operations, a
  kernel call replaces its result array by what its write-backs leave — and every weakly fair execution ends with every
  unscoped buffer at the last boundary's contents.
-/
import proofs.«120442_j39496519254112_2_alg».proof.Proof.KB.Reg0
import proofs.«120442_j39496519254112_2_alg».proof.Proof.KB.Reg1
import proofs.«120442_j39496519254112_2_alg».proof.Proof.KB.Reg2
import proofs.«120442_j39496519254112_2_alg».proof.Proof.Gen.Kernel.Regions
import Idealize.ShloMosaic.Lib.Pipeline.RegionsLoop

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Entering call 0: the launch memory after the first host stretch. -/
abbrev Va0 (c : Dev nD) : Valuation τ sig (Elt F) := StableHlo.after hostOps0 (fun b => m (c, b))
abbrev En0 (c : Dev nD) (b : Ref sig .tc) : Buf (Elt F) ((c : Thread nD τ).loc b) := Va0 m c b
/-- What call 0 leaves in its result array. -/
def o2 (c : Dev nD) : Buf (Elt F) ((c : Thread nD τ).loc main_v4) := (dat0 (En0 m) c).arrAt 2 cfg0.N
/-- Leaving call 0. -/
abbrev Wa0 (c : Dev nD) : Valuation τ sig (Elt F) := Function.update (Va0 m c) main_v4 (o2 m c)
/-- Entering call 1: after the second host stretch. -/
abbrev Va1 (c : Dev nD) : Valuation τ sig (Elt F) := StableHlo.after hostOps1 (Wa0 m c)
abbrev En1 (c : Dev nD) (b : Ref sig .tc) : Buf (Elt F) ((c : Thread nD τ).loc b) := Va1 m c b
def o4 (c : Dev nD) : Buf (Elt F) ((c : Thread nD τ).loc main_v9) := (dat1 (En1 m) c).arrAt 2 cfg1.N
abbrev Wa1 (c : Dev nD) : Valuation τ sig (Elt F) := Function.update (Va1 m c) main_v9 (o4 m c)
/-- Entering call 2: after the third host stretch. -/
abbrev Va2 (c : Dev nD) : Valuation τ sig (Elt F) := StableHlo.after hostOps2 (Wa1 m c)
abbrev En2 (c : Dev nD) (b : Ref sig .tc) : Buf (Elt F) ((c : Thread nD τ).loc b) := Va2 m c b
def o6 (c : Dev nD) : Buf (Elt F) ((c : Thread nD τ).loc main_v14) := (dat2 (En2 m) c).arrAt 2 cfg2.N
abbrev Wa2 (c : Dev nD) : Valuation τ sig (Elt F) := Function.update (Va2 m c) main_v14 (o6 m c)
/-- At the return: after the last host stretch. -/
abbrev Vfin (c : Dev nD) : Valuation τ sig (Elt F) := StableHlo.after hostOps3 (Wa2 m c)

/-- After call 0 each of its arrays holds what the write-backs leave — the two inputs what they held, the result
    the call's output — and every other buffer what it held at entry. -/
theorem hF0 (c : Dev nD) (w : Fin cfg0.W) : (dat0 (En0 m) c).arrAt w cfg0.N = Wa0 m c (Pipeline.arrRef spec0 w) :=
  match w with
  | ⟨0, _⟩ => ((dat0 (En0 m) c).arrAt_in 0 rfl _).trans ((A_eq0 (En0 m) c 0).trans (show Va0 m c main_v0 = Wa0 m c main_v0 from
      (Function.update_of_ne (StableHlo.devRef_ne_of_ne (by decide) : (Proc.devRef .tc main_v0 : DevRef τ sig) ≠ Proc.devRef .tc main_v4) _ _).symm))
  | ⟨1, _⟩ => ((dat0 (En0 m) c).arrAt_in 1 rfl _).trans ((A_eq0 (En0 m) c 1).trans (show Va0 m c main_v3 = Wa0 m c main_v3 from
      (Function.update_of_ne (StableHlo.devRef_ne_of_ne (by decide) : (Proc.devRef .tc main_v3 : DevRef τ sig) ≠ Proc.devRef .tc main_v4) _ _).symm))
  | ⟨2, _⟩ => (show o2 m c = Function.update (Va0 m c) (Proc.devRef .tc main_v4 : DevRef τ sig) (o2 m c) (Proc.devRef .tc main_v4 : DevRef τ sig) from by rw [Function.update_self])
theorem hrest0 (c : Dev nD) : ∀ b, b ∉ Finset.univ.image (Pipeline.arrRef spec0) → Wa0 m c b = En0 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v4) _ _

/-- After call 1 each of its arrays holds what the write-backs leave — the two inputs what they held, the result
    the call's output — and every other buffer what it held at entry. -/
theorem hF1 (c : Dev nD) (w : Fin cfg1.W) : (dat1 (En1 m) c).arrAt w cfg1.N = Wa1 m c (Pipeline.arrRef spec1 w) :=
  match w with
  | ⟨0, _⟩ => ((dat1 (En1 m) c).arrAt_in 0 rfl _).trans ((A_eq1 (En1 m) c 0).trans (show Va1 m c main_v4 = Wa1 m c main_v4 from
      (Function.update_of_ne (StableHlo.devRef_ne_of_ne (by decide) : (Proc.devRef .tc main_v4 : DevRef τ sig) ≠ Proc.devRef .tc main_v9) _ _).symm))
  | ⟨1, _⟩ => ((dat1 (En1 m) c).arrAt_in 1 rfl _).trans ((A_eq1 (En1 m) c 1).trans (show Va1 m c main_v8 = Wa1 m c main_v8 from
      (Function.update_of_ne (StableHlo.devRef_ne_of_ne (by decide) : (Proc.devRef .tc main_v8 : DevRef τ sig) ≠ Proc.devRef .tc main_v9) _ _).symm))
  | ⟨2, _⟩ => (show o4 m c = Function.update (Va1 m c) (Proc.devRef .tc main_v9 : DevRef τ sig) (o4 m c) (Proc.devRef .tc main_v9 : DevRef τ sig) from by rw [Function.update_self])
theorem hrest1 (c : Dev nD) : ∀ b, b ∉ Finset.univ.image (Pipeline.arrRef spec1) → Wa1 m c b = En1 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v9) _ _

/-- After call 2 each of its arrays holds what the write-backs leave — the two inputs what they held, the result
    the call's output — and every other buffer what it held at entry. -/
theorem hF2 (c : Dev nD) (w : Fin cfg2.W) : (dat2 (En2 m) c).arrAt w cfg2.N = Wa2 m c (Pipeline.arrRef spec2 w) :=
  match w with
  | ⟨0, _⟩ => ((dat2 (En2 m) c).arrAt_in 0 rfl _).trans ((A_eq2 (En2 m) c 0).trans (show Va2 m c main_v9 = Wa2 m c main_v9 from
      (Function.update_of_ne (StableHlo.devRef_ne_of_ne (by decide) : (Proc.devRef .tc main_v9 : DevRef τ sig) ≠ Proc.devRef .tc main_v14) _ _).symm))
  | ⟨1, _⟩ => ((dat2 (En2 m) c).arrAt_in 1 rfl _).trans ((A_eq2 (En2 m) c 1).trans (show Va2 m c main_v13 = Wa2 m c main_v13 from
      (Function.update_of_ne (StableHlo.devRef_ne_of_ne (by decide) : (Proc.devRef .tc main_v13 : DevRef τ sig) ≠ Proc.devRef .tc main_v14) _ _).symm))
  | ⟨2, _⟩ => (show o6 m c = Function.update (Va2 m c) (Proc.devRef .tc main_v14 : DevRef τ sig) (o6 m c) (Proc.devRef .tc main_v14 : DevRef τ sig) from by rw [Function.update_self])
theorem hrest2 (c : Dev nD) : ∀ b, b ∉ Finset.univ.image (Pipeline.arrRef spec2) → Wa2 m c b = En2 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v14) _ _

/-! ## The proof data family and what rides beside the buffers -/

abbrev adm : (p : Fin 3) → (pcfgs (F := F) p).Adm := fun p => (cfgs p).toPCfg_adm
/-- Every call's proof data at its entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
/-- No core owes another anything. -/
abbrev Lz : GSem nD τ sig → Finset Unit := fun _ => ∅
abbrev lvz : GSem nD τ sig → Unit → ℕ := fun _ _ => 0
/-- Beside the buffers through every segment: the generator register at some state, and the core owing nothing. -/
abbrev Rr (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh
theorem hostOps2_fresh' : (hostOps2 : List (HloOp τ sig (Elt F))).Forall fun op => op.fresh = ∅ := hostOps2_fresh
theorem hostOps3_fresh' : (hostOps3 : List (HloOp τ sig (Elt F))).Forall fun op => op.fresh = ∅ := hostOps3_fresh

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The kernel calls as segments -/

set_option backward.isDefEq.respectTransparency.types false in
/-- Kernel call 0 as a segment of @main: entered with every unscoped buffer at `Va0`, left with them at `Wa0`.
    Its three arrays are split out of the unscoped buffers and put back at their final contents; the generator register
    goes into the region invariant and comes back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lz lvz 0 fun _ _ => rfl
  pre c := iprop(StableHlo.held (c : Thread nD τ) (Pipeline.ucRefs τ sig) (Va0 m c) ∗ Rr c)
  post c := iprop(StableHlo.held (c : Thread nD τ) (Pipeline.ucRefs τ sig) (Wa0 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (En0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => Wa0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment of @main: entered with every unscoped buffer at `Va1`, left with them at `Wa1`.
    Its three arrays are split out of the unscoped buffers and put back at their final contents; the generator register
    goes into the region invariant and comes back; nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lz lvz 1 fun _ _ => rfl
  pre c := iprop(StableHlo.held (c : Thread nD τ) (Pipeline.ucRefs τ sig) (Va1 m c) ∗ Rr c)
  post c := iprop(StableHlo.held (c : Thread nD τ) (Pipeline.ucRefs τ sig) (Wa1 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (En1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => Wa1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 as a segment of @main: entered with every unscoped buffer at `Va2`, left with them at `Wa2`.
    Its three arrays are split out of the unscoped buffers and put back at their final contents; the generator register
    goes into the region invariant and comes back; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ Lz lvz 2 fun _ _ => rfl
  pre c := iprop(StableHlo.held (c : Thread nD τ) (Pipeline.ucRefs τ sig) (Va2 m c) ∗ Rr c)
  post c := iprop(StableHlo.held (c : Thread nD τ) (Pipeline.ucRefs τ sig) (Wa2 m c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (En2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b => Wa2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ Variants.none Lz lvz) :=
  [ .host (hseg hostOps0 hostOps0_sub hostOps0_fresh' (fun c b => m (c, b))),
    .region (reg0 m),
    .host (hseg hostOps1 hostOps1_sub hostOps1_fresh' (Wa0 m)),
    .region (reg1 m),
    .host (hseg hostOps2 hostOps2_sub hostOps2_fresh' (Wa1 m)),
    .region (reg2 m),
    .host (hseg hostOps3 hostOps3_sub hostOps3_fresh' (Wa2 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and every final state has every unscoped buffer at `Vfin`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Vfin m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rr c))
    (Tₙ := fun c => iprop(StableHlo.held (c : Thread nD τ) (Pipeline.ucRefs τ sig) (Vfin m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Vfin m c) ∗ Rr c)
        ⊢ iprop(iprop(StableHlo.held (c : Thread nD τ) (Pipeline.ucRefs τ sig) (Vfin m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Vfin m c b)
    (hfin := fun c s' => by
      iintro ⟨⟨Hh, -⟩, HSI⟩
      unfold StableHlo.held
      imodintro
      iapply (pointsTo_read_all (Pipeline.ucRefs τ sig) (fun b => (((c : Thread nD τ)).1, b)) (Vfin m c) s')
      isplitl [Hh] <;> iassumption)
    (hQ := fun s h => h)

/-- The argument array is never written: no host stretch writes it and no call may change it. -/
theorem Vfin_main_arg0 (c : Dev nD) : Vfin m c main_arg0 = m ((c : Thread nD τ).loc main_arg0) := by
  have e7 : Vfin m c main_arg0 = Wa2 m c main_arg0 := StableHlo.after_of_writes_sub hostOps3 _ hostOps3_writes (by decide)
  have e6 : Wa2 m c main_arg0 = Va2 m c main_arg0 := Function.update_of_ne (StableHlo.devRef_ne_of_ne (by decide) : (Proc.devRef .tc main_arg0 : DevRef τ sig) ≠ Proc.devRef .tc main_v14) _ _
  have e5 : Va2 m c main_arg0 = Wa1 m c main_arg0 := StableHlo.after_of_writes_sub hostOps2 _ hostOps2_writes (by decide)
  have e4 : Wa1 m c main_arg0 = Va1 m c main_arg0 := Function.update_of_ne (StableHlo.devRef_ne_of_ne (by decide) : (Proc.devRef .tc main_arg0 : DevRef τ sig) ≠ Proc.devRef .tc main_v9) _ _
  have e3 : Va1 m c main_arg0 = Wa0 m c main_arg0 := StableHlo.after_of_writes_sub hostOps1 _ hostOps1_writes (by decide)
  have e2 : Wa0 m c main_arg0 = Va0 m c main_arg0 := Function.update_of_ne (StableHlo.devRef_ne_of_ne (by decide) : (Proc.devRef .tc main_arg0 : DevRef τ sig) ≠ Proc.devRef .tc main_v4) _ _
  have e1 : Va0 m c main_arg0 = m ((c : Thread nD τ).loc main_arg0) := StableHlo.after_of_writes_sub hostOps0 _ hostOps0_writes (by decide)
  exact e7.trans (e6.trans (e5.trans (e4.trans (e3.trans (e2.trans e1)))))

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (Vfin_main_arg0 m c)) (run_all m ρ)

end Cert.Kernel.Body

end
-- ==== Proof.KI.Base.lean ====
/-
  The three kernel calls of the program: the points of each call's 4×8 grid at which the body clears its accumulator
  (the first key tile of a query tile) and at which it writes its output block (the last key tile), the output window's
  idleness elsewhere, and the region invariant with the call's accumulator named.
-/
import proofs.«120442_j39496519254112_2_alg».proof.Proof.Gen.KernelIdeal.Launch
import proofs.«120442_j39496519254112_2_alg».proof.Proof.Gen.KernelIdeal.Skeleton
import proofs.«120442_j39496519254112_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Kernel call 0: where its two conditionals hold, where its output window is idle, its memrefs -/

/-- The first conditional of the body (the accumulator is cleared): the key-tile coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional (the output block is written): the key-tile coordinate is 7. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Where the output block is not written the window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window and the scratch, as views through which contents are stated. -/
abbrev VO0_2 : View sig .tc .vmem S32x2304 .f32 := (Memref.whole cc0_stg2_0 : Memref sig .tc .vmem S32x2304 .f32).view
abbrev ms0_0 (t : Fin cfg0.N) : Memref sig .tc .vmem S32x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40x1152 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x2304 .f32 := win0_2.stage (cfg0.slots t 2)
abbrev hs0_2 (t : Fin cfg0.N) : (ms0_2 t).IsWhole := hstage0_2 ((cfg0.slots t 2).cast nbuf0_2)
abbrev scM0 : Memref sig .tc .vmem S40x2304 .f32 := Memref.whole cc0_scratch0
abbrev VS0 : View sig .tc .vmem S40x2304 .f32 := scM0.view

/-- The other scoped buffers of the core (the other calls' staging buffers and accumulators), at some contents. -/
abbrev Rest0 (c : Dev nD) : sProp 𝕄 :=
  Pipeline.scopedRestBut (Ix := Unit) (Name := ℕ) (U := UR sig nD τ) (Lvl := ℕ) (Val := Elt F) spec0 c [cc0_scratch0]

/-- The region's class invariant with this call's accumulator split off as an owned memref. -/
theorem PhiA0_eq (c : Dev nD) :
    (Pipeline.ΦA spec0 c : sProp 𝕄)
      = iprop(iprop((∃ d, owns (c : Thread nD τ) scM0 fullShare d) ∗ Rest0 c) ∗ (∃ r, prngReg c r)) := by
  unfold Pipeline.ΦA
  rw [Pipeline.scopedRest_split_of_list spec0 c [cc0_scratch0] (by decide) (by decide)]
  rw [show bigSepL [cc0_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc0_scratch0), ((c.tc : Thread nD τ).loc cc0_scratch0) ↦{fullShare} f) from rfl]
  simp only [scM0, owns_whole]
  try rfl

/-! ## Kernel call 1: where its two conditionals hold, where its output window is idle, its memrefs -/

/-- The first conditional of the body (the accumulator is cleared): the key-tile coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The second conditional (the output block is written): the key-tile coordinate is 7. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not written the window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window and the scratch, as views through which contents are stated. -/
abbrev VO1_2 : View sig .tc .vmem S32x2304 .f32 := (Memref.whole cc1_stg2_0 : Memref sig .tc .vmem S32x2304 .f32).view
abbrev ms1_0 (t : Fin cfg1.N) : Memref sig .tc .vmem S32x2304 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S40x1152 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x2304 .f32 := win1_2.stage (cfg1.slots t 2)
abbrev hs1_2 (t : Fin cfg1.N) : (ms1_2 t).IsWhole := hstage1_2 ((cfg1.slots t 2).cast nbuf1_2)
abbrev scM1 : Memref sig .tc .vmem S40x2304 .f32 := Memref.whole cc1_scratch0
abbrev VS1 : View sig .tc .vmem S40x2304 .f32 := scM1.view

/-- The other scoped buffers of the core (the other calls' staging buffers and accumulators), at some contents. -/
abbrev Rest1 (c : Dev nD) : sProp 𝕄 :=
  Pipeline.scopedRestBut (Ix := Unit) (Name := ℕ) (U := UR sig nD τ) (Lvl := ℕ) (Val := Elt F) spec1 c [cc1_scratch0]

/-- The region's class invariant with this call's accumulator split off as an owned memref. -/
theorem PhiA1_eq (c : Dev nD) :
    (Pipeline.ΦA spec1 c : sProp 𝕄)
      = iprop(iprop((∃ d, owns (c : Thread nD τ) scM1 fullShare d) ∗ Rest1 c) ∗ (∃ r, prngReg c r)) := by
  unfold Pipeline.ΦA
  rw [Pipeline.scopedRest_split_of_list spec1 c [cc1_scratch0] (by decide) (by decide)]
  rw [show bigSepL [cc1_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc1_scratch0), ((c.tc : Thread nD τ).loc cc1_scratch0) ↦{fullShare} f) from rfl]
  simp only [scM1, owns_whole]
  try rfl

/-! ## Kernel call 2: where its two conditionals hold, where its output window is idle, its memrefs -/

/-- The first conditional of the body (the accumulator is cleared): the key-tile coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- The second conditional (the output block is written): the key-tile coordinate is 7. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
/-- Where the output block is not written the window is idle and not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- One staging buffer of the output window and the scratch, as views through which contents are stated. -/
abbrev VO2_2 : View sig .tc .vmem S32x2304 .f32 := (Memref.whole cc2_stg2_0 : Memref sig .tc .vmem S32x2304 .f32).view
abbrev ms2_0 (t : Fin cfg2.N) : Memref sig .tc .vmem S32x2304 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S40x1152 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x2304 .f32 := win2_2.stage (cfg2.slots t 2)
abbrev hs2_2 (t : Fin cfg2.N) : (ms2_2 t).IsWhole := hstage2_2 ((cfg2.slots t 2).cast nbuf2_2)
abbrev scM2 : Memref sig .tc .vmem S40x2304 .f32 := Memref.whole cc2_scratch0
abbrev VS2 : View sig .tc .vmem S40x2304 .f32 := scM2.view

/-- The other scoped buffers of the core (the other calls' staging buffers and accumulators), at some contents. -/
abbrev Rest2 (c : Dev nD) : sProp 𝕄 :=
  Pipeline.scopedRestBut (Ix := Unit) (Name := ℕ) (U := UR sig nD τ) (Lvl := ℕ) (Val := Elt F) spec2 c [cc2_scratch0]

/-- The region's class invariant with this call's accumulator split off as an owned memref. -/
theorem PhiA2_eq (c : Dev nD) :
    (Pipeline.ΦA spec2 c : sProp 𝕄)
      = iprop(iprop((∃ d, owns (c : Thread nD τ) scM2 fullShare d) ∗ Rest2 c) ∗ (∃ r, prngReg c r)) := by
  unfold Pipeline.ΦA
  rw [Pipeline.scopedRest_split_of_list spec2 c [cc2_scratch0] (by decide) (by decide)]
  rw [show bigSepL [cc2_scratch0] (fun b => iprop(∃ f : Buf (Elt F) ((c.tc : Thread nD τ).loc b), ((c.tc : Thread nD τ).loc b) ↦{fullShare} f) : Ref sig .tc → sProp 𝕄) = iprop(∃ f : Buf (Elt F) ((c.tc : Thread nD τ).loc cc2_scratch0), ((c.tc : Thread nD τ).loc cc2_scratch0) ↦{fullShare} f) from rfl]
  simp only [scM2, owns_whole]
  try rfl

end Cert.KernelIdeal.Body

end
-- ==== Proof.KI.Run0A.lean ====
/-
  Kernel call 0: the body's run at a first key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨[], ?_, fun xi2 E K => ?run⟩
  case run =>
    simp only [cc0__ms_iter_kernel_eq_skeleton]; unfold cc0__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run0B.lean ====
/-
  Kernel call 0: the body's run at a middle key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨[], ?_, fun xi2 E K => ?run⟩
  case run =>
    simp only [cc0__ms_iter_kernel_eq_skeleton]; unfold cc0__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run0C.lean ====
/-
  Kernel call 0: the body's run at a last key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__ms_iter_kernel i arg2 harg2 arg3 harg3 arg4 harg4 arg5 harg5) K } := by
  refine ⟨?_, ?_, fun E K => ?run⟩
  case run =>
    simp only [cc0__ms_iter_kernel_eq_skeleton]; unfold cc0__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.KI.Reg0.lean ====
/-
  Kernel call 0 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KI.Run0A
import proofs.«120442_j39496519254112_2_alg».proof.Proof.KI.Run0B
import proofs.«120442_j39496519254112_2_alg».proof.Proof.KI.Run0C

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 0 at the entry contents `V` -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator and the output buffer -/

theorem scover0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) (y : S40x2304.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S40x2304.size (by sl_kernel_rfl) y
/-- What a first key tile leaves in the accumulator: its pieces read back. -/
def sout0_A (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) : Vec F S40x2304 .f32 :=
  VS0.read (Elt F) (VS0.writes (Elt F) VS0.junk (kernelRun0_A c i arg2 harg2 arg3 harg3 arg4 harg4 arg5 harg5 hc0 hc1 x0 x1).2.1)

theorem scover0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) (y : S40x2304.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S40x2304.size (by sl_kernel_rfl) y
/-- What a middle key tile leaves in the accumulator. -/
def sout0_B (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) : Vec F S40x2304 .f32 :=
  VS0.read (Elt F) (VS0.writes (Elt F) VS0.junk (kernelRun0_B c i arg2 harg2 arg3 harg3 arg4 harg4 arg5 harg5 hc0 hc1 x0 x1 xs0).2.1)

theorem cover0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) (y : S32x2304.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S32x2304.size (by sl_kernel_rfl) y
/-- What a last key tile leaves in the output buffer. -/
def out0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) : Vec F S32x2304 .f32 :=
  VO0_2.read (Elt F) (VO0_2.writes (Elt F) VO0_2.junk (kernelRun0_C c i arg2 harg2 arg3 harg3 arg4 harg4 arg5 harg5 hc0 hc1 x0 x1 xs0).1)
theorem scover0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) (y : S40x2304.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S40x2304.size (by sl_kernel_rfl) y
/-- What a last key tile leaves in the accumulator. -/
def sout0_C (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) : Vec F S40x2304 .f32 :=
  VS0.read (Elt F) (VS0.writes (Elt F) VS0.junk (kernelRun0_C c i arg2 harg2 arg3 harg3 arg4 harg4 arg5 harg5 hc0 hc1 x0 x1 xs0).2.1)

/-- Where the body writes no output block the output buffer's contents are never consulted: a placeholder. -/
def idleOut0 : Vec F S32x2304 .f32 := VO0_2.read (Elt F) VO0_2.junk

/-! ## The accumulation, point by point -/

/-- What the output buffer and the accumulator hold after the body at position `n`: the case the position selects
    (≡ 0, ≡ 7, or between, modulo 8), run at the point's memrefs and input blocks, the accumulator entering a later key
    tile at what the position before left. -/
def outsAt0 (c : Dev nD) : (n : ℕ) → n < cfg0.N → Vec F S32x2304 .f32 × Vec F S40x2304 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Rest0 c) ∗ (∃ r, prngReg c r)) := by
  cases n with
  | zero => exact absurd rfl hz
  | succ n => rfl

/-! ## The call's proof data -/

/-- The arrays as the call finds them; after the body at point `t` each input's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS0, HR⟩, Hg⟩
  isplitl [HS0 HR]
  · isplitl [HS0]
    · iexists _; iexact HS0
    iexact HR
  iexact Hg

end Cert.KernelIdeal.Body

end
-- ==== Proof.KI.Run1A.lean ====
/-
  Kernel call 1: the body's run at a first key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨[], ?_, fun xi2 E K => ?run⟩
  case run =>
    simp only [cc1__ms_iter_kernel_eq_skeleton]; unfold cc1__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run1B.lean ====
/-
  Kernel call 1: the body's run at a middle key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨[], ?_, fun xi2 E K => ?run⟩
  case run =>
    simp only [cc1__ms_iter_kernel_eq_skeleton]; unfold cc1__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run1C.lean ====
/-
  Kernel call 1: the body's run at a last key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__ms_iter_kernel i arg2 harg2 arg3 harg3 arg4 harg4 arg5 harg5) K } := by
  refine ⟨?_, ?_, fun E K => ?run⟩
  case run =>
    simp only [cc1__ms_iter_kernel_eq_skeleton]; unfold cc1__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.KI.Reg1.lean ====
/-
  Kernel call 1 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KI.Run1A
import proofs.«120442_j39496519254112_2_alg».proof.Proof.KI.Run1B
import proofs.«120442_j39496519254112_2_alg».proof.Proof.KI.Run1C

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 1 at the entry contents `V` -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and the output buffer -/

theorem scover1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) (y : S40x2304.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S40x2304.size (by sl_kernel_rfl) y
/-- What a first key tile leaves in the accumulator: its pieces read back. -/
def sout1_A (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) : Vec F S40x2304 .f32 :=
  VS1.read (Elt F) (VS1.writes (Elt F) VS1.junk (kernelRun1_A c i arg2 harg2 arg3 harg3 arg4 harg4 arg5 harg5 hc0 hc1 x0 x1).2.1)

theorem scover1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) (y : S40x2304.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S40x2304.size (by sl_kernel_rfl) y
/-- What a middle key tile leaves in the accumulator. -/
def sout1_B (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) : Vec F S40x2304 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) (y : S32x2304.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S32x2304.size (by sl_kernel_rfl) y
/-- What a last key tile leaves in the output buffer. -/
def out1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) : Vec F S32x2304 .f32 :=
  VO1_2.read (Elt F) (VO1_2.writes (Elt F) VO1_2.junk (kernelRun1_C c i arg2 harg2 arg3 harg3 arg4 harg4 arg5 harg5 hc0 hc1 x0 x1 xs0).1)
theorem scover1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) (y : S40x2304.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S40x2304.size (by sl_kernel_rfl) y
/-- What a last key tile leaves in the accumulator. -/
def sout1_C (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) : Vec F S40x2304 .f32 :=
  VS1.read (Elt F) (VS1.writes (Elt F) VS1.junk (kernelRun1_C c i arg2 harg2 arg3 harg3 arg4 harg4 arg5 harg5 hc0 hc1 x0 x1 xs0).2.1)

/-- Where the body writes no output block the output buffer's contents are never consulted: a placeholder. -/
def idleOut1 : Vec F S32x2304 .f32 := VO1_2.read (Elt F) VO1_2.junk

/-! ## The accumulation, point by point -/

/-- What the output buffer and the accumulator hold after the body at position `n`: the case the position selects
    (≡ 0, ≡ 7, or between, modulo 8), run at the point's memrefs and input blocks, the accumulator entering a later key
    tile at what the position before left. -/
def outsAt1 (c : Dev nD) : (n : ℕ) → n < cfg1.N → Vec F S32x2304 .f32 × Vec F S40x2304 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (idleOut1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (idleOut1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Rest1 c) ∗ (∃ r, prngReg c r)) := by
  cases n with
  | zero => exact absurd rfl hz
  | succ n => rfl

/-! ## The call's proof data -/

/-- The arrays as the call finds them; after the body at point `t` each input's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, HR⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨HS0, HR⟩, Hg⟩
  isplitl [HS0 HR]
  · isplitl [HS0]
    · iexists _; iexact HS0
    iexact HR
  iexact Hg

end Cert.KernelIdeal.Body

end
-- ==== Proof.KI.Run2A.lean ====
/-
  Kernel call 2: the body's run at a first key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a first key tile (the accumulator cleared, the output block not written): on whole memrefs — the query
    and key blocks at their contents, the output buffer handed back untouched, the accumulator at anything — it runs to
    the continuation with the accumulator holding the pieces the run finds. -/
noncomputable def kernelRun2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨[], ?_, fun xi2 E K => ?run⟩
  case run =>
    simp only [cc2__ms_iter_kernel_eq_skeleton]; unfold cc2__ms_iter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run2B.lean ====
/-
  Kernel call 2: the body's run at a middle key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle key tile (nothing cleared, the output block not written): the accumulator goes in at the
    contents the point before left and comes back with the pieces the run finds. -/
noncomputable def kernelRun2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (xi2 : Vec F S32x2304 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨[], ?_, fun xi2 E K => ?run⟩
  case run =>
    simp only [cc2__ms_iter_kernel_eq_skeleton]; unfold cc2__ms_iter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.KI.Run2C.lean ====
/-
  Kernel call 2: the body's run at a last key tile, by symbolic execution of its skeleton, with what it leaves in the
  accumulator (and in the output buffer) found as pieces.
-/
import proofs.«120442_j39496519254112_2_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a last key tile (nothing cleared, the output block written): the accumulator goes in at the contents
    the point before left; it and the output buffer come back with the pieces the run finds. -/
noncomputable def kernelRun2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) :
    Σ' (L2 : List (View.Piece (Elt F) S32x2304 .f32)), { LS0 : List (View.Piece (Elt F) S40x2304 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__ms_iter_kernel i arg2 harg2 arg3 harg3 arg4 harg4 arg5 harg5) K } := by
  refine ⟨?_, ?_, fun E K => ?run⟩
  case run =>
    simp only [cc2__ms_iter_kernel_eq_skeleton]; unfold cc2__ms_iter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.KI.Reg2.lean ====
/-
  Kernel call 2 as a pipeline with proof data, at any contents `V` of the core's buffers when the call is entered:
  the accumulator's and the output buffer's contents point by point (the first key tile of a query tile clears the
  accumulator and adds its tile, a later one adds, the last also writes the output block), the region invariant that
  carries the accumulator from point to point, and the body obligation at every point.
-/
import proofs.«120442_j39496519254112_2_alg».proof.Proof.KI.Run2A
import proofs.«120442_j39496519254112_2_alg».proof.Proof.KI.Run2B
import proofs.«120442_j39496519254112_2_alg».proof.Proof.KI.Run2C

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Kernel call 2 at the entry contents `V` -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator and the output buffer -/

theorem scover2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) (y : S40x2304.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S40x2304.size (by sl_kernel_rfl) y
/-- What a first key tile leaves in the accumulator: its pieces read back. -/
def sout2_A (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) : Vec F S40x2304 .f32 :=
  VS2.read (Elt F) (VS2.writes (Elt F) VS2.junk (kernelRun2_A c i arg2 harg2 arg3 harg3 arg4 harg4 arg5 harg5 hc0 hc1 x0 x1).2.1)

theorem scover2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) (y : S40x2304.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S40x2304.size (by sl_kernel_rfl) y
/-- What a middle key tile leaves in the accumulator. -/
def sout2_B (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) : Vec F S40x2304 .f32 :=
  VS2.read (Elt F) (VS2.writes (Elt F) VS2.junk (kernelRun2_B c i arg2 harg2 arg3 harg3 arg4 harg4 arg5 harg5 hc0 hc1 x0 x1 xs0).2.1)

theorem cover2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) (y : S32x2304.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S32x2304.size (by sl_kernel_rfl) y
/-- What a last key tile leaves in the output buffer. -/
def out2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) : Vec F S32x2304 .f32 :=
  VO2_2.read (Elt F) (VO2_2.writes (Elt F) VO2_2.junk (kernelRun2_C c i arg2 harg2 arg3 harg3 arg4 harg4 arg5 harg5 hc0 hc1 x0 x1 xs0).1)
theorem scover2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) (y : S40x2304.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S40x2304.size (by sl_kernel_rfl) y
/-- What a last key tile leaves in the accumulator. -/
def sout2_C (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) : Vec F S40x2304 .f32 :=
  VS2.read (Elt F) (VS2.writes (Elt F) VS2.junk (kernelRun2_C c i arg2 harg2 arg3 harg3 arg4 harg4 arg5 harg5 hc0 hc1 x0 x1 xs0).2.1)

/-- Where the body writes no output block the output buffer's contents are never consulted: a placeholder. -/
def idleOut2 : Vec F S32x2304 .f32 := VO2_2.read (Elt F) VO2_2.junk

/-! ## The accumulation, point by point -/

/-- What the output buffer and the accumulator hold after the body at position `n`: the case the position selects
    (≡ 0, ≡ 7, or between, modulo 8), run at the point's memrefs and input blocks, the accumulator entering a later key
    tile at what the position before left. -/
def outsAt2 (c : Dev nD) : (n : ℕ) → n < cfg2.N → Vec F S32x2304 .f32 × Vec F S40x2304 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (idleOut2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 8 = 0) (h1 : ¬t.val % 8 = 7) :
    outsAt2 V c t.val t.isLt = (idleOut2, sout2_A c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 8 = 0) (h1 : ¬t.val % 8 = 7) :
    outsAt2 V c t.val t.isLt = (idleOut2, sout2_B c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 8 = 0) (h1 : t.val % 8 = 7) :
    outsAt2 V c t.val t.isLt = (out2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what
    the point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Rest2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ Rest2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Rest2 c) ∗ (∃ r, prngReg c r)) := by
  cases n with
  | zero => exact absurd rfl hz
  | succ n => rfl

/-! ## The call's proof data -/

/-- The arrays as the call finds them; after the body at point `t` each input's buffer at its block and the output's
    at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the position modulo 8 says which case the point is
    in; the invariant hands the body the accumulator at what the point before left (at anything at the first point) and
    takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h0 : t.val % 8 = 0
  · have h1 : ¬t.val % 8 = 7 := by omega
    rw [Dat.leavesExact_idle (dat2 V c) 2 t (idleAt2_2 t (fun h => h1 ((hcond2_1 t).mp h))) (noFlush2_2 t (fun h => h1 ((hcond2_1 t).mp h)))]
    rw [outsAt2_A V c t h0 h1]
    unfold sout2_A; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ ((hcond2_0 t).mpr h0) (fun h => h1 ((hcond2_1 t).mp h)) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    by_cases h1 : t.val % 8 = 7
    · rw [show (dat2 V c).leavesExact 2 t = owns (c : Thread nD τ) (ms2_2 t) fullShare ((dat2 V c).after 2 t) from by
        unfold Dat.leavesExact; rw [liveAt2_2 t ((hcond2_1 t).mpr h1)], after2_2]
      rw [outsAt2_C V c t h0 h1]
      unfold out2_C sout2_C; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C c _ _ _ _ _ _ _ _ _ _ _ _ _ _)
    · rw [Dat.leavesExact_idle (dat2 V c) 2 t (idleAt2_2 t (fun h => h1 ((hcond2_1 t).mp h))) (noFlush2_2 t (fun h => h1 ((hcond2_1 t).mp h)))]
      rw [outsAt2_B V c t h0 h1]
      unfold sout2_B; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end Cert.KernelIdeal.Body

end
-- ==== Proof.KI.Main.lean ====
/-
  The program's @main as a run: three host stretches, each followed by a kernel call, and a last host stretch. The
  buffers' contents at every boundary are a fold from the launch memory — a host stretch applies its operations, a
  kernel call replaces its result array by what its write-backs leave — and every weakly fair execution ends with every
  unscoped buffer at the last boundary's contents.
-/
import proofs.«120442_j39496519254112_2_alg».proof.Proof.KI.Reg0
import proofs.«120442_j39496519254112_2_alg».proof.Proof.KI.Reg1
import proofs.«120442_j39496519254112_2_alg».proof.Proof.KI.Reg2
import proofs.«120442_j39496519254112_2_alg».proof.Proof.Gen.KernelIdeal.Regions
import Idealize.ShloMosaic.Lib.Pipeline.RegionsLoop

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Entering call 0: the launch memory after the first host stretch. -/
abbrev Va0 (c : Dev nD) : Valuation τ sig (Elt F) := StableHlo.after hostOps0 (fun b => m (c, b))
abbrev En0 (c : Dev nD) (b : Ref sig .tc) : Buf (Elt F) ((c : Thread nD τ).loc b) := Va0 m c b
/-- What call 0 leaves in its result array. -/
def o2 (c : Dev nD) : Buf (Elt F) ((c : Thread nD τ).loc main_v4) := (dat0 (En0 m) c).arrAt 2 cfg0.N
/-- Leaving call 0. -/
abbrev Wa0 (c : Dev nD) : Valuation τ sig (Elt F) := Function.update (Va0 m c) main_v4 (o2 m c)
/-- Entering call 1: after the second host stretch. -/
abbrev Va1 (c : Dev nD) : Valuation τ sig (Elt F) := StableHlo.after hostOps1 (Wa0 m c)
abbrev En1 (c : Dev nD) (b : Ref sig .tc) : Buf (Elt F) ((c : Thread nD τ).loc b) := Va1 m c b
def o4 (c : Dev nD) : Buf (Elt F) ((c : Thread nD τ).loc main_v9) := (dat1 (En1 m) c).arrAt 2 cfg1.N
abbrev Wa1 (c : Dev nD) : Valuation τ sig (Elt F) := Function.update (Va1 m c) main_v9 (o4 m c)
/-- Entering call 2: after the third host stretch. -/
abbrev Va2 (c : Dev nD) : Valuation τ sig (Elt F) := StableHlo.after hostOps2 (Wa1 m c)
abbrev En2 (c : Dev nD) (b : Ref sig .tc) : Buf (Elt F) ((c : Thread nD τ).loc b) := Va2 m c b
def o6 (c : Dev nD) : Buf (Elt F) ((c : Thread nD τ).loc main_v14) := (dat2 (En2 m) c).arrAt 2 cfg2.N
abbrev Wa2 (c : Dev nD) : Valuation τ sig (Elt F) := Function.update (Va2 m c) main_v14 (o6 m c)
/-- At the return: after the last host stretch. -/
abbrev Vfin (c : Dev nD) : Valuation τ sig (Elt F) := StableHlo.after hostOps3 (Wa2 m c)

/-- After call 0 each of its arrays holds what the write-backs leave — the two inputs what they held, the result
    the call's output — and every other buffer what it held at entry. -/
theorem hF0 (c : Dev nD) (w : Fin cfg0.W) : (dat0 (En0 m) c).arrAt w cfg0.N = Wa0 m c (Pipeline.arrRef spec0 w) :=
  match w with
  | ⟨0, _⟩ => ((dat0 (En0 m) c).arrAt_in 0 rfl _).trans ((A_eq0 (En0 m) c 0).trans (show Va0 m c main_v0 = Wa0 m c main_v0 from
      (Function.update_of_ne (StableHlo.devRef_ne_of_ne (by decide) : (Proc.devRef .tc main_v0 : DevRef τ sig) ≠ Proc.devRef .tc main_v4) _ _).symm))
  | ⟨1, _⟩ => ((dat0 (En0 m) c).arrAt_in 1 rfl _).trans ((A_eq0 (En0 m) c 1).trans (show Va0 m c main_v3 = Wa0 m c main_v3 from
      (Function.update_of_ne (StableHlo.devRef_ne_of_ne (by decide) : (Proc.devRef .tc main_v3 : DevRef τ sig) ≠ Proc.devRef .tc main_v4) _ _).symm))
  | ⟨2, _⟩ => (show o2 m c = Function.update (Va0 m c) (Proc.devRef .tc main_v4 : DevRef τ sig) (o2 m c) (Proc.devRef .tc main_v4 : DevRef τ sig) from by rw [Function.update_self])
theorem hrest0 (c : Dev nD) : ∀ b, b ∉ Finset.univ.image (Pipeline.arrRef spec0) → Wa0 m c b = En0 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v4) _ _

/-- After call 1 each of its arrays holds what the write-backs leave — the two inputs what they held, the result
    the call's output — and every other buffer what it held at entry. -/
theorem hF1 (c : Dev nD) (w : Fin cfg1.W) : (dat1 (En1 m) c).arrAt w cfg1.N = Wa1 m c (Pipeline.arrRef spec1 w) :=
  match w with
  | ⟨0, _⟩ => ((dat1 (En1 m) c).arrAt_in 0 rfl _).trans ((A_eq1 (En1 m) c 0).trans (show Va1 m c main_v4 = Wa1 m c main_v4 from
      (Function.update_of_ne (StableHlo.devRef_ne_of_ne (by decide) : (Proc.devRef .tc main_v4 : DevRef τ sig) ≠ Proc.devRef .tc main_v9) _ _).symm))
  | ⟨1, _⟩ => ((dat1 (En1 m) c).arrAt_in 1 rfl _).trans ((A_eq1 (En1 m) c 1).trans (show Va1 m c main_v8 = Wa1 m c main_v8 from
      (Function.update_of_ne (StableHlo.devRef_ne_of_ne (by decide) : (Proc.devRef .tc main_v8 : DevRef τ sig) ≠ Proc.devRef .tc main_v9) _ _).symm))
  | ⟨2, _⟩ => (show o4 m c = Function.update (Va1 m c) (Proc.devRef .tc main_v9 : DevRef τ sig) (o4 m c) (Proc.devRef .tc main_v9 : DevRef τ sig) from by rw [Function.update_self])
theorem hrest1 (c : Dev nD) : ∀ b, b ∉ Finset.univ.image (Pipeline.arrRef spec1) → Wa1 m c b = En1 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v9) _ _

/-- After call 2 each of its arrays holds what the write-backs leave — the two inputs what they held, the result
    the call's output — and every other buffer what it held at entry. -/
theorem hF2 (c : Dev nD) (w : Fin cfg2.W) : (dat2 (En2 m) c).arrAt w cfg2.N = Wa2 m c (Pipeline.arrRef spec2 w) :=
  match w with
  | ⟨0, _⟩ => ((dat2 (En2 m) c).arrAt_in 0 rfl _).trans ((A_eq2 (En2 m) c 0).trans (show Va2 m c main_v9 = Wa2 m c main_v9 from
      (Function.update_of_ne (StableHlo.devRef_ne_of_ne (by decide) : (Proc.devRef .tc main_v9 : DevRef τ sig) ≠ Proc.devRef .tc main_v14) _ _).symm))
  | ⟨1, _⟩ => ((dat2 (En2 m) c).arrAt_in 1 rfl _).trans ((A_eq2 (En2 m) c 1).trans (show Va2 m c main_v13 = Wa2 m c main_v13 from
      (Function.update_of_ne (StableHlo.devRef_ne_of_ne (by decide) : (Proc.devRef .tc main_v13 : DevRef τ sig) ≠ Proc.devRef .tc main_v14) _ _).symm))
  | ⟨2, _⟩ => (show o6 m c = Function.update (Va2 m c) (Proc.devRef .tc main_v14 : DevRef τ sig) (o6 m c) (Proc.devRef .tc main_v14 : DevRef τ sig) from by rw [Function.update_self])
theorem hrest2 (c : Dev nD) : ∀ b, b ∉ Finset.univ.image (Pipeline.arrRef spec2) → Wa2 m c b = En2 m c b := fun b hb =>
  Function.update_of_ne (StableHlo.devRef_ne_of_ne (fun e => hb (Finset.mem_image.mpr ⟨2, Finset.mem_univ _, e.symm⟩)) : (Proc.devRef .tc b : DevRef τ sig) ≠ Proc.devRef .tc main_v14) _ _

/-! ## The proof data family and what rides beside the buffers -/

abbrev adm : (p : Fin 3) → (pcfgs (F := F) p).Adm := fun p => (cfgs p).toPCfg_adm
/-- Every call's proof data at its entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
/-- No core owes another anything. -/
abbrev Lz : GSem nD τ sig → Finset Unit := fun _ => ∅
abbrev lvz : GSem nD τ sig → Unit → ℕ := fun _ _ => 0
/-- Beside the buffers through every segment: the generator register at some state, and the core owing nothing. -/
abbrev Rr (c : Dev nD) : sProp 𝕄 := iprop((∃ r, prngReg c r) ∗ ∃ W, owes (c : Thread nD τ) (0 : CellTallies nD τ sig Unit) W)

theorem hostOps0_fresh' : (hostOps0 : List (HloOp τ sig (Elt F))).Forall fun op => op.fresh = ∅ := hostOps0_fresh
theorem hostOps1_fresh' : (hostOps1 : List (HloOp τ sig (Elt F))).Forall fun op => op.fresh = ∅ := hostOps1_fresh
theorem hostOps2_fresh' : (hostOps2 : List (HloOp τ sig (Elt F))).Forall fun op => op.fresh = ∅ := hostOps2_fresh
theorem hostOps3_fresh' : (hostOps3 : List (HloOp τ sig (Elt F))).Forall fun op => op.fresh = ∅ := hostOps3_fresh

/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The kernel calls as segments -/

set_option backward.isDefEq.respectTransparency.types false in
/-- Kernel call 0 as a segment of @main: entered with every unscoped buffer at `Va0`, left with them at `Wa0`.
    Its three arrays are split out of the unscoped buffers and put back at their final contents; the generator register
    goes into the region invariant and comes back; nothing is owed; the kernel has no semaphore of its own. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lz lvz 0 fun _ _ => rfl
  pre c := iprop(StableHlo.held (c : Thread nD τ) (Pipeline.ucRefs τ sig) (Va0 m c) ∗ Rr c)
  post c := iprop(StableHlo.held (c : Thread nD τ) (Pipeline.ucRefs τ sig) (Wa0 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (En0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (fun b => Wa0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 1 as a segment of @main: entered with every unscoped buffer at `Va1`, left with them at `Wa1`.
    Its three arrays are split out of the unscoped buffers and put back at their final contents; the generator register
    goes into the region invariant and comes back; nothing is owed; the kernel has no semaphore of its own. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lz lvz 1 fun _ _ => rfl
  pre c := iprop(StableHlo.held (c : Thread nD τ) (Pipeline.ucRefs τ sig) (Va1 m c) ∗ Rr c)
  post c := iprop(StableHlo.held (c : Thread nD τ) (Pipeline.ucRefs τ sig) (Wa1 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (En1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (fun b => Wa1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel call 2 as a segment of @main: entered with every unscoped buffer at `Va2`, left with them at `Wa2`.
    Its three arrays are split out of the unscoped buffers and put back at their final contents; the generator register
    goes into the region invariant and comes back; nothing is owed; the kernel has no semaphore of its own. -/
def reg2 : Pipeline.RegionSeg (pcfgs (F := F)) adm (pdats m) () defs₀ Variants.none Lz lvz 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ Lz lvz 2 fun _ _ => rfl
  pre c := iprop(StableHlo.held (c : Thread nD τ) (Pipeline.ucRefs τ sig) (Va2 m c) ∗ Rr c)
  post c := iprop(StableHlo.held (c : Thread nD τ) (Pipeline.ucRefs τ sig) (Wa2 m c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (En2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (fun b => Wa2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ Variants.none Lz lvz) :=
  [ .host (hseg hostOps0 hostOps0_sub hostOps0_fresh' (fun c b => m (c, b))),
    .region (reg0 m),
    .host (hseg hostOps1 hostOps1_sub hostOps1_fresh' (Wa0 m)),
    .region (reg1 m),
    .host (hseg hostOps2 hostOps2_sub hostOps2_fresh' (Wa1 m)),
    .region (reg2 m),
    .host (hseg hostOps3 hostOps3_sub hostOps3_fresh' (Wa2 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main on the TensorCores terminates,
    nothing faulting, and every final state has every unscoped buffer at `Vfin`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Vfin m c b) :=
  Pipeline.θ_run_regions_kit (pcfgs (F := F)) adm (pdats m) () cellOf_inj emb₁ defs₀ Variants.none Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ Rr c))
    (Tₙ := fun c => iprop(StableHlo.held (c : Thread nD τ) (Pipeline.ucRefs τ sig) (Vfin m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (Vfin m c) ∗ Rr c)
        ⊢ iprop(iprop(StableHlo.held (c : Thread nD τ) (Pipeline.ucRefs τ sig) (Vfin m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Vfin m c b)
    (hfin := fun c s' => by
      iintro ⟨⟨Hh, -⟩, HSI⟩
      unfold StableHlo.held
      imodintro
      iapply (pointsTo_read_all (Pipeline.ucRefs τ sig) (fun b => (((c : Thread nD τ)).1, b)) (Vfin m c) s')
      isplitl [Hh] <;> iassumption)
    (hQ := fun s h => h)

/-- The argument array is never written: no host stretch writes it and no call may change it. -/
theorem Vfin_main_arg0 (c : Dev nD) : Vfin m c main_arg0 = m ((c : Thread nD τ).loc main_arg0) := by
  have e7 : Vfin m c main_arg0 = Wa2 m c main_arg0 := StableHlo.after_of_writes_sub hostOps3 _ hostOps3_writes (by decide)
  have e6 : Wa2 m c main_arg0 = Va2 m c main_arg0 := Function.update_of_ne (StableHlo.devRef_ne_of_ne (by decide) : (Proc.devRef .tc main_arg0 : DevRef τ sig) ≠ Proc.devRef .tc main_v14) _ _
  have e5 : Va2 m c main_arg0 = Wa1 m c main_arg0 := StableHlo.after_of_writes_sub hostOps2 _ hostOps2_writes (by decide)
  have e4 : Wa1 m c main_arg0 = Va1 m c main_arg0 := Function.update_of_ne (StableHlo.devRef_ne_of_ne (by decide) : (Proc.devRef .tc main_arg0 : DevRef τ sig) ≠ Proc.devRef .tc main_v9) _ _
  have e3 : Va1 m c main_arg0 = Wa0 m c main_arg0 := StableHlo.after_of_writes_sub hostOps1 _ hostOps1_writes (by decide)
  have e2 : Wa0 m c main_arg0 = Va0 m c main_arg0 := Function.update_of_ne (StableHlo.devRef_ne_of_ne (by decide) : (Proc.devRef .tc main_arg0 : DevRef τ sig) ≠ Proc.devRef .tc main_v4) _ _
  have e1 : Va0 m c main_arg0 = m ((c : Thread nD τ).loc main_arg0) := StableHlo.after_of_writes_sub hostOps0 _ hostOps0_writes (by decide)
  exact e7.trans (e6.trans (e5.trans (e4.trans (e3.trans (e2.trans e1)))))

/-- THE FRAME: the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (Vfin_main_arg0 m c)) (run_all m ρ)

end Cert.KernelIdeal.Body

end
-- ==== Proof.KI.Pieces0.lean ====
/-
  Kernel call 0: the pieces the three runs found, read back, are the body's stored values — the accumulator after a
  point is the stored sum of what it held and the key tile's contribution (from the zero block at a first key tile), and
  the output block written at a last key tile is the body's output value of the query block and that accumulator.
-/
import proofs.«120442_j39496519254112_2_alg».proof.Proof.KI.Reg0
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → ℕ) = fun _ => 0 := by funext a; match a with | ⟨0, _⟩ => rfl | ⟨1, _⟩ => rfl

/-! ## Kernel call 0: what each case leaves, as the body's stored values -/

/-- A first key tile leaves in the accumulator the key tile's contribution added to the zero block. -/
theorem sout0_A_eq (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond0_0 i) (hc1 : ¬cond0_1 i)
    (x0 : Vec F S32x2304 .f32) (x1 : Vec F S40x1152 .f32) :
    sout0_A c i arg2 harg2 arg3 harg3 arg4 harg4 arg5 harg5 hc0 hc1 x0 x1 = k0_pay3 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero hz2_0]
  try sl_unfold_words
  simp only [View.readAt_eq_ld, harg2.read_unread, harg3.read_unread]
  rw [View.readCov_unit_zero (S := S40x2304) _ hz2_0, View.ld_unit_zero (S := S32x2304) hz2_0, View.ld_unit_zero (S := S40x1152) hz2_0]

/-- A middle key tile leaves the accumulator it found plus the key tile's contribution. -/
theorem sout0_B_eq (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : ¬cond0_1 i)
    (x0 : Vec F S32x2304 .f32) (x1 : Vec F S40x1152 .f32) (xs0 : Vec F S40x2304 .f32) :
    sout0_B c i arg2 harg2 arg3 harg3 arg4 harg4 arg5 harg5 hc0 hc1 x0 x1 xs0 = k0_pay3 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_cons_unit_zero hz2_0]
  simp only [View.readAt_eq_ld, harg2.read_unread, harg3.read_unread, harg5.read_unread]
  rw [View.ld_unit_zero (S := S40x2304) hz2_0, View.ld_unit_zero (S := S32x2304) hz2_0, View.ld_unit_zero (S := S40x1152) hz2_0]

/-- A last key tile leaves the same in the accumulator … -/
theorem sout0_C_eq (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) :
    sout0_C c i arg2 harg2 arg3 harg3 arg4 harg4 arg5 harg5 hc0 hc1 x0 x1 xs0 = k0_pay3 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_cons_unit_zero hz2_0]
  simp only [View.readAt_eq_ld, harg2.read_unread, harg3.read_unread, harg5.read_unread]
  rw [View.ld_unit_zero (S := S40x2304) hz2_0, View.ld_unit_zero (S := S32x2304) hz2_0, View.ld_unit_zero (S := S40x1152) hz2_0]

/-- … and writes the output block computed from the accumulator it has just stored. -/
theorem out0_C_eq (c : Dev nD) (i : grid0.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond0_0 i) (hc1 : cond0_1 i)
    (x0 : Vec F S32x2304 .f32) (x1 : Vec F S40x1152 .f32) (xs0 : Vec F S40x2304 .f32) :
    out0_C c i arg2 harg2 arg3 harg3 arg4 harg4 arg5 harg5 hc0 hc1 x0 x1 xs0 = k0_pay4 x0 (k0_pay3 x0 x1 xs0) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_cons_unit_zero hz2_0]
  simp only [View.readAt_eq_ld, harg2.read_unread, harg3.read_unread, harg5.read_unread]
  rw [View.readCov_unit_zero (S := S40x2304) _ hz2_0, View.ld_unit_zero (S := S40x2304) hz2_0, View.ld_unit_zero (S := S32x2304) hz2_0, View.ld_unit_zero (S := S40x1152) hz2_0]

end Cert.KernelIdeal.Body

end
-- ==== Proof.Spec.lean ====
/-
  One mean-shift iteration on a matrix x of 32 rows (features) and 9216 columns (pixels), as a function of the
  matrix, entry by entry, on the extended reals.

  The affinity of pixels i and j is  K(i,j) = exp(3 · Σ_c x(c,i)·x(c,j)).  With  N(c,j) = Σ_i x(c,i)·K(i,j)  and
  D(j) = Σ_i K(i,j)  the iteration is written in two ways:
    * dividing the halved numerator:      (½·N(c,j)) / D(j) + ½·x(c,j)         (`refAt`)
    * halving the quotient, the column sums taken through a row of ones:
                                          ½·(N(c,j) / Σ_i 1·K(i,j)) + ½·x(c,j)  (`kerAt`)
  The literals ½, 1 and 3 are kept as their binary patterns.
-/
import Idealize.ShloMosaic.PureOps.Ideal
import Idealize.ShloMosaic.Lib.ValueIdx

noncomputable section

open scoped BigOperators

namespace Cert.MS

open Idealize.ShloMosaic Idealize.ShloMosaic.ValueIdx

/-- The matrix shape: 32 features by 9216 pixels. -/
abbrev SX : Shape := ⟨2, ![32, 9216]⟩
/-- A matrix of extended reals, by index. -/
abbrev Mat : Type := SX.Idx → EReal

/-- The bandwidth 3.0, as its f32 pattern. -/
def three : EReal := Ideal.ofBits .f32 0x40400000#32
/-- The step ½, as its f32 pattern. -/
def half : EReal := Ideal.ofBits .f32 0x3F000000#32
/-- The entries of the row of ones, 1.0 as its f32 pattern. -/
def one : EReal := Ideal.ofBits .f32 0x3F800000#32

/-- The affinity of pixels `i` and `j`. -/
def aff (x : Mat) (i j : Fin 9216) : EReal := Ideal.exp (three * ∑ c : Fin 32, x (ix2 c i) * x (ix2 c j))
/-- The weighted sum of column `j`, row `c`. -/
def num (x : Mat) (c : Fin 32) (j : Fin 9216) : EReal := ∑ i : Fin 9216, x (ix2 c i) * aff x i j
/-- The column sum of the affinities. -/
def den (x : Mat) (j : Fin 9216) : EReal := ∑ i : Fin 9216, aff x i j
/-- The column sum taken as a product with a row of ones. -/
def denOnes (x : Mat) (j : Fin 9216) : EReal := ∑ i : Fin 9216, one * aff x i j

/-- The iteration, dividing the halved numerator. -/
def refAt (x : Mat) (c : Fin 32) (j : Fin 9216) : EReal := Ideal.div (half * num x c j) (den x j) + half * x (ix2 c j)
/-- The iteration, halving the quotient, the column sum through the row of ones. -/
def kerAt (x : Mat) (c : Fin 32) (j : Fin 9216) : EReal := half * Ideal.div (num x c j) (denOnes x j) + half * x (ix2 c j)

/-- The two as matrices. -/
def refStep (x : Mat) : Mat := fun q => refAt x (q 0) (q 1)
def kerStep (x : Mat) : Mat := fun q => kerAt x (q 0) (q 1)

theorem refStep_ix2 (x : Mat) (c : Fin 32) (j : Fin 9216) : refStep x (ix2 c j) = refAt x c j := rfl
theorem kerStep_ix2 (x : Mat) (c : Fin 32) (j : Fin 9216) : kerStep x (ix2 c j) = kerAt x c j := rfl

end Cert.MS

end
-- ==== Proof.TileDefs.lean ====
/-
  The blocks the kernel works on, as functions of the whole matrices: query block `q` (2304 columns) of the matrix,
  key block `k` (1152 columns) of the matrix augmented with a row of ones, one key tile's contribution added to the
  accumulator entry by entry, the accumulator after key tiles 0..k from the zero block, and the block written after the
  last key tile.
-/
import proofs.«120442_j39496519254112_2_alg».proof.Proof.Spec

noncomputable section

open scoped BigOperators

namespace Cert.MS

open Idealize.ShloMosaic Idealize.ShloMosaic.ValueIdx

/-- The matrix augmented to 40 rows: rows 0..31 the matrix, row 32 ones, rows 33..39 never read. -/
abbrev SA : Shape := ⟨2, ![40, 9216]⟩
/-- A query block. -/
abbrev SQ : Shape := ⟨2, ![32, 2304]⟩
/-- A key block of the augmented matrix. -/
abbrev SK : Shape := ⟨2, ![40, 1152]⟩
/-- The accumulator. -/
abbrev SAcc : Shape := ⟨2, ![40, 2304]⟩

/-- Query block `q` of `x`: its columns 2304·q, …, 2304·q + 2303. -/
def qBlk (x : Mat) (q : Fin 4) : SQ.Idx → EReal := fun y =>
  x (ix2 (⟨(y 0).val, by have := idx2_lt0 y; omega⟩ : Fin 32) (⟨2304 * q.val + (y 1).val, by have := idx2_lt1 y; have := q.isLt; omega⟩ : Fin 9216))
/-- Key block `k` of the augmented matrix `a`: its columns 1152·k, …, 1152·k + 1151. -/
def kBlk (a : SA.Idx → EReal) (k : Fin 8) : SK.Idx → EReal := fun y =>
  a (ix2 (⟨(y 0).val, by have := idx2_lt0 y; omega⟩ : Fin 40) (⟨1152 * k.val + (y 1).val, by have := idx2_lt1 y; have := k.isLt; omega⟩ : Fin 9216))
/-- One key tile added to the accumulator: entry (r, j) gains Σ_i xk(r,i) · exp(3 · Σ_c xk(c,i) · xq(c,j)). -/
def tileAdd (xq : SQ.Idx → EReal) (xk : SK.Idx → EReal) (acc : SAcc.Idx → EReal) : SAcc.Idx → EReal := fun y =>
  acc y + ∑ i : Fin 1152, xk (ix2 (⟨(y 0).val, by have := idx2_lt0 y; omega⟩ : Fin 40) i)
    * Ideal.exp (three * ∑ c : Fin 32, xk (ix2 (⟨c.val, by omega⟩ : Fin 40) i) * xq (ix2 c (⟨(y 1).val, by have := idx2_lt1 y; omega⟩ : Fin 2304)))
/-- The accumulator after key tiles 0..k of query tile `q`, from the zero block. -/
def accAt (x : Mat) (a : SA.Idx → EReal) (q : Fin 4) : ℕ → SAcc.Idx → EReal
  | 0 => tileAdd (qBlk x q) (kBlk a ⟨0, by omega⟩) (fun _ => 0)
  | k + 1 => if h : k + 1 < 8 then tileAdd (qBlk x q) (kBlk a ⟨k + 1, h⟩) (accAt x a q k) else accAt x a q k
/-- What is written after the last key tile: ½ · (acc(c,j) / acc(32,j)) + ½ · xq(c,j). -/
def outBlk (xq : SQ.Idx → EReal) (acc : SAcc.Idx → EReal) : SQ.Idx → EReal := fun y =>
  half * Ideal.div (acc (ix2 (⟨(y 0).val, by have := idx2_lt0 y; omega⟩ : Fin 40) (⟨(y 1).val, by have := idx2_lt1 y; omega⟩ : Fin 2304)))
      (acc (ix2 (⟨32, by omega⟩ : Fin 40) (⟨(y 1).val, by have := idx2_lt1 y; omega⟩ : Fin 2304)))
    + half * xq y

end Cert.MS

end
-- ==== Proof.KI.Blocks0.lean ====
/-
  Kernel call 0's blocks as blocks of the whole matrices, and its result array from the blocks it writes back.

  The call runs over a grid of 4 query tiles by 8 key tiles, point t = 8·q + k. At point t its first window holds
  columns 2304·q, …, 2304·q + 2303 of the 32-row matrix (query block q), its second window columns 1152·k, …,
  1152·k + 1151 of the 40-row augmented matrix (key block k), and its result window is block q of the result, written
  back exactly at the last key tile of each query tile (t ≡ 7 mod 8). An element of a block sits in its array, on
  each axis, at block index × block size + its coordinate; the block indices are (0, t / 8), (0, t % 8) and (0, t / 8).
  Column j of the result lies in the block written at point 8·(j / 2304) + 7, so the four blocks written back cover
  the array: if each is the corresponding block of one matrix G, the array ends holding G.
-/
import proofs.«120442_j39496519254112_2_alg».proof.Proof.KI.Reg0
import proofs.«120442_j39496519254112_2_alg».proof.Proof.TileDefs
import Idealize.ShloMosaic.Lib.Pipeline.Value
import Idealize.ShloMosaic.Lib.ValueIdx

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The block indices of the three windows at every point of the grid: the row index is 0; the column index is the
    query tile t / 8 for the first and the result window, the key tile t % 8 for the second. -/
theorem blockIdx0 : ∀ t : Fin cfg0.N,
    win0_0.index t (0 : Fin 2) = 0 ∧ win0_0.index t (1 : Fin 2) = t.val / 8
    ∧ win0_1.index t (0 : Fin 2) = 0 ∧ win0_1.index t (1 : Fin 2) = t.val % 8
    ∧ win0_2.index t (0 : Fin 2) = 0 ∧ win0_2.index t (1 : Fin 2) = t.val / 8 :=
  (by decide +kernel : ∀ t : Fin grid0.N, _)

/-- The first window's block at point t is query block t / 8 of its matrix. -/
theorem iblk0_q (t : Fin cfg0.N) :
    iblk0 V c 0 t = Cert.MS.qBlk (V c main_v0) ⟨t.val / 8, by have := t.isLt; have : cfg0.N = 32 := N_0; omega⟩ := by
  obtain ⟨e0, e1, -⟩ := blockIdx0 t
  funext y
  show V c main_v0 (((cfg0.win 0).blk t).view.emb y) = V c main_v0 _
  refine congrArg (V c main_v0) (funext fun a => Fin.ext ?_)
  match a with
  | ⟨0, _⟩ => show win0_0.index t (0 : Fin 2) * 32 + 1 * (y 0).val = (y 0).val; rw [e0]; omega
  | ⟨1, _⟩ => show win0_0.index t (1 : Fin 2) * 2304 + 1 * (y 1).val = 2304 * (t.val / 8) + (y 1).val; rw [e1]; omega

/-- The second window's block at point t is key block t % 8 of the augmented matrix. -/
theorem iblk0_k (t : Fin cfg0.N) :
    iblk0 V c 1 t = Cert.MS.kBlk (V c main_v3) ⟨t.val % 8, by omega⟩ := by
  obtain ⟨-, -, e2, e3, -⟩ := blockIdx0 t
  funext y
  show V c main_v3 (((cfg0.win 1).blk t).view.emb y) = V c main_v3 _
  refine congrArg (V c main_v3) (funext fun a => Fin.ext ?_)
  match a with
  | ⟨0, _⟩ => show win0_1.index t (0 : Fin 2) * 40 + 1 * (y 0).val = (y 0).val; rw [e2]; omega
  | ⟨1, _⟩ => show win0_1.index t (1 : Fin 2) * 1152 + 1 * (y 1).val = 1152 * (t.val % 8) + (y 1).val; rw [e3]; omega

/-- An index of the result array is in point t's block iff each coordinate is in the block's range on its axis. -/
theorem mem_blk0 (t : Fin cfg0.N) (i : S32x9216.Idx) :
    i ∈ ((cfg0.win 2).blk t).view.set ↔ ∀ a : Fin 2, win0_2.index t a * S32x2304.size a ≤ (i a).val ∧ (i a).val < win0_2.index t a * S32x2304.size a + S32x2304.size a := by
  show i ∈ ((View.whole main_v4).slice (win0_2.rect t)).set ↔ _
  rw [View.set_slice_whole, Rect.mem_set_unit]
  exact Iff.rfl

/-- If every block written back is the corresponding query block of one matrix G, the result array ends holding G:
    the block written at the last key tile of query tile q is block q of the array, and the four cover it. -/
theorem arr0_of_flushed (G : Cert.MS.Mat)
    (hG : ∀ t : Fin cfg0.N, t.val % 8 = 7 → (outsAt0 V c t.val t.isLt).1 = Cert.MS.qBlk G ⟨t.val / 8, by have := t.isLt; have : cfg0.N = 32 := N_0; omega⟩) :
    (dat0 V c).arrAt 2 cfg0.N = G := by
  have hN : cfg0.N = 32 := N_0
  refine (dat0 V c).arrAt_eq_of_cover 2 G (fun t hf => ?_) (fun i => ?_)
  · show (cfg0.win 2).cut (grid0.coords t) ((dat0 V c).after 2 t) = _
    rw [after0_2, hG t ((flush0_2 t).mp hf)]
    obtain ⟨-, -, -, -, e4, e5⟩ := blockIdx0 t
    funext j
    show G _ = G (((cfg0.win 2).blk t).view.emb j)
    refine congrArg G (funext fun a => Fin.ext ?_)
    match a with
    | ⟨0, _⟩ => show (j 0).val = win0_2.index t (0 : Fin 2) * 32 + 1 * (j 0).val; rw [e4]; omega
    | ⟨1, _⟩ => show 2304 * (t.val / 8) + (j 1).val = win0_2.index t (1 : Fin 2) * 2304 + 1 * (j 1).val; rw [e5]; omega
  · have h0 : (i 0 : Nat) < 32 := (i 0).isLt
    have h1 : (i 1 : Nat) < 9216 := (i 1).isLt
    have ht : 8 * ((i 1 : Nat) / 2304) + 7 < cfg0.N := by rw [hN]; omega
    refine ⟨⟨8 * ((i 1 : Nat) / 2304) + 7, ht⟩, (flush0_2 _).mpr (by show (8 * ((i 1 : Nat) / 2304) + 7) % 8 = 7; omega), ?_⟩
    obtain ⟨-, -, -, -, e4, e5⟩ := blockIdx0 ⟨8 * ((i 1 : Nat) / 2304) + 7, ht⟩
    rw [mem_blk0]
    intro a
    match a with
    | ⟨0, _⟩ => show win0_2.index ⟨8 * ((i 1 : Nat) / 2304) + 7, ht⟩ (0 : Fin 2) * 32 ≤ (i 0 : Nat) ∧ (i 0 : Nat) < win0_2.index ⟨8 * ((i 1 : Nat) / 2304) + 7, ht⟩ (0 : Fin 2) * 32 + 32; rw [e4]; omega
    | ⟨1, _⟩ =>
      show win0_2.index ⟨8 * ((i 1 : Nat) / 2304) + 7, ht⟩ (1 : Fin 2) * 2304 ≤ (i 1 : Nat) ∧ (i 1 : Nat) < win0_2.index ⟨8 * ((i 1 : Nat) / 2304) + 7, ht⟩ (1 : Fin 2) * 2304 + 2304
      rw [e5]
      show (8 * ((i 1 : Nat) / 2304) + 7) / 8 * 2304 ≤ (i 1 : Nat) ∧ (i 1 : Nat) < (8 * ((i 1 : Nat) / 2304) + 7) / 8 * 2304 + 2304
      omega

end Cert.KernelIdeal.Blocks

end
-- ==== Proof.LibMatmulTN.lean ====
/-
  A general lemma: the vector unit's matrix product of a LEFT OPERAND CONTRACTED ON ITS ROWS, read at an index.

  `lax.dot_general(a, b, (((0,), (0,)), ((), ())))` of `a : [K, M]` and `b : [K, N]` lowers to a `tpu.matmul` with
  dimension numbers lhs_contracting `[0]`, rhs_contracting `[0]`, lhs_non_contracting `[1]`, rhs_non_contracting `[1]`:
  the product `aᵀ · b : [M, N]`. Over the extended reals, into a zero accumulator, its entry `(i, j)` is the plain sum
  `∑ k, a (k, i) · b (k, j)` — no rounding and no order of accumulation are left in it.
-/
import Idealize.ShloMosaic.PureOps.Ideal.Laws
import Idealize.ShloMosaic.Lib.ValueIdx

noncomputable section

namespace Cert.Lib.MatmulTN

open Idealize.ShloMosaic Idealize.ShloMosaic.ValueIdx

/-- Those dimension numbers for a left operand `[K, M]`, a right operand `[K, N]` and a result `[M, N]`; their
    conditions `wf` are decided on a program's literal shapes. -/
abbrev tnDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

theorem contr_rank : (tnDims K M N wf).contr.rank = 1 := rfl

theorem contr_size : (tnDims K M N wf).contr.size ⟨0, by rw [contr_rank]; exact Nat.one_pos⟩ = K := rfl

/-- The left operand's index at result `(i, j)` and contraction position `k` is `(k, i)`. -/
theorem lhsIdx_eq (i : Fin M) (j : Fin N) (k : Fin K) :
    (tnDims K M N wf).lhsIdx (ix2 i j) ((contrEquiv1 (tnDims K M N wf) K (contr_rank wf) (contr_size wf)).symm k) = ix2 k i := by
  funext a
  refine Fin.ext ?_
  match a with
  | ⟨0, _⟩ =>
    refine ((tnDims K M N wf).lhsIdx_val_of_single (cl := (0 : Fin 2)) rfl _ _).trans ?_
    exact contrEquiv1_symm_val _ K (contr_rank wf) (contr_size wf) k
  | ⟨1, _⟩ => rfl

/-- The right operand's index at result `(i, j)` and contraction position `k` is `(k, j)`. -/
theorem rhsIdx_eq (i : Fin M) (j : Fin N) (k : Fin K) :
    (tnDims K M N wf).rhsIdx (ix2 i j) ((contrEquiv1 (tnDims K M N wf) K (contr_rank wf) (contr_size wf)).symm k) = ix2 k j := by
  funext a
  refine Fin.ext ?_
  match a with
  | ⟨0, _⟩ =>
    refine ((tnDims K M N wf).rhsIdx_val_of_single (cr := (0 : Fin 2)) rfl _ _).trans ?_
    exact contrEquiv1_symm_val _ K (contr_rank wf) (contr_size wf) k
  | ⟨1, _⟩ => rfl

/-- THE PRODUCT READ AT `(i, j)`: into the zero accumulator, the sum over the shared row index `k` of
    `a (k, i) · b (k, j)`. -/
theorem matmul_tn_apply {φ₁ φ₂ : FTy} (prec : Option ContractPrecision)
    (a : FVec Ideal ⟨2, ![K, M]⟩ φ₁) (b : FVec Ideal ⟨2, ![K, N]⟩ φ₂) (i : Fin M) (j : Fin N) :
    FloatOps.matmul (tnDims K M N wf) prec a b (constant ⟨2, ![M, N]⟩ .f32 0x00000000#32) (ix2 i j)
      = ∑ k : Fin K, a (ix2 k i) * b (ix2 k j) := by
  rw [Ideal.matmul_constant_zero_apply,
    ← Equiv.sum_comp (contrEquiv1 (tnDims K M N wf) K (contr_rank wf) (contr_size wf)).symm]
  refine Finset.sum_congr rfl fun k _ => ?_
  rw [lhsIdx_eq, rhsIdx_eq]

end Cert.Lib.MatmulTN

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.Payload.lean ====
/-
  The arithmetic of one mean-shift kernel call, read entry by entry on the extended reals.

  A call holds a query block `xq` (32 features by 2304 pixels), visits key blocks `xk` (40 rows by 1152 pixels, the first
  32 rows the features) and keeps a block `acc` of 40 rows by 2304 columns. At a key block it
  forms the scores  S(i, j) = Σ_c xk(c, i) · xq(c, j)  (the features contracted), the affinities  exp(3 · S(i, j)),
  and adds to `acc(r, j)` the sum over the block's keys `i` of  xk(r, i) · exp(3 · S(i, j)).  After the last key block the
  output is  ½ · (acc(c, j) / acc(32, j)) + ½ · xq(c, j).  A narrowing of the number format is the identity on the
  extended reals, and a product into a zero block is the plain sum.
-/
import proofs.«120442_j39496519254112_2_alg».proof.Proof.Gen.KernelIdeal.Skeleton
import proofs.«120442_j39496519254112_2_alg».proof.Proof.Spec
import proofs.«120442_j39496519254112_2_alg».proof.Proof.LibMatmulTN
import proofs.«120442_j39496519254112_2_alg».proof.Proof.LibMatmulNN
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.MS.Pay

open Cert.KernelIdeal Cert.KernelIdeal.Gen Idealize.ShloMosaic Idealize.ShloMosaic.ValueIdx

/-! ## The pieces, over arbitrary blocks -/

section Pieces

variable (xq : FVec Ideal S32x2304 .f32) (xk : FVec Ideal S40x1152 .f32) (acc : FVec Ideal S40x2304 .f32)

/-- A block of the zero pattern, cast to its own shape, is zero everywhere. -/
theorem zeroBlock_apply (h : S40x2304.ShapeCasts S40x2304) (r : Fin 40) (j : Fin 2304) :
    shapeCast S40x2304 (broadcast S40x2304 (Scalar.ofBits (F := Ideal) .f32 0x00000000#32)) h (ix2 r j) = 0 := by
  rw [shapeCast_self]
  exact Ideal.ofBits_zero_f32

/-- The scores: the first 32 rows of the key block against the query block, the features contracted. -/
theorem scores_apply (hs : S40x1152.Slices ![0, 0] S32x1152) (i : Fin 1152) (j : Fin 2304) :
    matmul dot_S32x1152_S32x2304_S1152x2304_0_0_1_1_n_n none
        (extractStridedSlice S32x1152 ![0, 0] xk hs) xq (constant S1152x2304 .f32 0x00000000#32) (ix2 i j)
      = ∑ c : Fin 32, xk (ix2 (⟨c.val, by omega⟩ : Fin 40) i) * xq (ix2 c j) := by
  refine (Cert.Lib.MatmulTN.matmul_tn_apply (K := 32) (M := 1152) (N := 2304)
    dot_S32x1152_S32x2304_S1152x2304_0_0_1_1_n_n_wf none (extractStridedSlice S32x1152 ![0, 0] xk hs) xq i j).trans ?_
  refine Finset.sum_congr rfl fun c _ => ?_
  exact congrArg (· * xq (ix2 c j))
    (slice2_axis0_apply 0 xk hs c i (⟨c.val, by omega⟩ : Fin 40) (Nat.zero_add _).symm)

/-- The affinities: the exponential of three times a block, entry by entry. -/
theorem affinity_apply (S : FVec Ideal S1152x2304 .f32) (i : Fin 1152) (j : Fin 2304) :
    exp (mulf (broadcast S1152x2304 (Scalar.ofBits (F := Ideal) .f32 0x40400000#32)) S) (ix2 i j)
      = Ideal.exp (Cert.MS.three * S (ix2 i j)) := by
  unfold Cert.MS.three
  rfl

/-- The key block (its format narrowed) times a block of 1152 rows (its format narrowed), into a zero block. -/
theorem weighted_apply (B : FVec Ideal S1152x2304 .f32) (hb : FTy.bits .bf16 < FTy.bits .f32) (r : Fin 40) (j : Fin 2304) :
    matmul dot_S40x1152_S1152x2304_S40x2304_1_0_0_1_n_n none (truncf .bf16 xk hb) (truncf .bf16 B hb)
        (constant S40x2304 .f32 0x00000000#32) (ix2 r j)
      = ∑ i : Fin 1152, xk (ix2 r i) * B (ix2 i j) :=
  Cert.LibMatmulNN.matmul_nn_apply (M := 40) (K := 1152) (N := 2304) dot_S40x1152_S1152x2304_S40x2304_1_0_0_1_n_n
    rfl rfl rfl rfl rfl rfl none (truncf .bf16 xk hb) (truncf .bf16 B hb) r j

/-- One key block's step of the accumulation, as the kernel body spells it. -/
theorem accStep_apply (h1 : S32x2304.ShapeCasts S32x2304) (h2 : S40x1152.ShapeCasts S40x1152)
    (hs : S40x1152.Slices ![0, 0] S32x1152) (hb : FTy.bits .bf16 < FTy.bits .f32) (h3 : S40x2304.ShapeCasts S40x2304)
    (r : Fin 40) (j : Fin 2304) :
    shapeCast S40x2304
        (addf acc
          (matmul dot_S40x1152_S1152x2304_S40x2304_1_0_0_1_n_n none (truncf .bf16 (shapeCast S40x1152 xk h2) hb)
            (truncf .bf16
              (exp (mulf (broadcast S1152x2304 (Scalar.ofBits (F := Ideal) .f32 0x40400000#32))
                (matmul dot_S32x1152_S32x2304_S1152x2304_0_0_1_1_n_n none
                  (extractStridedSlice S32x1152 ![0, 0] (shapeCast S40x1152 xk h2) hs) (shapeCast S32x2304 xq h1)
                  (constant S1152x2304 .f32 0x00000000#32)))) hb)
            (constant S40x2304 .f32 0x00000000#32))) h3 (ix2 r j)
      = acc (ix2 r j) + ∑ i : Fin 1152, xk (ix2 r i)
          * Ideal.exp (Cert.MS.three * ∑ c : Fin 32, xk (ix2 (⟨c.val, by omega⟩ : Fin 40) i) * xq (ix2 c j)) := by
  rw [shapeCast_self, shapeCast_self, shapeCast_self]
  refine (addf_apply _ _ _).trans (congrArg (acc (ix2 r j) + ·) ?_)
  refine (weighted_apply xk _ hb r j).trans (Finset.sum_congr rfl fun i _ => congrArg (xk (ix2 r i) * ·) ?_)
  refine (affinity_apply _ i j).trans (congrArg (fun t => Ideal.exp (Cert.MS.three * t)) ?_)
  exact scores_apply xq xk hs i j

/-- The output step, as the kernel body spells it. -/
theorem outStep_apply (h1 : S32x2304.ShapeCasts S32x2304) (hs0 : S40x2304.Slices ![0, 0] S32x2304)
    (hs32 : S40x2304.Slices ![32, 0] S1x2304) (hbc : S1x2304.Broadcasts S32x2304) (c : Fin 32) (j : Fin 2304) :
    addf
        (mulf (broadcast S32x2304 (Scalar.ofBits (F := Ideal) .f32 0x3F000000#32))
          (divf (extractStridedSlice S32x2304 ![0, 0] acc hs0)
            (broadcastTo S32x2304 (extractStridedSlice S1x2304 ![32, 0] acc hs32) hbc)))
        (mulf (broadcast S32x2304 (Scalar.ofBits (F := Ideal) .f32 0x3F000000#32)) (shapeCast S32x2304 xq h1)) (ix2 c j)
      = Cert.MS.half * Ideal.div (acc (ix2 (⟨c.val, by omega⟩ : Fin 40) j)) (acc (ix2 (⟨32, by omega⟩ : Fin 40) j))
          + Cert.MS.half * xq (ix2 c j) := by
  rw [shapeCast_self]
  have e0 : extractStridedSlice S32x2304 ![0, 0] acc hs0 (ix2 c j) = acc (ix2 (⟨c.val, by omega⟩ : Fin 40) j) :=
    slice2_axis0_apply 0 acc hs0 c j (⟨c.val, by omega⟩ : Fin 40) (Nat.zero_add _).symm
  have e1 : broadcastTo S32x2304 (extractStridedSlice S1x2304 ![32, 0] acc hs32) hbc (ix2 c j)
      = acc (ix2 (⟨32, by omega⟩ : Fin 40) j) :=
    (broadcastTo_1b_ab_apply _ hbc c j).trans
      (slice2_axis0_apply 32 acc hs32 (0 : Fin 1) j (⟨32, by omega⟩ : Fin 40) rfl)
  unfold Cert.MS.half
  show Ideal.ofBits .f32 0x3F000000#32
        * Ideal.div (extractStridedSlice S32x2304 ![0, 0] acc hs0 (ix2 c j))
            (broadcastTo S32x2304 (extractStridedSlice S1x2304 ![32, 0] acc hs32) hbc (ix2 c j))
      + Ideal.ofBits .f32 0x3F000000#32 * xq (ix2 c j) = _
  rw [e0, e1]

end Pieces

variable (xq : Vec Ideal S32x2304 .f32) (xk : Vec Ideal S40x1152 .f32) (acc : Vec Ideal S40x2304 .f32)

/-! ## Kernel call 0 -/

/-- The block stored at the first key tile is the zero block. -/
theorem k0_pay1_apply (r : Fin 40) (j : Fin 2304) : k0_pay1 (F := Ideal) (ix2 r j) = 0 := by
  unfold k0_pay1
  exact zeroBlock_apply _ r j

/-- The accumulated block after one key tile: the old block plus, in row `r` and column `j`, the sum over the
    tile's keys `i` of `xk(r, i) · exp(3 · Σ_c xk(c, i) · xq(c, j))`. -/
theorem k0_pay3_apply (r : Fin 40) (j : Fin 2304) :
    k0_pay3 (F := Ideal) xq xk acc (ix2 r j)
      = acc (ix2 r j) + ∑ i : Fin 1152, xk (ix2 r i)
          * Ideal.exp (Cert.MS.three * ∑ c : Fin 32, xk (ix2 (⟨c.val, by omega⟩ : Fin 40) i) * xq (ix2 c j)) := by
  unfold k0_pay3 k0_pay2
  exact accStep_apply xq xk acc _ _ _ _ _ r j

/-- The output block: half the quotient of a weighted-sum row by the row of column sums, plus half the query. -/
theorem k0_pay4_apply (c : Fin 32) (j : Fin 2304) :
    k0_pay4 (F := Ideal) xq acc (ix2 c j)
      = Cert.MS.half * Ideal.div (acc (ix2 (⟨c.val, by omega⟩ : Fin 40) j)) (acc (ix2 (⟨32, by omega⟩ : Fin 40) j))
          + Cert.MS.half * xq (ix2 c j) := by
  unfold k0_pay4 k0_pay2
  exact outStep_apply xq acc _ _ _ _ c j

/-! ## Kernel call 1 -/

/-- The block stored at the first key tile is the zero block. -/
theorem k1_pay1_apply (r : Fin 40) (j : Fin 2304) : k1_pay1 (F := Ideal) (ix2 r j) = 0 := by
  unfold k1_pay1
  exact zeroBlock_apply _ r j

/-- The accumulated block after one key tile: the old block plus, in row `r` and column `j`, the sum over the
    tile's keys `i` of `xk(r, i) · exp(3 · Σ_c xk(c, i) · xq(c, j))`. -/
theorem k1_pay3_apply (r : Fin 40) (j : Fin 2304) :
    k1_pay3 (F := Ideal) xq xk acc (ix2 r j)
      = acc (ix2 r j) + ∑ i : Fin 1152, xk (ix2 r i)
          * Ideal.exp (Cert.MS.three * ∑ c : Fin 32, xk (ix2 (⟨c.val, by omega⟩ : Fin 40) i) * xq (ix2 c j)) := by
  unfold k1_pay3 k1_pay2
  exact accStep_apply xq xk acc _ _ _ _ _ r j

/-- The output block: half the quotient of a weighted-sum row by the row of column sums, plus half the query. -/
theorem k1_pay4_apply (c : Fin 32) (j : Fin 2304) :
    k1_pay4 (F := Ideal) xq acc (ix2 c j)
      = Cert.MS.half * Ideal.div (acc (ix2 (⟨c.val, by omega⟩ : Fin 40) j)) (acc (ix2 (⟨32, by omega⟩ : Fin 40) j))
          + Cert.MS.half * xq (ix2 c j) := by
  unfold k1_pay4 k1_pay2
  exact outStep_apply xq acc _ _ _ _ c j

/-! ## Kernel call 2 -/

/-- The block stored at the first key tile is the zero block. -/
theorem k2_pay1_apply (r : Fin 40) (j : Fin 2304) : k2_pay1 (F := Ideal) (ix2 r j) = 0 := by
  unfold k2_pay1
  exact zeroBlock_apply _ r j

/-- The accumulated block after one key tile: the old block plus, in row `r` and column `j`, the sum over the
    tile's keys `i` of `xk(r, i) · exp(3 · Σ_c xk(c, i) · xq(c, j))`. -/
theorem k2_pay3_apply (r : Fin 40) (j : Fin 2304) :
    k2_pay3 (F := Ideal) xq xk acc (ix2 r j)
      = acc (ix2 r j) + ∑ i : Fin 1152, xk (ix2 r i)
          * Ideal.exp (Cert.MS.three * ∑ c : Fin 32, xk (ix2 (⟨c.val, by omega⟩ : Fin 40) i) * xq (ix2 c j)) := by
  unfold k2_pay3 k2_pay2
  exact accStep_apply xq xk acc _ _ _ _ _ r j

/-- The output block: half the quotient of a weighted-sum row by the row of column sums, plus half the query. -/
theorem k2_pay4_apply (c : Fin 32) (j : Fin 2304) :
    k2_pay4 (F := Ideal) xq acc (ix2 c j)
      = Cert.MS.half * Ideal.div (acc (ix2 (⟨c.val, by omega⟩ : Fin 40) j)) (acc (ix2 (⟨32, by omega⟩ : Fin 40) j))
          + Cert.MS.half * xq (ix2 c j) := by
  unfold k2_pay4 k2_pay2
  exact outStep_apply xq acc _ _ _ _ c j

end Cert.MS.Pay

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.Tiles.lean ====
/-
  The column sums of one mean-shift iteration, gathered tile by tile.

  The 9216 pixels are cut into 4 query blocks of 2304 columns and into 8 key blocks of 1152 columns. The matrix x is
  carried in an augmented matrix a of 40 rows: rows 0..31 are the rows of x and row 32 is a row of ones. For a query
  block q the running table (40 rows, 2304 columns) starts at zero and receives, for each key block k in turn, at
  row r and column j the sum over the 1152 pixels i of the key block of
      a(r, 1152·k + i) · exp(3 · Σ_c a(c, 1152·k + i) · x(c, 2304·q + j)).
  Since 0 + s = s, after the eighth key block the table holds the sum of the eight contributions, and the eight sums
  over 1152 pixels are one sum over all 9216 = 8 · 1152 pixels (a regrouping of a finite sum in a commutative monoid,
  valid on all the extended reals). The exponential is the affinity of pixel 1152·k + i and pixel 2304·q + j, because
  rows 0..31 of a are x. So row c < 32 of the table is the weighted sum N(c, 2304·q + j), and row 32 is the column sum
  taken through the row of ones. Halving the quotient of the two and adding half of x is the iteration as the second
  of the two ways of writing it.
-/
import proofs.«120442_j39496519254112_2_alg».proof.Proof.Spec
import proofs.«120442_j39496519254112_2_alg».proof.Proof.TileDefs
import proofs.«120442_j39496519254112_2_alg».proof.Proof.LibTiles

noncomputable section

open scoped BigOperators

namespace Cert.MS

open Idealize.ShloMosaic Idealize.ShloMosaic.ValueIdx

/-- The contribution of one key block at an entry of the running table. -/
def tileSum (xq : SQ.Idx → EReal) (xk : SK.Idx → EReal) (y : SAcc.Idx) : EReal :=
  ∑ i : Fin 1152, xk (ix2 (⟨(y 0).val, by have := idx2_lt0 y; omega⟩ : Fin 40) i)
    * Ideal.exp (three * ∑ c : Fin 32, xk (ix2 (⟨c.val, by omega⟩ : Fin 40) i)
        * xq (ix2 c (⟨(y 1).val, by have := idx2_lt1 y; omega⟩ : Fin 2304)))

theorem tileAdd_apply (xq : SQ.Idx → EReal) (xk : SK.Idx → EReal) (acc : SAcc.Idx → EReal) (y : SAcc.Idx) :
    tileAdd xq xk acc y = acc y + tileSum xq xk y := rfl

/-- After the eighth key block an entry of the running table is the sum of the eight contributions. -/
theorem accAt_seven (x : Mat) (a : SA.Idx → EReal) (q : Fin 4) (y : SAcc.Idx) :
    accAt x a q 7 y = ∑ k : Fin 8, tileSum (qBlk x q) (kBlk a k) y := by
  refine Cert.LibTiles.fold_tiles (fun k => tileSum (qBlk x q) (kBlk a k) y) (fun n => accAt x a q n y) ?_ ?_
  · show (0 : EReal) + tileSum (qBlk x q) (kBlk a ⟨0, by omega⟩) y = _
    rw [zero_add]; rfl
  · intro j hj
    show accAt x a q (j + 1) y = accAt x a q j y + tileSum (qBlk x q) (kBlk a ⟨j + 1, hj⟩) y
    rw [accAt, dif_pos hj]; rfl

section
variable (x : Mat) (a : SA.Idx → EReal)
  (ha : ∀ (r : Fin 32) (j : Fin 9216), a (ix2 (⟨r.val, by omega⟩ : Fin 40) j) = x (ix2 r j))
include ha

/-- The contribution of key block `k` at row `r`, column `j` of query block `q`: the terms
    a(r, p) · K(p, 2304·q + j) at the pixels p = 1152·k + i of the key block. -/
theorem tileSum_ix2 (q : Fin 4) (k : Fin 8) (r : Fin 40) (j : Fin 2304) :
    tileSum (qBlk x q) (kBlk a k) (ix2 r j)
      = ∑ i : Fin 1152, (fun p : Fin 9216 => a (ix2 r p)
          * aff x p (⟨2304 * q.val + j.val, by have := j.isLt; have := q.isLt; omega⟩ : Fin 9216))
          (⟨1152 * k.val + i.val, by have := i.isLt; have := k.isLt; omega⟩ : Fin 9216) := by
  have key : ∀ (p J : Fin 9216), (∑ c : Fin 32, a (ix2 (⟨c.val, by omega⟩ : Fin 40) p) * x (ix2 c J))
      = ∑ c : Fin 32, x (ix2 c p) * x (ix2 c J) :=
    fun p J => Finset.sum_congr rfl (fun c _ => by rw [ha c p])
  refine Finset.sum_congr rfl (fun i _ => ?_)
  show a (ix2 r (⟨1152 * k.val + i.val, by have := i.isLt; have := k.isLt; omega⟩ : Fin 9216))
      * Ideal.exp (three * ∑ c : Fin 32,
          a (ix2 (⟨c.val, by omega⟩ : Fin 40) (⟨1152 * k.val + i.val, by have := i.isLt; have := k.isLt; omega⟩ : Fin 9216))
            * x (ix2 c (⟨2304 * q.val + j.val, by have := j.isLt; have := q.isLt; omega⟩ : Fin 9216))) = _
  rw [key]
  rfl

/-- After the eighth key block, row `r`, column `j` of the running table of query block `q` is the sum over all
    pixels p of a(r, p) · K(p, 2304·q + j). -/
theorem accAt_seven_ix2 (q : Fin 4) (r : Fin 40) (j : Fin 2304) :
    accAt x a q 7 (ix2 r j)
      = ∑ p : Fin 9216, a (ix2 r p)
          * aff x p (⟨2304 * q.val + j.val, by have := j.isLt; have := q.isLt; omega⟩ : Fin 9216) := by
  rw [accAt_seven]
  refine (Finset.sum_congr rfl (fun k _ => tileSum_ix2 x a ha q k r j)).trans ?_
  exact Cert.LibTiles.sum_tiles_mul 8 1152 (fun p : Fin 9216 => a (ix2 r p)
      * aff x p (⟨2304 * q.val + j.val, by have := j.isLt; have := q.isLt; omega⟩ : Fin 9216))
    (fun k i => by have := i.isLt; have := k.isLt; omega)

/-- What is written for query block `q` after its last key block is the iteration, halving the quotient, with the
    column sum through the row of ones, at the columns of the block. -/
theorem outBlk_accAt
    (h1 : ∀ j : Fin 9216, a (ix2 (⟨32, by omega⟩ : Fin 40) j) = one)
    (q : Fin 4) (c : Fin 32) (j : Fin 2304) :
    outBlk (qBlk x q) (accAt x a q 7) (ix2 c j)
      = kerAt x c (⟨2304 * q.val + j.val, by have := j.isLt; have := q.isLt; omega⟩ : Fin 9216) := by
  have hN : (∑ p : Fin 9216, a (ix2 (⟨c.val, by omega⟩ : Fin 40) p)
        * aff x p (⟨2304 * q.val + j.val, by have := j.isLt; have := q.isLt; omega⟩ : Fin 9216))
      = num x c (⟨2304 * q.val + j.val, by have := j.isLt; have := q.isLt; omega⟩ : Fin 9216) :=
    Finset.sum_congr rfl (fun p _ => by rw [ha c p])
  have hD : (∑ p : Fin 9216, a (ix2 (⟨32, by omega⟩ : Fin 40) p)
        * aff x p (⟨2304 * q.val + j.val, by have := j.isLt; have := q.isLt; omega⟩ : Fin 9216))
      = denOnes x (⟨2304 * q.val + j.val, by have := j.isLt; have := q.isLt; omega⟩ : Fin 9216) :=
    Finset.sum_congr rfl (fun p _ => by rw [h1 p])
  show half * Ideal.div (accAt x a q 7 (ix2 (⟨c.val, by omega⟩ : Fin 40) j))
        (accAt x a q 7 (ix2 (⟨32, by omega⟩ : Fin 40) j))
      + half * x (ix2 c (⟨2304 * q.val + j.val, by have := j.isLt; have := q.isLt; omega⟩ : Fin 9216)) = _
  rw [accAt_seven_ix2 x a ha q, accAt_seven_ix2 x a ha q, hN, hD]
  rfl

end

end Cert.MS

end
-- ==== Proof.KI.Accum0.lean ====
/-
  Kernel call 0 at the ideal instance: the accumulator after grid point 8·q + k is the sum of key tiles 0..k of query
  tile q from the zero block, the block written at k = 7 is ½·(N/D) + ½·x on query tile q, and so the call's result
  array is one mean-shift iteration of its first operand — given that its second operand is the first with a row of
  ones under it.
-/
import proofs.«120442_j39496519254112_2_alg».proof.Proof.KI.Pieces0
import proofs.«120442_j39496519254112_2_alg».proof.Proof.KI.Blocks0
import proofs.«120442_j39496519254112_2_alg».proof.Proof.Payload
import proofs.«120442_j39496519254112_2_alg».proof.Proof.Tiles

set_option maxRecDepth 16384

noncomputable section

namespace Cert.KernelIdeal.Accum

open Cert.KernelIdeal Cert.KernelIdeal.Gen Cert.KernelIdeal.Body Cert.KernelIdeal.Blocks
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-- The body's stored accumulator, entry by entry, is one key tile added. -/
theorem pay3_eq0 (xq : Vec Ideal S32x2304 .f32) (xk : Vec Ideal S40x1152 .f32) (acc : Vec Ideal S40x2304 .f32) :
    k0_pay3 (F := Ideal) xq xk acc = Cert.MS.tileAdd xq xk acc := by
  funext y
  obtain ⟨r, j, rfl⟩ : ∃ (r : Fin 40) (j : Fin 2304), y = ix2 r j := ⟨y 0, y 1, eq_ix2 y⟩
  exact Cert.MS.Pay.k0_pay3_apply xq xk acc r j

/-- The zero block. -/
theorem pay1_eq0 : k0_pay1 (F := Ideal) = fun _ => 0 := by
  funext y
  obtain ⟨r, j, rfl⟩ : ∃ (r : Fin 40) (j : Fin 2304), y = ix2 r j := ⟨y 0, y 1, eq_ix2 y⟩
  exact Cert.MS.Pay.k0_pay1_apply r j

/-- The body's output value, entry by entry. -/
theorem pay4_eq0 (xq : Vec Ideal S32x2304 .f32) (acc : Vec Ideal S40x2304 .f32) :
    k0_pay4 (F := Ideal) xq acc = Cert.MS.outBlk xq acc := by
  funext y
  obtain ⟨r, j, rfl⟩ : ∃ (r : Fin 32) (j : Fin 2304), y = ix2 r j := ⟨y 0, y 1, eq_ix2 y⟩
  exact Cert.MS.Pay.k0_pay4_apply xq acc r j

/-- At a first key tile the accumulator is the tile added to the zero block. -/
theorem step_first0 (t : Fin cfg0.N) (h0 : t.val % 8 = 0) :
    (outsAt0 V c t.val t.isLt).2 = Cert.MS.tileAdd (Cert.MS.qBlk (V c main_v0) ⟨t.val / 8, by have := t.isLt; have : cfg0.N = 32 := N_0; omega⟩)
      (Cert.MS.kBlk (V c main_v3) ⟨t.val % 8, by omega⟩) (fun _ => 0) := by
  have h1 : ¬t.val % 8 = 7 := by omega
  rw [outsAt0_A V c t h0 h1]
  dsimp only
  rw [sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
    pay3_eq0, pay1_eq0, iblk0_q, iblk0_k]

/-- At a later key tile the accumulator is the tile added to what the point before left. -/
theorem step_later0 (t : Fin cfg0.N) (h0 : ¬t.val % 8 = 0) :
    (outsAt0 V c t.val t.isLt).2 = Cert.MS.tileAdd (Cert.MS.qBlk (V c main_v0) ⟨t.val / 8, by have := t.isLt; have : cfg0.N = 32 := N_0; omega⟩)
      (Cert.MS.kBlk (V c main_v3) ⟨t.val % 8, by omega⟩) (outsAt0 V c (t.val - 1) (Nat.lt_of_le_of_lt (Nat.sub_le _ _) t.isLt)).2 := by
  by_cases h1 : t.val % 8 = 7
  · rw [outsAt0_C V c t h0 h1]
    dsimp only
    rw [sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t),
      pay3_eq0, iblk0_q, iblk0_k]
  · rw [outsAt0_B V c t h0 h1]
    dsimp only
    rw [sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t),
      pay3_eq0, iblk0_q, iblk0_k]

/-- At a last key tile the block written is the body's output value of the query block and the accumulator just stored. -/
theorem step_out0 (t : Fin cfg0.N) (h7 : t.val % 8 = 7) :
    (outsAt0 V c t.val t.isLt).1 = Cert.MS.outBlk (Cert.MS.qBlk (V c main_v0) ⟨t.val / 8, by have := t.isLt; have : cfg0.N = 32 := N_0; omega⟩)
      (outsAt0 V c t.val t.isLt).2 := by
  have h0 : ¬t.val % 8 = 0 := by omega
  rw [outsAt0_C V c t h0 h7]
  dsimp only
  rw [out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t),
    sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h7) (iblk0 V c 0 t) (iblk0 V c 1 t),
    pay4_eq0, iblk0_q]

/-- THE ACCUMULATOR after position `n`: key tiles 0..n mod 8 of query tile n / 8, from the zero block. -/
theorem acc_eq0 : ∀ (n : ℕ) (hn : n < cfg0.N),
    (outsAt0 V c n hn).2 = Cert.MS.accAt (V c main_v0) (V c main_v3) ⟨n / 8, by have : cfg0.N = 32 := N_0; omega⟩ (n % 8)
  | 0, hn => (step_first0 V c ⟨0, hn⟩ rfl).trans rfl
  | n + 1, hn => by
    have hN : n + 1 < 32 := lt_of_lt_of_eq hn N_0
    by_cases h0 : (n + 1) % 8 = 0
    · refine (step_first0 V c ⟨n + 1, hn⟩ h0).trans ?_
      have hq : ∀ (k : ℕ) (hk : k = 0) (q : Fin 4) (hk8 : k < 8), Cert.MS.tileAdd (Cert.MS.qBlk (V c main_v0) q) (Cert.MS.kBlk (V c main_v3) ⟨k, hk8⟩) (fun _ => 0)
          = Cert.MS.accAt (V c main_v0) (V c main_v3) q k := by
        intro k hk q hk8; subst hk; rfl
      exact hq _ h0 _ _
    · have ih := acc_eq0 n (Nat.lt_of_succ_lt hn)
      refine (step_later0 V c ⟨n + 1, hn⟩ h0).trans ?_
      have hstep : ∀ (q q' : Fin 4) (k k' : ℕ) (hk8 : k' < 8) (acc : Cert.MS.SAcc.Idx → EReal), q' = q → k' = k + 1 →
          acc = Cert.MS.accAt (V c main_v0) (V c main_v3) q k →
          Cert.MS.tileAdd (Cert.MS.qBlk (V c main_v0) q') (Cert.MS.kBlk (V c main_v3) ⟨k', hk8⟩) acc
            = Cert.MS.accAt (V c main_v0) (V c main_v3) q' k' := by
        intro q q' k k' hk8 acc hq hk hacc; subst hq; subst hk; subst hacc
        rw [Cert.MS.accAt, dif_pos hk8]
      exact hstep ⟨n / 8, by omega⟩ _ (n % 8) _ _ _ (Fin.ext (by show (n + 1) / 8 = n / 8; omega)) (by show (n + 1) % 8 = n % 8 + 1; omega) ih

/-- THE BLOCK WRITTEN at a last key tile is the iteration's value on the query tile. -/
theorem out_eq0 (ha : ∀ (r : Fin 32) (j : Fin 9216), (V c main_v3 : Cert.MS.SA.Idx → EReal) (ix2 (⟨r.val, by omega⟩ : Fin 40) j) = (V c main_v0 : Cert.MS.Mat) (ix2 r j))
    (h1 : ∀ j : Fin 9216, (V c main_v3 : Cert.MS.SA.Idx → EReal) (ix2 (⟨32, by omega⟩ : Fin 40) j) = Cert.MS.one)
    (t : Fin cfg0.N) (h7 : t.val % 8 = 7) :
    (outsAt0 V c t.val t.isLt).1 = Cert.MS.qBlk (Cert.MS.kerStep (V c main_v0)) ⟨t.val / 8, by have := t.isLt; have : cfg0.N = 32 := N_0; omega⟩ := by
  rw [step_out0 V c t h7, acc_eq0 V c t.val t.isLt]
  have h7' : ∀ (k : ℕ) (hk : k = 7) (q : Fin 4), Cert.MS.outBlk (Cert.MS.qBlk (V c main_v0) q) (Cert.MS.accAt (V c main_v0) (V c main_v3) q k)
      = Cert.MS.qBlk (Cert.MS.kerStep (V c main_v0)) q := by
    intro k hk q; subst hk
    funext y
    obtain ⟨r, j, rfl⟩ : ∃ (r : Fin 32) (j : Fin 2304), y = ix2 r j := ⟨y 0, y 1, eq_ix2 y⟩
    exact Cert.MS.outBlk_accAt (V c main_v0) (V c main_v3) ha h1 q r j
  exact h7' _ h7 _

/-- THE CALL'S RESULT: one iteration of its first operand. -/
theorem result0 (ha : ∀ (r : Fin 32) (j : Fin 9216), (V c main_v3 : Cert.MS.SA.Idx → EReal) (ix2 (⟨r.val, by omega⟩ : Fin 40) j) = (V c main_v0 : Cert.MS.Mat) (ix2 r j))
    (h1 : ∀ j : Fin 9216, (V c main_v3 : Cert.MS.SA.Idx → EReal) (ix2 (⟨32, by omega⟩ : Fin 40) j) = Cert.MS.one) :
    (dat0 V c).arrAt 2 cfg0.N = Cert.MS.kerStep (V c main_v0) :=
  arr0_of_flushed V c (Cert.MS.kerStep (V c main_v0)) (fun t h7 => out_eq0 V c ha h1 t h7)

end Cert.KernelIdeal.Accum

end
-- ==== Proof.KI.Pieces1.lean ====
/-
  Kernel call 1: the pieces the three runs found, read back, are the body's stored values — the accumulator after a
  point is the stored sum of what it held and the key tile's contribution (from the zero block at a first key tile), and
  the output block written at a last key tile is the body's output value of the query block and that accumulator.
-/
import proofs.«120442_j39496519254112_2_alg».proof.Proof.KI.Reg1
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → ℕ) = fun _ => 0 := by funext a; match a with | ⟨0, _⟩ => rfl | ⟨1, _⟩ => rfl

/-! ## Kernel call 1: what each case leaves, as the body's stored values -/

/-- A first key tile leaves in the accumulator the key tile's contribution added to the zero block. -/
theorem sout1_A_eq (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond1_0 i) (hc1 : ¬cond1_1 i)
    (x0 : Vec F S32x2304 .f32) (x1 : Vec F S40x1152 .f32) :
    sout1_A c i arg2 harg2 arg3 harg3 arg4 harg4 arg5 harg5 hc0 hc1 x0 x1 = k1_pay3 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero hz2_1]
  try sl_unfold_words
  simp only [View.readAt_eq_ld, harg2.read_unread, harg3.read_unread]
  rw [View.readCov_unit_zero (S := S40x2304) _ hz2_1, View.ld_unit_zero (S := S32x2304) hz2_1, View.ld_unit_zero (S := S40x1152) hz2_1]

/-- A middle key tile leaves the accumulator it found plus the key tile's contribution. -/
theorem sout1_B_eq (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : ¬cond1_1 i)
    (x0 : Vec F S32x2304 .f32) (x1 : Vec F S40x1152 .f32) (xs0 : Vec F S40x2304 .f32) :
    sout1_B c i arg2 harg2 arg3 harg3 arg4 harg4 arg5 harg5 hc0 hc1 x0 x1 xs0 = k1_pay3 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_cons_unit_zero hz2_1]
  simp only [View.readAt_eq_ld, harg2.read_unread, harg3.read_unread, harg5.read_unread]
  rw [View.ld_unit_zero (S := S40x2304) hz2_1, View.ld_unit_zero (S := S32x2304) hz2_1, View.ld_unit_zero (S := S40x1152) hz2_1]

/-- A last key tile leaves the same in the accumulator … -/
theorem sout1_C_eq (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) :
    sout1_C c i arg2 harg2 arg3 harg3 arg4 harg4 arg5 harg5 hc0 hc1 x0 x1 xs0 = k1_pay3 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_cons_unit_zero hz2_1]
  simp only [View.readAt_eq_ld, harg2.read_unread, harg3.read_unread, harg5.read_unread]
  rw [View.ld_unit_zero (S := S40x2304) hz2_1, View.ld_unit_zero (S := S32x2304) hz2_1, View.ld_unit_zero (S := S40x1152) hz2_1]

/-- … and writes the output block computed from the accumulator it has just stored. -/
theorem out1_C_eq (c : Dev nD) (i : grid1.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond1_0 i) (hc1 : cond1_1 i)
    (x0 : Vec F S32x2304 .f32) (x1 : Vec F S40x1152 .f32) (xs0 : Vec F S40x2304 .f32) :
    out1_C c i arg2 harg2 arg3 harg3 arg4 harg4 arg5 harg5 hc0 hc1 x0 x1 xs0 = k1_pay4 x0 (k1_pay3 x0 x1 xs0) := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_cons_unit_zero hz2_1]
  simp only [View.readAt_eq_ld, harg2.read_unread, harg3.read_unread, harg5.read_unread]
  rw [View.readCov_unit_zero (S := S40x2304) _ hz2_1, View.ld_unit_zero (S := S40x2304) hz2_1, View.ld_unit_zero (S := S32x2304) hz2_1, View.ld_unit_zero (S := S40x1152) hz2_1]

end Cert.KernelIdeal.Body

end
-- ==== Proof.KI.Blocks1.lean ====
/-
  Kernel call 1's blocks as blocks of the whole matrices, and its result array from the blocks it writes back.

  The call runs over a grid of 4 query tiles by 8 key tiles, point t = 8·q + k. At point t its first window holds
  columns 2304·q, …, 2304·q + 2303 of the 32-row matrix (query block q), its second window columns 1152·k, …,
  1152·k + 1151 of the 40-row augmented matrix (key block k), and its result window is block q of the result, written
  back exactly at the last key tile of each query tile (t ≡ 7 mod 8). An element of a block sits in its array, on
  each axis, at block index × block size + its coordinate; the block indices are (0, t / 8), (0, t % 8) and (0, t / 8).
  Column j of the result lies in the block written at point 8·(j / 2304) + 7, so the four blocks written back cover
  the array: if each is the corresponding block of one matrix G, the array ends holding G.
-/
import proofs.«120442_j39496519254112_2_alg».proof.Proof.KI.Reg1
import proofs.«120442_j39496519254112_2_alg».proof.Proof.TileDefs
import Idealize.ShloMosaic.Lib.Pipeline.Value
import Idealize.ShloMosaic.Lib.ValueIdx

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The block indices of the three windows at every point of the grid: the row index is 0; the column index is the
    query tile t / 8 for the first and the result window, the key tile t % 8 for the second. -/
theorem blockIdx1 : ∀ t : Fin cfg1.N,
    win1_0.index t (0 : Fin 2) = 0 ∧ win1_0.index t (1 : Fin 2) = t.val / 8
    ∧ win1_1.index t (0 : Fin 2) = 0 ∧ win1_1.index t (1 : Fin 2) = t.val % 8
    ∧ win1_2.index t (0 : Fin 2) = 0 ∧ win1_2.index t (1 : Fin 2) = t.val / 8 :=
  (by decide +kernel : ∀ t : Fin grid1.N, _)

/-- The first window's block at point t is query block t / 8 of its matrix. -/
theorem iblk1_q (t : Fin cfg1.N) :
    iblk1 V c 0 t = Cert.MS.qBlk (V c main_v4) ⟨t.val / 8, by have := t.isLt; have : cfg1.N = 32 := N_1; omega⟩ := by
  obtain ⟨e0, e1, -⟩ := blockIdx1 t
  funext y
  show V c main_v4 (((cfg1.win 0).blk t).view.emb y) = V c main_v4 _
  refine congrArg (V c main_v4) (funext fun a => Fin.ext ?_)
  match a with
  | ⟨0, _⟩ => show win1_0.index t (0 : Fin 2) * 32 + 1 * (y 0).val = (y 0).val; rw [e0]; omega
  | ⟨1, _⟩ => show win1_0.index t (1 : Fin 2) * 2304 + 1 * (y 1).val = 2304 * (t.val / 8) + (y 1).val; rw [e1]; omega

/-- The second window's block at point t is key block t % 8 of the augmented matrix. -/
theorem iblk1_k (t : Fin cfg1.N) :
    iblk1 V c 1 t = Cert.MS.kBlk (V c main_v8) ⟨t.val % 8, by omega⟩ := by
  obtain ⟨-, -, e2, e3, -⟩ := blockIdx1 t
  funext y
  show V c main_v8 (((cfg1.win 1).blk t).view.emb y) = V c main_v8 _
  refine congrArg (V c main_v8) (funext fun a => Fin.ext ?_)
  match a with
  | ⟨0, _⟩ => show win1_1.index t (0 : Fin 2) * 40 + 1 * (y 0).val = (y 0).val; rw [e2]; omega
  | ⟨1, _⟩ => show win1_1.index t (1 : Fin 2) * 1152 + 1 * (y 1).val = 1152 * (t.val % 8) + (y 1).val; rw [e3]; omega

/-- An index of the result array is in point t's block iff each coordinate is in the block's range on its axis. -/
theorem mem_blk1 (t : Fin cfg1.N) (i : S32x9216.Idx) :
    i ∈ ((cfg1.win 2).blk t).view.set ↔ ∀ a : Fin 2, win1_2.index t a * S32x2304.size a ≤ (i a).val ∧ (i a).val < win1_2.index t a * S32x2304.size a + S32x2304.size a := by
  show i ∈ ((View.whole main_v9).slice (win1_2.rect t)).set ↔ _
  rw [View.set_slice_whole, Rect.mem_set_unit]
  exact Iff.rfl

/-- If every block written back is the corresponding query block of one matrix G, the result array ends holding G:
    the block written at the last key tile of query tile q is block q of the array, and the four cover it. -/
theorem arr1_of_flushed (G : Cert.MS.Mat)
    (hG : ∀ t : Fin cfg1.N, t.val % 8 = 7 → (outsAt1 V c t.val t.isLt).1 = Cert.MS.qBlk G ⟨t.val / 8, by have := t.isLt; have : cfg1.N = 32 := N_1; omega⟩) :
    (dat1 V c).arrAt 2 cfg1.N = G := by
  have hN : cfg1.N = 32 := N_1
  refine (dat1 V c).arrAt_eq_of_cover 2 G (fun t hf => ?_) (fun i => ?_)
  · show (cfg1.win 2).cut (grid1.coords t) ((dat1 V c).after 2 t) = _
    rw [after1_2, hG t ((flush1_2 t).mp hf)]
    obtain ⟨-, -, -, -, e4, e5⟩ := blockIdx1 t
    funext j
    show G _ = G (((cfg1.win 2).blk t).view.emb j)
    refine congrArg G (funext fun a => Fin.ext ?_)
    match a with
    | ⟨0, _⟩ => show (j 0).val = win1_2.index t (0 : Fin 2) * 32 + 1 * (j 0).val; rw [e4]; omega
    | ⟨1, _⟩ => show 2304 * (t.val / 8) + (j 1).val = win1_2.index t (1 : Fin 2) * 2304 + 1 * (j 1).val; rw [e5]; omega
  · have h0 : (i 0 : Nat) < 32 := (i 0).isLt
    have h1 : (i 1 : Nat) < 9216 := (i 1).isLt
    have ht : 8 * ((i 1 : Nat) / 2304) + 7 < cfg1.N := by rw [hN]; omega
    refine ⟨⟨8 * ((i 1 : Nat) / 2304) + 7, ht⟩, (flush1_2 _).mpr (by show (8 * ((i 1 : Nat) / 2304) + 7) % 8 = 7; omega), ?_⟩
    obtain ⟨-, -, -, -, e4, e5⟩ := blockIdx1 ⟨8 * ((i 1 : Nat) / 2304) + 7, ht⟩
    rw [mem_blk1]
    intro a
    match a with
    | ⟨0, _⟩ => show win1_2.index ⟨8 * ((i 1 : Nat) / 2304) + 7, ht⟩ (0 : Fin 2) * 32 ≤ (i 0 : Nat) ∧ (i 0 : Nat) < win1_2.index ⟨8 * ((i 1 : Nat) / 2304) + 7, ht⟩ (0 : Fin 2) * 32 + 32; rw [e4]; omega
    | ⟨1, _⟩ =>
      show win1_2.index ⟨8 * ((i 1 : Nat) / 2304) + 7, ht⟩ (1 : Fin 2) * 2304 ≤ (i 1 : Nat) ∧ (i 1 : Nat) < win1_2.index ⟨8 * ((i 1 : Nat) / 2304) + 7, ht⟩ (1 : Fin 2) * 2304 + 2304
      rw [e5]
      show (8 * ((i 1 : Nat) / 2304) + 7) / 8 * 2304 ≤ (i 1 : Nat) ∧ (i 1 : Nat) < (8 * ((i 1 : Nat) / 2304) + 7) / 8 * 2304 + 2304
      omega

end Cert.KernelIdeal.Blocks

end
-- ==== Proof.KI.Accum1.lean ====
/-
  Kernel call 1 at the ideal instance: the accumulator after grid point 8·q + k is the sum of key tiles 0..k of query
  tile q from the zero block, the block written at k = 7 is ½·(N/D) + ½·x on query tile q, and so the call's result
  array is one mean-shift iteration of its first operand — given that its second operand is the first with a row of
  ones under it.
-/
import proofs.«120442_j39496519254112_2_alg».proof.Proof.KI.Pieces1
import proofs.«120442_j39496519254112_2_alg».proof.Proof.KI.Blocks1
import proofs.«120442_j39496519254112_2_alg».proof.Proof.Payload
import proofs.«120442_j39496519254112_2_alg».proof.Proof.Tiles

set_option maxRecDepth 16384

noncomputable section

namespace Cert.KernelIdeal.Accum

open Cert.KernelIdeal Cert.KernelIdeal.Gen Cert.KernelIdeal.Body Cert.KernelIdeal.Blocks
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-- The body's stored accumulator, entry by entry, is one key tile added. -/
theorem pay3_eq1 (xq : Vec Ideal S32x2304 .f32) (xk : Vec Ideal S40x1152 .f32) (acc : Vec Ideal S40x2304 .f32) :
    k1_pay3 (F := Ideal) xq xk acc = Cert.MS.tileAdd xq xk acc := by
  funext y
  obtain ⟨r, j, rfl⟩ : ∃ (r : Fin 40) (j : Fin 2304), y = ix2 r j := ⟨y 0, y 1, eq_ix2 y⟩
  exact Cert.MS.Pay.k1_pay3_apply xq xk acc r j

/-- The zero block. -/
theorem pay1_eq1 : k1_pay1 (F := Ideal) = fun _ => 0 := by
  funext y
  obtain ⟨r, j, rfl⟩ : ∃ (r : Fin 40) (j : Fin 2304), y = ix2 r j := ⟨y 0, y 1, eq_ix2 y⟩
  exact Cert.MS.Pay.k1_pay1_apply r j

/-- The body's output value, entry by entry. -/
theorem pay4_eq1 (xq : Vec Ideal S32x2304 .f32) (acc : Vec Ideal S40x2304 .f32) :
    k1_pay4 (F := Ideal) xq acc = Cert.MS.outBlk xq acc := by
  funext y
  obtain ⟨r, j, rfl⟩ : ∃ (r : Fin 32) (j : Fin 2304), y = ix2 r j := ⟨y 0, y 1, eq_ix2 y⟩
  exact Cert.MS.Pay.k1_pay4_apply xq acc r j

/-- At a first key tile the accumulator is the tile added to the zero block. -/
theorem step_first1 (t : Fin cfg1.N) (h0 : t.val % 8 = 0) :
    (outsAt1 V c t.val t.isLt).2 = Cert.MS.tileAdd (Cert.MS.qBlk (V c main_v4) ⟨t.val / 8, by have := t.isLt; have : cfg1.N = 32 := N_1; omega⟩)
      (Cert.MS.kBlk (V c main_v8) ⟨t.val % 8, by omega⟩) (fun _ => 0) := by
  have h1 : ¬t.val % 8 = 7 := by omega
  rw [outsAt1_A V c t h0 h1]
  dsimp only
  rw [sout1_A_eq c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
    pay3_eq1, pay1_eq1, iblk1_q, iblk1_k]

/-- At a later key tile the accumulator is the tile added to what the point before left. -/
theorem step_later1 (t : Fin cfg1.N) (h0 : ¬t.val % 8 = 0) :
    (outsAt1 V c t.val t.isLt).2 = Cert.MS.tileAdd (Cert.MS.qBlk (V c main_v4) ⟨t.val / 8, by have := t.isLt; have : cfg1.N = 32 := N_1; omega⟩)
      (Cert.MS.kBlk (V c main_v8) ⟨t.val % 8, by omega⟩) (outsAt1 V c (t.val - 1) (Nat.lt_of_le_of_lt (Nat.sub_le _ _) t.isLt)).2 := by
  by_cases h1 : t.val % 8 = 7
  · rw [outsAt1_C V c t h0 h1]
    dsimp only
    rw [sout1_C_eq c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t),
      pay3_eq1, iblk1_q, iblk1_k]
  · rw [outsAt1_B V c t h0 h1]
    dsimp only
    rw [sout1_B_eq c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t),
      pay3_eq1, iblk1_q, iblk1_k]

/-- At a last key tile the block written is the body's output value of the query block and the accumulator just stored. -/
theorem step_out1 (t : Fin cfg1.N) (h7 : t.val % 8 = 7) :
    (outsAt1 V c t.val t.isLt).1 = Cert.MS.outBlk (Cert.MS.qBlk (V c main_v4) ⟨t.val / 8, by have := t.isLt; have : cfg1.N = 32 := N_1; omega⟩)
      (outsAt1 V c t.val t.isLt).2 := by
  have h0 : ¬t.val % 8 = 0 := by omega
  rw [outsAt1_C V c t h0 h7]
  dsimp only
  rw [out1_C_eq c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t),
    sout1_C_eq c (grid1.coords t) (ms1_0 t) (hs1_0 t) (ms1_1 t) (hs1_1 t) (ms1_2 t) (hs1_2 t) scM1 (Memref.isWhole_whole _) (fun h => h0 ((hcond1_0 t).mp h)) ((hcond1_1 t).mpr h7) (iblk1 V c 0 t) (iblk1 V c 1 t),
    pay4_eq1, iblk1_q]

/-- THE ACCUMULATOR after position `n`: key tiles 0..n mod 8 of query tile n / 8, from the zero block. -/
theorem acc_eq1 : ∀ (n : ℕ) (hn : n < cfg1.N),
    (outsAt1 V c n hn).2 = Cert.MS.accAt (V c main_v4) (V c main_v8) ⟨n / 8, by have : cfg1.N = 32 := N_1; omega⟩ (n % 8)
  | 0, hn => (step_first1 V c ⟨0, hn⟩ rfl).trans rfl
  | n + 1, hn => by
    have hN : n + 1 < 32 := lt_of_lt_of_eq hn N_1
    by_cases h0 : (n + 1) % 8 = 0
    · refine (step_first1 V c ⟨n + 1, hn⟩ h0).trans ?_
      have hq : ∀ (k : ℕ) (hk : k = 0) (q : Fin 4) (hk8 : k < 8), Cert.MS.tileAdd (Cert.MS.qBlk (V c main_v4) q) (Cert.MS.kBlk (V c main_v8) ⟨k, hk8⟩) (fun _ => 0)
          = Cert.MS.accAt (V c main_v4) (V c main_v8) q k := by
        intro k hk q hk8; subst hk; rfl
      exact hq _ h0 _ _
    · have ih := acc_eq1 n (Nat.lt_of_succ_lt hn)
      refine (step_later1 V c ⟨n + 1, hn⟩ h0).trans ?_
      have hstep : ∀ (q q' : Fin 4) (k k' : ℕ) (hk8 : k' < 8) (acc : Cert.MS.SAcc.Idx → EReal), q' = q → k' = k + 1 →
          acc = Cert.MS.accAt (V c main_v4) (V c main_v8) q k →
          Cert.MS.tileAdd (Cert.MS.qBlk (V c main_v4) q') (Cert.MS.kBlk (V c main_v8) ⟨k', hk8⟩) acc
            = Cert.MS.accAt (V c main_v4) (V c main_v8) q' k' := by
        intro q q' k k' hk8 acc hq hk hacc; subst hq; subst hk; subst hacc
        rw [Cert.MS.accAt, dif_pos hk8]
      exact hstep ⟨n / 8, by omega⟩ _ (n % 8) _ _ _ (Fin.ext (by show (n + 1) / 8 = n / 8; omega)) (by show (n + 1) % 8 = n % 8 + 1; omega) ih

/-- THE BLOCK WRITTEN at a last key tile is the iteration's value on the query tile. -/
theorem out_eq1 (ha : ∀ (r : Fin 32) (j : Fin 9216), (V c main_v8 : Cert.MS.SA.Idx → EReal) (ix2 (⟨r.val, by omega⟩ : Fin 40) j) = (V c main_v4 : Cert.MS.Mat) (ix2 r j))
    (h1 : ∀ j : Fin 9216, (V c main_v8 : Cert.MS.SA.Idx → EReal) (ix2 (⟨32, by omega⟩ : Fin 40) j) = Cert.MS.one)
    (t : Fin cfg1.N) (h7 : t.val % 8 = 7) :
    (outsAt1 V c t.val t.isLt).1 = Cert.MS.qBlk (Cert.MS.kerStep (V c main_v4)) ⟨t.val / 8, by have := t.isLt; have : cfg1.N = 32 := N_1; omega⟩ := by
  rw [step_out1 V c t h7, acc_eq1 V c t.val t.isLt]
  have h7' : ∀ (k : ℕ) (hk : k = 7) (q : Fin 4), Cert.MS.outBlk (Cert.MS.qBlk (V c main_v4) q) (Cert.MS.accAt (V c main_v4) (V c main_v8) q k)
      = Cert.MS.qBlk (Cert.MS.kerStep (V c main_v4)) q := by
    intro k hk q; subst hk
    funext y
    obtain ⟨r, j, rfl⟩ : ∃ (r : Fin 32) (j : Fin 2304), y = ix2 r j := ⟨y 0, y 1, eq_ix2 y⟩
    exact Cert.MS.outBlk_accAt (V c main_v4) (V c main_v8) ha h1 q r j
  exact h7' _ h7 _

/-- THE CALL'S RESULT: one iteration of its first operand. -/
theorem result1 (ha : ∀ (r : Fin 32) (j : Fin 9216), (V c main_v8 : Cert.MS.SA.Idx → EReal) (ix2 (⟨r.val, by omega⟩ : Fin 40) j) = (V c main_v4 : Cert.MS.Mat) (ix2 r j))
    (h1 : ∀ j : Fin 9216, (V c main_v8 : Cert.MS.SA.Idx → EReal) (ix2 (⟨32, by omega⟩ : Fin 40) j) = Cert.MS.one) :
    (dat1 V c).arrAt 2 cfg1.N = Cert.MS.kerStep (V c main_v4) :=
  arr1_of_flushed V c (Cert.MS.kerStep (V c main_v4)) (fun t h7 => out_eq1 V c ha h1 t h7)

end Cert.KernelIdeal.Accum

end
-- ==== Proof.KI.Pieces2.lean ====
/-
  Kernel call 2: the pieces the three runs found, read back, are the body's stored values — the accumulator after a
  point is the stored sum of what it held and the key tile's contribution (from the zero block at a first key tile), and
  the output block written at a last key tile is the body's output value of the query block and that accumulator.
-/
import proofs.«120442_j39496519254112_2_alg».proof.Proof.KI.Reg2
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_2 : (![0, 0] : Fin 2 → ℕ) = fun _ => 0 := by funext a; match a with | ⟨0, _⟩ => rfl | ⟨1, _⟩ => rfl

/-! ## Kernel call 2: what each case leaves, as the body's stored values -/

/-- A first key tile leaves in the accumulator the key tile's contribution added to the zero block. -/
theorem sout2_A_eq (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : cond2_0 i) (hc1 : ¬cond2_1 i)
    (x0 : Vec F S32x2304 .f32) (x1 : Vec F S40x1152 .f32) :
    sout2_A c i arg2 harg2 arg3 harg3 arg4 harg4 arg5 harg5 hc0 hc1 x0 x1 = k2_pay3 x0 x1 (k2_pay1 (F := F)) := by
  unfold sout2_A
  rw [View.read_writes_eq_canon _ _ _ (scover2_A c i arg2 harg2 arg3 harg3 arg4 harg4 arg5 harg5 hc0 hc1 x0 x1)]
  unfold kernelRun2_A
  dsimp only
  sl_unfold_words
  rw [View.canon_cons_unit_zero hz2_2]
  try sl_unfold_words
  simp only [View.readAt_eq_ld, harg2.read_unread, harg3.read_unread]
  rw [View.readCov_unit_zero (S := S40x2304) _ hz2_2, View.ld_unit_zero (S := S32x2304) hz2_2, View.ld_unit_zero (S := S40x1152) hz2_2]

/-- A middle key tile leaves the accumulator it found plus the key tile's contribution. -/
theorem sout2_B_eq (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : ¬cond2_1 i)
    (x0 : Vec F S32x2304 .f32) (x1 : Vec F S40x1152 .f32) (xs0 : Vec F S40x2304 .f32) :
    sout2_B c i arg2 harg2 arg3 harg3 arg4 harg4 arg5 harg5 hc0 hc1 x0 x1 xs0 = k2_pay3 x0 x1 xs0 := by
  unfold sout2_B
  rw [View.read_writes_eq_canon _ _ _ (scover2_B c i arg2 harg2 arg3 harg3 arg4 harg4 arg5 harg5 hc0 hc1 x0 x1 xs0)]
  unfold kernelRun2_B
  dsimp only
  sl_unfold_words
  rw [View.canon_cons_unit_zero hz2_2]
  simp only [View.readAt_eq_ld, harg2.read_unread, harg3.read_unread, harg5.read_unread]
  rw [View.ld_unit_zero (S := S40x2304) hz2_2, View.ld_unit_zero (S := S32x2304) hz2_2, View.ld_unit_zero (S := S40x1152) hz2_2]

/-- A last key tile leaves the same in the accumulator … -/
theorem sout2_C_eq (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) :
    sout2_C c i arg2 harg2 arg3 harg3 arg4 harg4 arg5 harg5 hc0 hc1 x0 x1 xs0 = k2_pay3 x0 x1 xs0 := by
  unfold sout2_C
  rw [View.read_writes_eq_canon _ _ _ (scover2_C c i arg2 harg2 arg3 harg3 arg4 harg4 arg5 harg5 hc0 hc1 x0 x1 xs0)]
  unfold kernelRun2_C
  dsimp only
  sl_unfold_words
  rw [View.canon_cons_unit_zero hz2_2]
  simp only [View.readAt_eq_ld, harg2.read_unread, harg3.read_unread, harg5.read_unread]
  rw [View.ld_unit_zero (S := S40x2304) hz2_2, View.ld_unit_zero (S := S32x2304) hz2_2, View.ld_unit_zero (S := S40x1152) hz2_2]

/-- … and writes the output block computed from the accumulator it has just stored. -/
theorem out2_C_eq (c : Dev nD) (i : grid2.Coords) (arg2 : Memref sig .tc .vmem S32x2304 .f32) (harg2 : arg2.IsWhole) (arg3 : Memref sig .tc .vmem S40x1152 .f32) (harg3 : arg3.IsWhole) (arg4 : Memref sig .tc .vmem S32x2304 .f32) (harg4 : arg4.IsWhole) (arg5 : Memref sig .tc .vmem S40x2304 .f32) (harg5 : arg5.IsWhole) (hc0 : ¬cond2_0 i) (hc1 : cond2_1 i)
    (x0 : Vec F S32x2304 .f32) (x1 : Vec F S40x1152 .f32) (xs0 : Vec F S40x2304 .f32) :
    out2_C c i arg2 harg2 arg3 harg3 arg4 harg4 arg5 harg5 hc0 hc1 x0 x1 xs0 = k2_pay4 x0 (k2_pay3 x0 x1 xs0) := by
  unfold out2_C
  rw [View.read_writes_eq_canon _ _ _ (cover2_C c i arg2 harg2 arg3 harg3 arg4 harg4 arg5 harg5 hc0 hc1 x0 x1 xs0)]
  unfold kernelRun2_C
  dsimp only
  sl_unfold_words
  rw [View.canon_cons_unit_zero hz2_2]
  simp only [View.readAt_eq_ld, harg2.read_unread, harg3.read_unread, harg5.read_unread]
  rw [View.readCov_unit_zero (S := S40x2304) _ hz2_2, View.ld_unit_zero (S := S40x2304) hz2_2, View.ld_unit_zero (S := S32x2304) hz2_2, View.ld_unit_zero (S := S40x1152) hz2_2]

end Cert.KernelIdeal.Body

end
-- ==== Proof.KI.Blocks2.lean ====
/-
  Kernel call 2's blocks as blocks of the whole matrices, and its result array from the blocks it writes back.

  The call runs over a grid of 4 query tiles by 8 key tiles, point t = 8·q + k. At point t its first window holds
  columns 2304·q, …, 2304·q + 2303 of the 32-row matrix (query block q), its second window columns 1152·k, …,
  1152·k + 1151 of the 40-row augmented matrix (key block k), and its result window is block q of the result, written
  back exactly at the last key tile of each query tile (t ≡ 7 mod 8). An element of a block sits in its array, on
  each axis, at block index × block size + its coordinate; the block indices are (0, t / 8), (0, t % 8) and (0, t / 8).
  Column j of the result lies in the block written at point 8·(j / 2304) + 7, so the four blocks written back cover
  the array: if each is the corresponding block of one matrix G, the array ends holding G.
-/
import proofs.«120442_j39496519254112_2_alg».proof.Proof.KI.Reg2
import proofs.«120442_j39496519254112_2_alg».proof.Proof.TileDefs
import Idealize.ShloMosaic.Lib.Pipeline.Value
import Idealize.ShloMosaic.Lib.ValueIdx

noncomputable section

namespace Cert.KernelIdeal.Blocks

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The block indices of the three windows at every point of the grid: the row index is 0; the column index is the
    query tile t / 8 for the first and the result window, the key tile t % 8 for the second. -/
theorem blockIdx2 : ∀ t : Fin cfg2.N,
    win2_0.index t (0 : Fin 2) = 0 ∧ win2_0.index t (1 : Fin 2) = t.val / 8
    ∧ win2_1.index t (0 : Fin 2) = 0 ∧ win2_1.index t (1 : Fin 2) = t.val % 8
    ∧ win2_2.index t (0 : Fin 2) = 0 ∧ win2_2.index t (1 : Fin 2) = t.val / 8 :=
  (by decide +kernel : ∀ t : Fin grid2.N, _)

/-- The first window's block at point t is query block t / 8 of its matrix. -/
theorem iblk2_q (t : Fin cfg2.N) :
    iblk2 V c 0 t = Cert.MS.qBlk (V c main_v9) ⟨t.val / 8, by have := t.isLt; have : cfg2.N = 32 := N_2; omega⟩ := by
  obtain ⟨e0, e1, -⟩ := blockIdx2 t
  funext y
  show V c main_v9 (((cfg2.win 0).blk t).view.emb y) = V c main_v9 _
  refine congrArg (V c main_v9) (funext fun a => Fin.ext ?_)
  match a with
  | ⟨0, _⟩ => show win2_0.index t (0 : Fin 2) * 32 + 1 * (y 0).val = (y 0).val; rw [e0]; omega
  | ⟨1, _⟩ => show win2_0.index t (1 : Fin 2) * 2304 + 1 * (y 1).val = 2304 * (t.val / 8) + (y 1).val; rw [e1]; omega

/-- The second window's block at point t is key block t % 8 of the augmented matrix. -/
theorem iblk2_k (t : Fin cfg2.N) :
    iblk2 V c 1 t = Cert.MS.kBlk (V c main_v13) ⟨t.val % 8, by omega⟩ := by
  obtain ⟨-, -, e2, e3, -⟩ := blockIdx2 t
  funext y
  show V c main_v13 (((cfg2.win 1).blk t).view.emb y) = V c main_v13 _
  refine congrArg (V c main_v13) (funext fun a => Fin.ext ?_)
  match a with
  | ⟨0, _⟩ => show win2_1.index t (0 : Fin 2) * 40 + 1 * (y 0).val = (y 0).val; rw [e2]; omega
  | ⟨1, _⟩ => show win2_1.index t (1 : Fin 2) * 1152 + 1 * (y 1).val = 1152 * (t.val % 8) + (y 1).val; rw [e3]; omega

/-- An index of the result array is in point t's block iff each coordinate is in the block's range on its axis. -/
theorem mem_blk2 (t : Fin cfg2.N) (i : S32x9216.Idx) :
    i ∈ ((cfg2.win 2).blk t).view.set ↔ ∀ a : Fin 2, win2_2.index t a * S32x2304.size a ≤ (i a).val ∧ (i a).val < win2_2.index t a * S32x2304.size a + S32x2304.size a := by
  show i ∈ ((View.whole main_v14).slice (win2_2.rect t)).set ↔ _
  rw [View.set_slice_whole, Rect.mem_set_unit]
  exact Iff.rfl

/-- If every block written back is the corresponding query block of one matrix G, the result array ends holding G:
    the block written at the last key tile of query tile q is block q of the array, and the four cover it. -/
theorem arr2_of_flushed (G : Cert.MS.Mat)
    (hG : ∀ t : Fin cfg2.N, t.val % 8 = 7 → (outsAt2 V c t.val t.isLt).1 = Cert.MS.qBlk G ⟨t.val / 8, by have := t.isLt; have : cfg2.N = 32 := N_2; omega⟩) :
    (dat2 V c).arrAt 2 cfg2.N = G := by
  have hN : cfg2.N = 32 := N_2
  refine (dat2 V c).arrAt_eq_of_cover 2 G (fun t hf => ?_) (fun i => ?_)
  · show (cfg2.win 2).cut (grid2.coords t) ((dat2 V c).after 2 t) = _
    rw [after2_2, hG t ((flush2_2 t).mp hf)]
    obtain ⟨-, -, -, -, e4, e5⟩ := blockIdx2 t
    funext j
    show G _ = G (((cfg2.win 2).blk t).view.emb j)
    refine congrArg G (funext fun a => Fin.ext ?_)
    match a with
    | ⟨0, _⟩ => show (j 0).val = win2_2.index t (0 : Fin 2) * 32 + 1 * (j 0).val; rw [e4]; omega
    | ⟨1, _⟩ => show 2304 * (t.val / 8) + (j 1).val = win2_2.index t (1 : Fin 2) * 2304 + 1 * (j 1).val; rw [e5]; omega
  · have h0 : (i 0 : Nat) < 32 := (i 0).isLt
    have h1 : (i 1 : Nat) < 9216 := (i 1).isLt
    have ht : 8 * ((i 1 : Nat) / 2304) + 7 < cfg2.N := by rw [hN]; omega
    refine ⟨⟨8 * ((i 1 : Nat) / 2304) + 7, ht⟩, (flush2_2 _).mpr (by show (8 * ((i 1 : Nat) / 2304) + 7) % 8 = 7; omega), ?_⟩
    obtain ⟨-, -, -, -, e4, e5⟩ := blockIdx2 ⟨8 * ((i 1 : Nat) / 2304) + 7, ht⟩
    rw [mem_blk2]
    intro a
    match a with
    | ⟨0, _⟩ => show win2_2.index ⟨8 * ((i 1 : Nat) / 2304) + 7, ht⟩ (0 : Fin 2) * 32 ≤ (i 0 : Nat) ∧ (i 0 : Nat) < win2_2.index ⟨8 * ((i 1 : Nat) / 2304) + 7, ht⟩ (0 : Fin 2) * 32 + 32; rw [e4]; omega
    | ⟨1, _⟩ =>
      show win2_2.index ⟨8 * ((i 1 : Nat) / 2304) + 7, ht⟩ (1 : Fin 2) * 2304 ≤ (i 1 : Nat) ∧ (i 1 : Nat) < win2_2.index ⟨8 * ((i 1 : Nat) / 2304) + 7, ht⟩ (1 : Fin 2) * 2304 + 2304
      rw [e5]
      show (8 * ((i 1 : Nat) / 2304) + 7) / 8 * 2304 ≤ (i 1 : Nat) ∧ (i 1 : Nat) < (8 * ((i 1 : Nat) / 2304) + 7) / 8 * 2304 + 2304
      omega

end Cert.KernelIdeal.Blocks

end
-- ==== Proof.KI.Accum2.lean ====
/-
  Kernel call 2 at the ideal instance: the accumulator after grid point 8·q + k is the sum of key tiles 0..k of query
  tile q from the zero block, the block written at k = 7 is ½·(N/D) + ½·x on query tile q, and so the call's result
  array is one mean-shift iteration of its first operand — given that its second operand is the first with a row of
  ones under it.
-/
import proofs.«120442_j39496519254112_2_alg».proof.Proof.KI.Pieces2
import proofs.«120442_j39496519254112_2_alg».proof.Proof.KI.Blocks2
import proofs.«120442_j39496519254112_2_alg».proof.Proof.Payload
import proofs.«120442_j39496519254112_2_alg».proof.Proof.Tiles

set_option maxRecDepth 16384

noncomputable section

namespace Cert.KernelIdeal.Accum

open Cert.KernelIdeal Cert.KernelIdeal.Gen Cert.KernelIdeal.Body Cert.KernelIdeal.Blocks
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)

/-- The body's stored accumulator, entry by entry, is one key tile added. -/
theorem pay3_eq2 (xq : Vec Ideal S32x2304 .f32) (xk : Vec Ideal S40x1152 .f32) (acc : Vec Ideal S40x2304 .f32) :
    k2_pay3 (F := Ideal) xq xk acc = Cert.MS.tileAdd xq xk acc := by
  funext y
  obtain ⟨r, j, rfl⟩ : ∃ (r : Fin 40) (j : Fin 2304), y = ix2 r j := ⟨y 0, y 1, eq_ix2 y⟩
  exact Cert.MS.Pay.k2_pay3_apply xq xk acc r j

/-- The zero block. -/
theorem pay1_eq2 : k2_pay1 (F := Ideal) = fun _ => 0 := by
  funext y
  obtain ⟨r, j, rfl⟩ : ∃ (r : Fin 40) (j : Fin 2304), y = ix2 r j := ⟨y 0, y 1, eq_ix2 y⟩
  exact Cert.MS.Pay.k2_pay1_apply r j

/-- The body's output value, entry by entry. -/
theorem pay4_eq2 (xq : Vec Ideal S32x2304 .f32) (acc : Vec Ideal S40x2304 .f32) :
    k2_pay4 (F := Ideal) xq acc = Cert.MS.outBlk xq acc := by
  funext y
  obtain ⟨r, j, rfl⟩ : ∃ (r : Fin 32) (j : Fin 2304), y = ix2 r j := ⟨y 0, y 1, eq_ix2 y⟩
  exact Cert.MS.Pay.k2_pay4_apply xq acc r j

/-- At a first key tile the accumulator is the tile added to the zero block. -/
theorem step_first2 (t : Fin cfg2.N) (h0 : t.val % 8 = 0) :
    (outsAt2 V c t.val t.isLt).2 = Cert.MS.tileAdd (Cert.MS.qBlk (V c main_v9) ⟨t.val / 8, by have := t.isLt; have : cfg2.N = 32 := N_2; omega⟩)
      (Cert.MS.kBlk (V c main_v13) ⟨t.val % 8, by omega⟩) (fun _ => 0) := by
  have h1 : ¬t.val % 8 = 7 := by omega
  rw [outsAt2_A V c t h0 h1]
  dsimp only
  rw [sout2_A_eq c (grid2.coords t) (ms2_0 t) (hs2_0 t) (ms2_1 t) (hs2_1 t) (ms2_2 t) (hs2_2 t) scM2 (Memref.isWhole_whole _) ((hcond2_0 t).mpr h0) (fun h => h1 ((hcond2_1 t).mp h)) (iblk2 V c 0 t) (iblk2 V c 1 t),
    pay3_eq2, pay1_eq2, iblk2_q, iblk2_k]

/-- At a later key tile the accumulator is the tile added to what the point before left. -/
theorem step_later2 (t : Fin cfg2.N) (h0 : ¬t.val % 8 = 0) :
    (outsAt2 V c t.val t.isLt).2 = Cert.MS.tileAdd (Cert.MS.qBlk (V c main_v9) ⟨t.val / 8, by have := t.isLt; have : cfg2.N = 32 := N_2; omega⟩)
      (Cert.MS.kBlk (V c main_v13) ⟨t.val % 8, by omega⟩) (outsAt2 V c (t.val - 1) (Nat.lt_of_le_of_lt (Nat.sub_le _ _) t.isLt)).2 := by
  by_cases h1 : t.val % 8 = 7
  · rw [outsAt2_C V c t h0 h1]
    dsimp only
    rw [sout2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h1) (iblk2 V c 0 t) (iblk2 V c 1 t),
      pay3_eq2, iblk2_q, iblk2_k]
  · rw [outsAt2_B V c t h0 h1]
    dsimp only
    rw [sout2_B_eq c (grid2.coords t) (ms2_0 t) (hs2_0 t) (ms2_1 t) (hs2_1 t) (ms2_2 t) (hs2_2 t) scM2 (Memref.isWhole_whole _) (fun h => h0 ((hcond2_0 t).mp h)) (fun h => h1 ((hcond2_1 t).mp h)) (iblk2 V c 0 t) (iblk2 V c 1 t),
      pay3_eq2, iblk2_q, iblk2_k]

/-- At a last key tile the block written is the body's output value of the query block and the accumulator just stored. -/
theorem step_out2 (t : Fin cfg2.N) (h7 : t.val % 8 = 7) :
    (outsAt2 V c t.val t.isLt).1 = Cert.MS.outBlk (Cert.MS.qBlk (V c main_v9) ⟨t.val / 8, by have := t.isLt; have : cfg2.N = 32 := N_2; omega⟩)
      (outsAt2 V c t.val t.isLt).2 := by
  have h0 : ¬t.val % 8 = 0 := by omega
  rw [outsAt2_C V c t h0 h7]
  dsimp only
  rw [out2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h7) (iblk2 V c 0 t) (iblk2 V c 1 t),
    sout2_C_eq c (grid2.coords t) (ms2_0 t) (hs2_0 t) (ms2_1 t) (hs2_1 t) (ms2_2 t) (hs2_2 t) scM2 (Memref.isWhole_whole _) (fun h => h0 ((hcond2_0 t).mp h)) ((hcond2_1 t).mpr h7) (iblk2 V c 0 t) (iblk2 V c 1 t),
    pay4_eq2, iblk2_q]

/-- THE ACCUMULATOR after position `n`: key tiles 0..n mod 8 of query tile n / 8, from the zero block. -/
theorem acc_eq2 : ∀ (n : ℕ) (hn : n < cfg2.N),
    (outsAt2 V c n hn).2 = Cert.MS.accAt (V c main_v9) (V c main_v13) ⟨n / 8, by have : cfg2.N = 32 := N_2; omega⟩ (n % 8)
  | 0, hn => (step_first2 V c ⟨0, hn⟩ rfl).trans rfl
  | n + 1, hn => by
    have hN : n + 1 < 32 := lt_of_lt_of_eq hn N_2
    by_cases h0 : (n + 1) % 8 = 0
    · refine (step_first2 V c ⟨n + 1, hn⟩ h0).trans ?_
      have hq : ∀ (k : ℕ) (hk : k = 0) (q : Fin 4) (hk8 : k < 8), Cert.MS.tileAdd (Cert.MS.qBlk (V c main_v9) q) (Cert.MS.kBlk (V c main_v13) ⟨k, hk8⟩) (fun _ => 0)
          = Cert.MS.accAt (V c main_v9) (V c main_v13) q k := by
        intro k hk q hk8; subst hk; rfl
      exact hq _ h0 _ _
    · have ih := acc_eq2 n (Nat.lt_of_succ_lt hn)
      refine (step_later2 V c ⟨n + 1, hn⟩ h0).trans ?_
      have hstep : ∀ (q q' : Fin 4) (k k' : ℕ) (hk8 : k' < 8) (acc : Cert.MS.SAcc.Idx → EReal), q' = q → k' = k + 1 →
          acc = Cert.MS.accAt (V c main_v9) (V c main_v13) q k →
          Cert.MS.tileAdd (Cert.MS.qBlk (V c main_v9) q') (Cert.MS.kBlk (V c main_v13) ⟨k', hk8⟩) acc
            = Cert.MS.accAt (V c main_v9) (V c main_v13) q' k' := by
        intro q q' k k' hk8 acc hq hk hacc; subst hq; subst hk; subst hacc
        rw [Cert.MS.accAt, dif_pos hk8]
      exact hstep ⟨n / 8, by omega⟩ _ (n % 8) _ _ _ (Fin.ext (by show (n + 1) / 8 = n / 8; omega)) (by show (n + 1) % 8 = n % 8 + 1; omega) ih

/-- THE BLOCK WRITTEN at a last key tile is the iteration's value on the query tile. -/
theorem out_eq2 (ha : ∀ (r : Fin 32) (j : Fin 9216), (V c main_v13 : Cert.MS.SA.Idx → EReal) (ix2 (⟨r.val, by omega⟩ : Fin 40) j) = (V c main_v9 : Cert.MS.Mat) (ix2 r j))
    (h1 : ∀ j : Fin 9216, (V c main_v13 : Cert.MS.SA.Idx → EReal) (ix2 (⟨32, by omega⟩ : Fin 40) j) = Cert.MS.one)
    (t : Fin cfg2.N) (h7 : t.val % 8 = 7) :
    (outsAt2 V c t.val t.isLt).1 = Cert.MS.qBlk (Cert.MS.kerStep (V c main_v9)) ⟨t.val / 8, by have := t.isLt; have : cfg2.N = 32 := N_2; omega⟩ := by
  rw [step_out2 V c t h7, acc_eq2 V c t.val t.isLt]
  have h7' : ∀ (k : ℕ) (hk : k = 7) (q : Fin 4), Cert.MS.outBlk (Cert.MS.qBlk (V c main_v9) q) (Cert.MS.accAt (V c main_v9) (V c main_v13) q k)
      = Cert.MS.qBlk (Cert.MS.kerStep (V c main_v9)) q := by
    intro k hk q; subst hk
    funext y
    obtain ⟨r, j, rfl⟩ : ∃ (r : Fin 32) (j : Fin 2304), y = ix2 r j := ⟨y 0, y 1, eq_ix2 y⟩
    exact Cert.MS.outBlk_accAt (V c main_v9) (V c main_v13) ha h1 q r j
  exact h7' _ h7 _

/-- THE CALL'S RESULT: one iteration of its first operand. -/
theorem result2 (ha : ∀ (r : Fin 32) (j : Fin 9216), (V c main_v13 : Cert.MS.SA.Idx → EReal) (ix2 (⟨r.val, by omega⟩ : Fin 40) j) = (V c main_v9 : Cert.MS.Mat) (ix2 r j))
    (h1 : ∀ j : Fin 9216, (V c main_v13 : Cert.MS.SA.Idx → EReal) (ix2 (⟨32, by omega⟩ : Fin 40) j) = Cert.MS.one) :
    (dat2 V c).arrAt 2 cfg2.N = Cert.MS.kerStep (V c main_v9) :=
  arr2_of_flushed V c (Cert.MS.kerStep (V c main_v9)) (fun t h7 => out_eq2 V c ha h1 t h7)

end Cert.KernelIdeal.Accum

end
-- ==== Proof.HostK0.lean ====
/-
  The host operations around the three kernel calls, each stretch read as a function of the buffers it starts from.

  Before each call the current 32 × 9216 matrix is stacked, along the rows, on a row of ones and seven rows of
  zeros (a 40 × 9216 array); an entry in one of the first 32 rows of the stack is the matrix's entry, and every
  entry of row 32 is 1.  After the last call the three iterates, each recast as a 32 × 96 × 96 array under a new leading
  unit axis, are laid one after the other along that axis.
-/
import proofs.«120442_j39496519254112_2_alg».proof.Proof.Gen.KernelIdeal.Regions
import Idealize.ShloMosaic.Lib.StableHlo.Run
import Idealize.ShloMosaic.Lib.ValueIdx
import Idealize.ShloMosaic.Lib.Pipeline.Value

noncomputable section

namespace Cert.MS.HostK

open Cert.KernelIdeal Cert.KernelIdeal.Gen Idealize.ShloMosaic Idealize.ShloMosaic.ValueIdx Idealize.ShloMosaic.TcCoe

/-- What each operation of a line leaves in one buffer: its value in the buffer it writes, and in any other
    buffer what was there. -/
macro "results_loop" : tactic =>
  `(tactic| (repeat (first
               | rw [StableHlo.nullary_result] | rw [StableHlo.unary_result] | rw [StableHlo.reshape_result] | rw [StableHlo.nary_result]
               | (rw [StableHlo.nullary_result_ne]; rotate_left; decide)
               | (rw [StableHlo.unary_result_ne]; rotate_left; decide)
               | (rw [StableHlo.reshape_result_ne]; rotate_left; decide)
               | (rw [StableHlo.nary_result_ne]; rotate_left; decide))))

/-! ## The pieces of the stacks -/

/-- The row of ones. -/
abbrev onesRow : S1x9216.Idx → EReal :=
  broadcastInDim S1x9216 ![] bcast_S_S1x9216 (constant (F := Ideal) S_ .f32 0x3F800000#32)
/-- The seven rows of zeros. -/
abbrev zeroRows : S7x9216.Idx → EReal :=
  broadcastInDim S7x9216 ![] bcast_S_S7x9216 (constant (F := Ideal) S_ .f32 0x00000000#32)
/-- A 32 × 9216 matrix as one slab of the output: recast as 32 × 96 × 96 under a new leading unit axis. -/
abbrev slab (x : S32x9216.Idx → EReal) : S1x32x96x96.Idx → EReal :=
  broadcastInDim S1x32x96x96 (![1, 2, 3] : Fin 3 → Fin S1x32x96x96.rank) bcast_S32x96x96_S1x32x96x96_1_2_3
    (shapeCast S32x96x96 x shapeCasts_S32x9216_S32x96x96)
/-- A 32 × 96 × 96 array under a new leading unit axis. -/
abbrev lead (y : S32x96x96.Idx → EReal) : S1x32x96x96.Idx → EReal :=
  broadcastInDim S1x32x96x96 (![1, 2, 3] : Fin 3 → Fin S1x32x96x96.rank) bcast_S32x96x96_S1x32x96x96_1_2_3 y

/-- Every entry of the row of ones is 1 (as its binary pattern). -/
theorem onesRow_apply (i : S1x9216.Idx) : onesRow i = Ideal.ofBits .f32 0x3F800000#32 := rfl

/-! ## The 40-row stack read at an index -/

section Stack
variable {α : Type} (x0 : S32x9216.Idx → α) (x1 : S1x9216.Idx → α) (x2 : S7x9216.Idx → α)
  (h : Shape.Concatenates [S32x9216, S1x9216, S7x9216] S40x9216 0)

/-- In one of its first 32 rows the stack is the matrix on top. -/
theorem stack_lt (r : Fin 32) (j : Fin 9216) :
    concatenate S40x9216 0 [⟨S32x9216, x0⟩, ⟨S1x9216, x1⟩, ⟨S7x9216, x2⟩] h (ix2 (⟨r.val, by omega⟩ : Fin 40) j) = x0 (ix2 r j) := by
  refine concatenate_apply_piece (t := S40x9216) (0 : Fin 2) [⟨S32x9216, x0⟩, ⟨S1x9216, x1⟩, ⟨S7x9216, x2⟩] h
    (ix2 (⟨r.val, by omega⟩ : Fin 40) j) 0 (by show (0 : Nat) < 3; omega) S32x9216 x0 rfl rfl 0 rfl (ix2 r j) ?_ ?_
  · intro b hb
    match b with
    | ⟨0, _⟩ => exact absurd rfl hb
    | ⟨1, _⟩ => rfl
  · show 0 + r.val = r.val
    omega

/-- Row 32 of the stack is the single row under the matrix. -/
theorem stack_32 (j : Fin 9216) :
    concatenate S40x9216 0 [⟨S32x9216, x0⟩, ⟨S1x9216, x1⟩, ⟨S7x9216, x2⟩] h (ix2 (⟨32, by omega⟩ : Fin 40) j)
      = x1 (ix2 (⟨0, by omega⟩ : Fin 1) j) := by
  refine concatenate_apply_piece (t := S40x9216) (0 : Fin 2) [⟨S32x9216, x0⟩, ⟨S1x9216, x1⟩, ⟨S7x9216, x2⟩] h
    (ix2 (⟨32, by omega⟩ : Fin 40) j) 1 (by show (1 : Nat) < 3; omega) S1x9216 x1 rfl rfl 32 rfl (ix2 (⟨0, by omega⟩ : Fin 1) j) ?_ ?_
  · intro b hb
    match b with
    | ⟨0, _⟩ => exact absurd rfl hb
    | ⟨1, _⟩ => rfl
  · rfl

end Stack

/-! ## Each stretch, from any starting buffers -/

section Stretches
variable (X : Valuation τ sig (Elt Ideal))

/-- Before the first call: the argument recast as a matrix. -/
theorem host0_v0 : (StableHlo.after hostOps0 X (Proc.devRef .tc main_v0) : S32x9216.Idx → EReal)
    = shapeCast S32x9216 (X (Proc.devRef .tc main_arg0) : S1x32x96x96.Idx → EReal) shapeCasts_S1x32x96x96_S32x9216 := by
  after_results
  all_goals rfl

/-- Before the first call: the stack over that matrix. -/
theorem host0_v3 : (StableHlo.after hostOps0 X (Proc.devRef .tc main_v3) : S40x9216.Idx → EReal)
    = concatenate S40x9216 0 [⟨S32x9216, (StableHlo.after hostOps0 X (Proc.devRef .tc main_v0) : S32x9216.Idx → EReal)⟩,
        ⟨S1x9216, onesRow⟩, ⟨S7x9216, zeroRows⟩] concatenates_S32x9216_S1x9216_S7x9216_S40x9216_d0 := by
  after_results
  beta_reduce
  simp only [Matrix.cons_val_zero, Matrix.cons_val_one, Matrix.cons_val]
  results_loop
  all_goals rfl

/-- Between the first and second calls: the first result recast as 32 × 96 × 96. -/
theorem host1_v5 : (StableHlo.after hostOps1 X (Proc.devRef .tc main_v5) : S32x96x96.Idx → EReal)
    = shapeCast S32x96x96 (X (Proc.devRef .tc main_v4) : S32x9216.Idx → EReal) shapeCasts_S32x9216_S32x96x96 := by
  after_results
  all_goals rfl

/-- Between the first and second calls: the stack over the first result. -/
theorem host1_v8 : (StableHlo.after hostOps1 X (Proc.devRef .tc main_v8) : S40x9216.Idx → EReal)
    = concatenate S40x9216 0 [⟨S32x9216, (X (Proc.devRef .tc main_v4) : S32x9216.Idx → EReal)⟩,
        ⟨S1x9216, onesRow⟩, ⟨S7x9216, zeroRows⟩] concatenates_S32x9216_S1x9216_S7x9216_S40x9216_d0 := by
  after_results
  beta_reduce
  simp only [Matrix.cons_val_zero, Matrix.cons_val_one, Matrix.cons_val]
  results_loop
  all_goals rfl

/-- Between the second and third calls: the second result recast as 32 × 96 × 96. -/
theorem host2_v10 : (StableHlo.after hostOps2 X (Proc.devRef .tc main_v10) : S32x96x96.Idx → EReal)
    = shapeCast S32x96x96 (X (Proc.devRef .tc main_v9) : S32x9216.Idx → EReal) shapeCasts_S32x9216_S32x96x96 := by
  after_results
  all_goals rfl

/-- Between the second and third calls: the stack over the second result. -/
theorem host2_v13 : (StableHlo.after hostOps2 X (Proc.devRef .tc main_v13) : S40x9216.Idx → EReal)
    = concatenate S40x9216 0 [⟨S32x9216, (X (Proc.devRef .tc main_v9) : S32x9216.Idx → EReal)⟩,
        ⟨S1x9216, onesRow⟩, ⟨S7x9216, zeroRows⟩] concatenates_S32x9216_S1x9216_S7x9216_S40x9216_d0 := by
  after_results
  beta_reduce
  simp only [Matrix.cons_val_zero, Matrix.cons_val_one, Matrix.cons_val]
  results_loop
  all_goals rfl

/-- After the third call: the third result recast as 32 × 96 × 96. -/
theorem host3_v16 : (StableHlo.after hostOps3 X (Proc.devRef .tc main_v16) : S32x96x96.Idx → EReal)
    = shapeCast S32x96x96 (X (Proc.devRef .tc main_v14) : S32x9216.Idx → EReal) shapeCasts_S32x9216_S32x96x96 := by
  after_results
  all_goals rfl

/-- After the third call: the three slabs laid along the leading axis — the first two as they were recast between
    the calls, the third the recast third result. -/
theorem host3_v20 : (StableHlo.after hostOps3 X (Proc.devRef .tc main_v20) : S3x32x96x96.Idx → EReal)
    = concatenate S3x32x96x96 0 [⟨S1x32x96x96, lead (X (Proc.devRef .tc main_v5) : S32x96x96.Idx → EReal)⟩,
        ⟨S1x32x96x96, lead (X (Proc.devRef .tc main_v10) : S32x96x96.Idx → EReal)⟩,
        ⟨S1x32x96x96, slab (X (Proc.devRef .tc main_v14) : S32x9216.Idx → EReal)⟩]
        concatenates_S1x32x96x96_S1x32x96x96_S1x32x96x96_S3x32x96x96_d0 := by
  after_results
  beta_reduce
  simp only [Matrix.cons_val_zero, Matrix.cons_val_one, Matrix.cons_val]
  results_loop
  all_goals rfl

end Stretches

end Cert.MS.HostK

end
-- ==== Proof.HostK.lean ====
/-
  The buffers between the program's items, read where the three kernel calls and the final result need them.

  Before the first call the matrix is the argument recast, and the array the call reads is that matrix stacked on a
  row of ones (and rows of zeros below); before the second and third calls the stack is over what the previous call left.
  At the end the result array is the three calls' results, each recast as 32 × 96 × 96 under a leading unit axis, one
  after the other.
-/
import proofs.«120442_j39496519254112_2_alg».proof.Proof.HostK0
import proofs.«120442_j39496519254112_2_alg».proof.Proof.Spec

noncomputable section

namespace Cert.MS.HostK

open Cert.KernelIdeal Cert.KernelIdeal.Gen Idealize.ShloMosaic Idealize.ShloMosaic.ValueIdx Idealize.ShloMosaic.TcCoe

variable (m : (ℓ : Loc nD τ sig) → Buf (Elt Ideal) ℓ) (outs : Outs (F := Ideal)) (c : Dev nD)

/-! ## Before the first call -/

/-- The matrix the first call starts from is the argument, recast. -/
theorem V1_v0 : (V1 m c main_v0 : S32x9216.Idx → EReal)
    = shapeCast S32x9216 (m ((c : Thread nD τ).loc main_arg0) : S1x32x96x96.Idx → EReal) shapeCasts_S1x32x96x96_S32x9216 :=
  host0_v0 (V0 m c)

/-- The first 32 rows of the first call's stacked operand are that matrix. -/
theorem V1_v3_lt (r : Fin 32) (j : Fin 9216) :
    (V1 m c main_v3 : S40x9216.Idx → EReal) (ix2 (⟨r.val, by omega⟩ : Fin 40) j)
      = (V1 m c main_v0 : S32x9216.Idx → EReal) (ix2 r j) :=
  (congrFun (host0_v3 (V0 m c)) _).trans (stack_lt _ _ _ _ r j)

/-- Row 32 of the first call's stacked operand is all ones. -/
theorem V1_v3_32 (j : Fin 9216) :
    (V1 m c main_v3 : S40x9216.Idx → EReal) (ix2 (⟨32, by omega⟩ : Fin 40) j) = Cert.MS.one :=
  (congrFun (host0_v3 (V0 m c)) _).trans ((stack_32 _ _ _ _ j).trans (onesRow_apply _))

/-! ## Between the first and second calls -/

/-- Right after the first call its result array holds what the call left. -/
theorem V2_v4 : (V2 m outs c main_v4 : S32x9216.Idx → EReal) = (outs 2 main_v4 c : S32x9216.Idx → EReal) :=
  Function.update_self _ _ _

/-- The host operations that follow leave the first call's result alone. -/
theorem V3_v4 : (V3 m outs c main_v4 : S32x9216.Idx → EReal) = (outs 2 main_v4 c : S32x9216.Idx → EReal) :=
  (V3_of m outs c main_v4 (by decide)).trans (V2_v4 m outs c)

/-- The first result recast as 32 × 96 × 96. -/
theorem V3_v5 : (V3 m outs c main_v5 : S32x96x96.Idx → EReal)
    = shapeCast S32x96x96 (outs 2 main_v4 c : S32x9216.Idx → EReal) shapeCasts_S32x9216_S32x96x96 :=
  (host1_v5 (V2 m outs c)).trans
    (congrArg (fun x : S32x9216.Idx → EReal => shapeCast S32x96x96 x shapeCasts_S32x9216_S32x96x96) (V2_v4 m outs c))

/-- The first 32 rows of the second call's stacked operand are the first call's result. -/
theorem V3_v8_lt (r : Fin 32) (j : Fin 9216) :
    (V3 m outs c main_v8 : S40x9216.Idx → EReal) (ix2 (⟨r.val, by omega⟩ : Fin 40) j)
      = (outs 2 main_v4 c : S32x9216.Idx → EReal) (ix2 r j) :=
  (congrFun (host1_v8 (V2 m outs c)) _).trans ((stack_lt _ _ _ _ r j).trans (congrFun (V2_v4 m outs c) _))

/-- Row 32 of the second call's stacked operand is all ones. -/
theorem V3_v8_32 (j : Fin 9216) :
    (V3 m outs c main_v8 : S40x9216.Idx → EReal) (ix2 (⟨32, by omega⟩ : Fin 40) j) = Cert.MS.one :=
  (congrFun (host1_v8 (V2 m outs c)) _).trans ((stack_32 _ _ _ _ j).trans (onesRow_apply _))

/-! ## Between the second and third calls -/

/-- Right after the second call its result array holds what the call left. -/
theorem V4_v9 : (V4 m outs c main_v9 : S32x9216.Idx → EReal) = (outs 4 main_v9 c : S32x9216.Idx → EReal) :=
  Function.update_self _ _ _

/-- The host operations that follow leave the second call's result alone. -/
theorem V5_v9 : (V5 m outs c main_v9 : S32x9216.Idx → EReal) = (outs 4 main_v9 c : S32x9216.Idx → EReal) :=
  (V5_of m outs c main_v9 (by decide)).trans (V4_v9 m outs c)

/-- The second result recast as 32 × 96 × 96. -/
theorem V5_v10 : (V5 m outs c main_v10 : S32x96x96.Idx → EReal)
    = shapeCast S32x96x96 (outs 4 main_v9 c : S32x9216.Idx → EReal) shapeCasts_S32x9216_S32x96x96 :=
  (host2_v10 (V4 m outs c)).trans
    (congrArg (fun x : S32x9216.Idx → EReal => shapeCast S32x96x96 x shapeCasts_S32x9216_S32x96x96) (V4_v9 m outs c))

/-- The first 32 rows of the third call's stacked operand are the second call's result. -/
theorem V5_v13_lt (r : Fin 32) (j : Fin 9216) :
    (V5 m outs c main_v13 : S40x9216.Idx → EReal) (ix2 (⟨r.val, by omega⟩ : Fin 40) j)
      = (outs 4 main_v9 c : S32x9216.Idx → EReal) (ix2 r j) :=
  (congrFun (host2_v13 (V4 m outs c)) _).trans ((stack_lt _ _ _ _ r j).trans (congrFun (V4_v9 m outs c) _))

/-- Row 32 of the third call's stacked operand is all ones. -/
theorem V5_v13_32 (j : Fin 9216) :
    (V5 m outs c main_v13 : S40x9216.Idx → EReal) (ix2 (⟨32, by omega⟩ : Fin 40) j) = Cert.MS.one :=
  (congrFun (host2_v13 (V4 m outs c)) _).trans ((stack_32 _ _ _ _ j).trans (onesRow_apply _))

/-! ## After the third call -/

/-- Right after the third call its result array holds what the call left. -/
theorem V6_v14 : (V6 m outs c main_v14 : S32x9216.Idx → EReal) = (outs 6 main_v14 c : S32x9216.Idx → EReal) :=
  Function.update_self _ _ _

/-- The recast first result is still there after the third call. -/
theorem V6_v5 : (V6 m outs c main_v5 : S32x96x96.Idx → EReal)
    = shapeCast S32x96x96 (outs 2 main_v4 c : S32x9216.Idx → EReal) shapeCasts_S32x9216_S32x96x96 :=
  (V6_of m outs c main_v5 (by decide)).trans <| (V5_of m outs c main_v5 (by decide)).trans <|
    (V4_of m outs c main_v5 (by decide)).trans (V3_v5 m outs c)

/-- The recast second result is still there after the third call. -/
theorem V6_v10 : (V6 m outs c main_v10 : S32x96x96.Idx → EReal)
    = shapeCast S32x96x96 (outs 4 main_v9 c : S32x9216.Idx → EReal) shapeCasts_S32x9216_S32x96x96 :=
  (V6_of m outs c main_v10 (by decide)).trans (V5_v10 m outs c)

/-- The third result recast as 32 × 96 × 96. -/
theorem V7_v16 : (V7 m outs c main_v16 : S32x96x96.Idx → EReal)
    = shapeCast S32x96x96 (outs 6 main_v14 c : S32x9216.Idx → EReal) shapeCasts_S32x9216_S32x96x96 :=
  (host3_v16 (V6 m outs c)).trans
    (congrArg (fun x : S32x9216.Idx → EReal => shapeCast S32x96x96 x shapeCasts_S32x9216_S32x96x96) (V6_v14 m outs c))

/-- The result array: the three calls' results, each recast as 32 × 96 × 96 under a leading unit axis, laid one after
    the other along that axis. -/
theorem V7_v20 : (V7 m outs c main_v20 : S3x32x96x96.Idx → EReal)
    = concatenate S3x32x96x96 0
        [⟨S1x32x96x96, broadcastInDim S1x32x96x96 (![1, 2, 3] : Fin 3 → Fin S1x32x96x96.rank) bcast_S32x96x96_S1x32x96x96_1_2_3
            (shapeCast S32x96x96 (outs 2 main_v4 c : S32x9216.Idx → EReal) shapeCasts_S32x9216_S32x96x96)⟩,
         ⟨S1x32x96x96, broadcastInDim S1x32x96x96 (![1, 2, 3] : Fin 3 → Fin S1x32x96x96.rank) bcast_S32x96x96_S1x32x96x96_1_2_3
            (shapeCast S32x96x96 (outs 4 main_v9 c : S32x9216.Idx → EReal) shapeCasts_S32x9216_S32x96x96)⟩,
         ⟨S1x32x96x96, broadcastInDim S1x32x96x96 (![1, 2, 3] : Fin 3 → Fin S1x32x96x96.rank) bcast_S32x96x96_S1x32x96x96_1_2_3
            (shapeCast S32x96x96 (outs 6 main_v14 c : S32x9216.Idx → EReal) shapeCasts_S32x9216_S32x96x96)⟩]
        concatenates_S1x32x96x96_S1x32x96x96_S1x32x96x96_S3x32x96x96_d0 := by
  refine (host3_v20 (V6 m outs c)).trans ?_
  rw [V6_v5 m outs c, V6_v10 m outs c, V6_v14 m outs c]

end Cert.MS.HostK

end
-- ==== Proof.KI.Value.lean ====
/-
  The idealized kernel program's results as functions of its argument: each kernel call's result array is one
  mean-shift iteration of the call before it (of the argument recast as a 32 × 9216 matrix for the first call), because
  each call's second operand is its first with a row of ones under it; the program's two results are the third iterate
  recast as 32 × 96 × 96, and the three iterates stacked.
-/
import proofs.«120442_j39496519254112_2_alg».proof.Proof.KI.Main
import proofs.«120442_j39496519254112_2_alg».proof.Proof.KI.Accum0
import proofs.«120442_j39496519254112_2_alg».proof.Proof.KI.Accum1
import proofs.«120442_j39496519254112_2_alg».proof.Proof.KI.Accum2
import proofs.«120442_j39496519254112_2_alg».proof.Proof.HostK

set_option maxRecDepth 16384

noncomputable section

namespace Cert.KernelIdeal.KValue

open Cert.KernelIdeal Cert.KernelIdeal.Gen Cert.KernelIdeal.Body Cert.KernelIdeal.Accum
open Idealize.ShloMosaic Idealize.ShloMosaic.TcCoe Idealize.ShloMosaic.ValueIdx
open Idealize.SL.Sem Cert.MS.HostK

variable (m : (ℓ : Loc nD τ sig) → Buf (Elt Ideal) ℓ) (c : Dev nD)

/-- What the calls leave, as the family the boundary valuations are written over. -/
def myOuts : Outs (F := Ideal) := fun n r c => match n with
  | 2 => Wa0 m c r
  | 4 => Wa1 m c r
  | _ => Wa2 m c r

theorem V2_eq : V2 m (myOuts m) c = Wa0 m c := by
  show Function.update (Va0 m c) (Proc.devRef .tc main_v4 : DevRef τ sig) (Function.update (Va0 m c) (Proc.devRef .tc main_v4 : DevRef τ sig) (o2 m c) (Proc.devRef .tc main_v4 : DevRef τ sig))
    = Function.update (Va0 m c) (Proc.devRef .tc main_v4 : DevRef τ sig) (o2 m c)
  rw [Function.update_self]
theorem V3_eq : V3 m (myOuts m) c = Va1 m c := by
  show StableHlo.after hostOps1 (V2 m (myOuts m) c) = StableHlo.after hostOps1 (Wa0 m c)
  rw [V2_eq]
theorem V4_eq : V4 m (myOuts m) c = Wa1 m c := by
  show Function.update (V3 m (myOuts m) c) (Proc.devRef .tc main_v9 : DevRef τ sig) (Function.update (Va1 m c) (Proc.devRef .tc main_v9 : DevRef τ sig) (o4 m c) (Proc.devRef .tc main_v9 : DevRef τ sig))
    = Function.update (Va1 m c) (Proc.devRef .tc main_v9 : DevRef τ sig) (o4 m c)
  rw [Function.update_self, V3_eq]
theorem V5_eq : V5 m (myOuts m) c = Va2 m c := by
  show StableHlo.after hostOps2 (V4 m (myOuts m) c) = StableHlo.after hostOps2 (Wa1 m c)
  rw [V4_eq]
theorem V6_eq : V6 m (myOuts m) c = Wa2 m c := by
  show Function.update (V5 m (myOuts m) c) (Proc.devRef .tc main_v14 : DevRef τ sig) (Function.update (Va2 m c) (Proc.devRef .tc main_v14 : DevRef τ sig) (o6 m c) (Proc.devRef .tc main_v14 : DevRef τ sig))
    = Function.update (Va2 m c) (Proc.devRef .tc main_v14 : DevRef τ sig) (o6 m c)
  rw [Function.update_self, V5_eq]
theorem V7_eq : V7 m (myOuts m) c = Vfin m c := by
  show StableHlo.after hostOps3 (V6 m (myOuts m) c) = StableHlo.after hostOps3 (Wa2 m c)
  rw [V6_eq]

theorem outs2 : (myOuts m 2 main_v4 c : S32x9216.Idx → EReal) = (o2 m c : S32x9216.Idx → EReal) :=
by
  show Function.update (Va0 m c) (Proc.devRef .tc main_v4 : DevRef τ sig) (o2 m c) (Proc.devRef .tc main_v4 : DevRef τ sig) = o2 m c
  rw [Function.update_self]
theorem outs4 : (myOuts m 4 main_v9 c : S32x9216.Idx → EReal) = (o4 m c : S32x9216.Idx → EReal) :=
by
  show Function.update (Va1 m c) (Proc.devRef .tc main_v9 : DevRef τ sig) (o4 m c) (Proc.devRef .tc main_v9 : DevRef τ sig) = o4 m c
  rw [Function.update_self]
theorem outs6 : (myOuts m 6 main_v14 c : S32x9216.Idx → EReal) = (o6 m c : S32x9216.Idx → EReal) :=
by
  show Function.update (Va2 m c) (Proc.devRef .tc main_v14 : DevRef τ sig) (o6 m c) (Proc.devRef .tc main_v14 : DevRef τ sig) = o6 m c
  rw [Function.update_self]

/-- The argument recast as a matrix: the first call's first operand. -/
abbrev X0 : Cert.MS.Mat := shapeCast S32x9216 (m ((c : Thread nD τ).loc main_arg0) : S1x32x96x96.Idx → EReal) shapeCasts_S1x32x96x96_S32x9216

/-- The first call's result is one iteration of the recast argument. -/
theorem o2_eq : (o2 m c : Cert.MS.Mat) = Cert.MS.kerStep (X0 m c) := by
  have h := result0 (En0 m) c (fun r j => V1_v3_lt m c r j) (fun j => V1_v3_32 m c j)
  rw [show (En0 m c main_v0 : Cert.MS.Mat) = X0 m c from V1_v0 m c] at h
  exact h

/-- The second call's result is one iteration of the first's. -/
theorem o4_eq : (o4 m c : Cert.MS.Mat) = Cert.MS.kerStep (o2 m c) := by
  have e4 : (En1 m c main_v4 : Cert.MS.Mat) = (o2 m c : Cert.MS.Mat) := by
    have := V3_v4 m (myOuts m) c; rw [V3_eq] at this; exact this.trans (outs2 m c)
  have h := result1 (En1 m) c
    (fun r j => by have := V3_v8_lt m (myOuts m) c r j; rw [V3_eq] at this; exact this.trans ((congrFun (outs2 m c) _).trans (congrFun e4.symm _)))
    (fun j => by have := V3_v8_32 m (myOuts m) c j; rw [V3_eq] at this; exact this)
  rw [e4] at h
  exact h

/-- The third call's result is one iteration of the second's. -/
theorem o6_eq : (o6 m c : Cert.MS.Mat) = Cert.MS.kerStep (o4 m c) := by
  have e9 : (En2 m c main_v9 : Cert.MS.Mat) = (o4 m c : Cert.MS.Mat) := by
    have := V5_v9 m (myOuts m) c; rw [V5_eq] at this; exact this.trans (outs4 m c)
  have h := result2 (En2 m) c
    (fun r j => by have := V5_v13_lt m (myOuts m) c r j; rw [V5_eq] at this; exact this.trans ((congrFun (outs4 m c) _).trans (congrFun e9.symm _)))
    (fun j => by have := V5_v13_32 m (myOuts m) c j; rw [V5_eq] at this; exact this)
  rw [e9] at h
  exact h

/-- The first result of the program: the third iterate recast. -/
theorem fin_v16 : (Vfin m c main_v16 : S32x96x96.Idx → EReal) = shapeCast S32x96x96 (o6 m c : S32x9216.Idx → EReal) shapeCasts_S32x9216_S32x96x96 := by
  have := V7_v16 m (myOuts m) c; rw [V7_eq, outs6] at this; exact this

/-- The second result of the program: the three iterates, each recast under a leading unit axis, stacked. -/
theorem fin_v20 : (Vfin m c main_v20 : S3x32x96x96.Idx → EReal) = concatenate S3x32x96x96 0
    [⟨S1x32x96x96, slab (o2 m c : S32x9216.Idx → EReal)⟩, ⟨S1x32x96x96, slab (o4 m c : S32x9216.Idx → EReal)⟩, ⟨S1x32x96x96, slab (o6 m c : S32x9216.Idx → EReal)⟩]
    concatenates_S1x32x96x96_S1x32x96x96_S1x32x96x96_S3x32x96x96_d0 := by
  have := V7_v20 m (myOuts m) c; rw [V7_eq, outs2, outs4, outs6] at this; exact this

end Cert.KernelIdeal.KValue

end
-- ==== Proof.RefValue.lean ====
/-
  The reference program's three mean-shift iterations, read entry by entry.

  On a matrix y of 32 features by 9216 pixels the program forms, in this order,
    the inner products        S(i,j) = Σ_c y(c,i)·y(c,j)            (the transposed matrix times the matrix),
    the affinities            K(i,j) = exp(3 · S(i,j)),
    their column sums         d(j)   = 0 + Σ_i K(i,j),
    the weighted sums         N(c,j) = Σ_i y(c,i)·K(i,j)            (the matrix times K),
    and the next iterate      (½ · N(c,j)) / d(j) + ½ · y(c,j),      d spread over the 32 rows.
  `step` is that composition as one function of y. Each stage is read at an entry (`…_at`), which identifies the
  stages with the specification's `aff`, `den`, `num` and `refAt`, so `step y = refStep y` as matrices. The three
  iterates of the program are `step` of the reshaped argument, of the first iterate and of the second; the two results
  are the last iterate as a 32 × 96 × 96 array and the three iterates joined along a new leading axis.
  The literals 3, ½ and 0 stay as their binary patterns; only the zero pattern is evaluated (to 0).
-/
import proofs.«120442_j39496519254112_2_alg».proof.Proof.Gen.ReferenceIdeal.Read
import proofs.«120442_j39496519254112_2_alg».proof.Proof.Spec

noncomputable section

open scoped BigOperators

namespace Cert.MS.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- A matrix of 32 features by 9216 pixels, as the program's stages hold it. -/
abbrev M32 : Type := FVec Ideal S32x9216 .f32
/-- A pixel-by-pixel square matrix. -/
abbrev MSq : Type := FVec Ideal S9216x9216 .f32

/-- The inner products of the pixels' feature columns: yᵀ·y. -/
def gram (y : M32) : MSq :=
  Host.dotGeneral dot_S9216x32_S32x9216_S9216x9216_1_0_0_1_n_n none (transpose S9216x32 [1, 0] y transposes_S32x9216_S9216x32_1_0) y
/-- The affinities: exp(3 · yᵀ·y). -/
def affn (y : M32) : MSq :=
  Host.exp (mulf (broadcastInDim S9216x9216 ![] bcast_S_S9216x9216 (constant S_ .f32 0x40400000#32)) (gram y))
/-- The column sums of the affinities, from 0. -/
def colsum (y : M32) : FVec Ideal S9216 .f32 :=
  Host.reduceAdd (affn y) (constant S_ .f32 0x00000000#32) reducesTo_S9216x9216_S9216_d0 h_S_
/-- The weighted sums: y · K. -/
def wsum (y : M32) : M32 :=
  Host.dotGeneral dot_S32x9216_S9216x9216_S32x9216_1_0_0_1_n_n none y (affn y)
/-- One iteration as the program computes it: (½ · (y·K)) / d + ½ · y, the column sums d spread over the rows. -/
def step (y : M32) : M32 :=
  addf (Host.divf (mulf (broadcastInDim S32x9216 ![] bcast_S_S32x9216 (constant S_ .f32 0x3F000000#32)) (wsum y))
      (broadcastInDim S32x9216 ![0, 1] bcast_S1x9216_S32x9216_0_1 (broadcastInDim S1x9216 ![1] bcast_S9216_S1x9216_1 (colsum y))))
    (mulf (broadcastInDim S32x9216 ![] bcast_S_S32x9216 (constant S_ .f32 0x3F000000#32)) y)

/-! ## Each stage read at an entry -/

/-- The transposed matrix at (pixel, feature) is the matrix at (feature, pixel). -/
theorem transpose_at (y : M32) (k : Fin 9216) (c : Fin 32) :
    transpose S9216x32 [1, 0] y transposes_S32x9216_S9216x32_1_0 (ix2 k c) = y (ix2 c k) :=
  transpose_apply [1, 0] y transposes_S32x9216_S9216x32_1_0 (ix2 k c) (ix2 c k) (fun b => match b with
    | ⟨0, _⟩ => rfl
    | ⟨1, _⟩ => rfl)

/-- A scalar spread over a shape is that scalar at every entry. -/
theorem splat_sq_at (w : BitVec 32) (p : S9216x9216.Idx) :
    broadcastInDim S9216x9216 ![] bcast_S_S9216x9216 (constant (F := Ideal) S_ .f32 w) p = Ideal.ofBits .f32 w :=
  broadcastInDim_apply _ bcast_S_S9216x9216 (constant (F := Ideal) S_ .f32 w) p (fun a => a.elim0) (fun a => a.elim0)

theorem splat_at (w : BitVec 32) (p : S32x9216.Idx) :
    broadcastInDim S32x9216 ![] bcast_S_S32x9216 (constant (F := Ideal) S_ .f32 w) p = Ideal.ofBits .f32 w :=
  broadcastInDim_apply _ bcast_S_S32x9216 (constant (F := Ideal) S_ .f32 w) p (fun a => a.elim0) (fun a => a.elim0)

/-- A vector over the pixels, spread over the rows, at (c, j) is the vector at j. -/
theorem spread_at (d : FVec Ideal S9216 .f32) (c : Fin 32) (j : Fin 9216) :
    broadcastInDim S32x9216 ![0, 1] bcast_S1x9216_S32x9216_0_1 (broadcastInDim S1x9216 ![1] bcast_S9216_S1x9216_1 d) (ix2 c j) = d (ix1 j) :=
  (broadcastInDim_apply _ bcast_S1x9216_S32x9216_0_1 (broadcastInDim S1x9216 ![1] bcast_S9216_S1x9216_1 d) (ix2 c j) (ix2 (0 : Fin 1) j) (fun a => match a with
    | ⟨0, _⟩ => by show 0 = if (1 : Nat) = 1 then 0 else c.val; rw [if_pos rfl]
    | ⟨1, _⟩ => by show j.val = if (9216 : Nat) = 1 then 0 else j.val; rw [if_neg (by decide)])).trans
  (broadcastInDim_apply _ bcast_S9216_S1x9216_1 d (ix2 (0 : Fin 1) j) (ix1 j) (fun a => match a with
    | ⟨0, _⟩ => by show j.val = if (9216 : Nat) = 1 then 0 else j.val; rw [if_neg (by decide)]))

/-- The product of a pixels-by-features matrix with a features-by-pixels one, at (i, j): the sum over the 32 features. -/
theorem dotFeat_at (l : FVec Ideal S9216x32 .f32) (r : M32) (i j : Fin 9216) :
    Host.dotGeneral dot_S9216x32_S32x9216_S9216x9216_1_0_0_1_n_n none l r (ix2 i j) = ∑ k : Fin 32, l (ix2 i k) * r (ix2 k j) := by
  simp only [Host.dotGeneral]
  rw [Ideal.dotGeneral_apply, ← Equiv.sum_comp (ValueIdx.contrEquiv1 dot_S9216x32_S32x9216_S9216x9216_1_0_0_1_n_n 32 rfl rfl).symm]
  refine Finset.sum_congr rfl fun k _ => ?_
  have hk := ValueIdx.contrEquiv1_symm_val dot_S9216x32_S32x9216_S9216x9216_1_0_0_1_n_n 32 rfl rfl k
  have el : dot_S9216x32_S32x9216_S9216x9216_1_0_0_1_n_n.lhsIdx (ix2 i j) ((ValueIdx.contrEquiv1 dot_S9216x32_S32x9216_S9216x9216_1_0_0_1_n_n 32 rfl rfl).symm k) = ix2 i k := funext fun a => Fin.ext (by
    match a with
    | ⟨0, _⟩ => exact lhs_main_v2_0 _ _
    | ⟨1, _⟩ => exact (lhs_main_v2_1 _ _).trans hk)
  have er : dot_S9216x32_S32x9216_S9216x9216_1_0_0_1_n_n.rhsIdx (ix2 i j) ((ValueIdx.contrEquiv1 dot_S9216x32_S32x9216_S9216x9216_1_0_0_1_n_n 32 rfl rfl).symm k) = ix2 k j := funext fun a => Fin.ext (by
    match a with
    | ⟨0, _⟩ => exact (rhs_main_v2_0 _ _).trans hk
    | ⟨1, _⟩ => exact rhs_main_v2_1 _ _)
  rw [el, er]

/-- The product of a features-by-pixels matrix with a pixels-by-pixels one, at (c, j): the sum over the 9216 pixels. -/
theorem dotPix_at (l : M32) (r : MSq) (c : Fin 32) (j : Fin 9216) :
    Host.dotGeneral dot_S32x9216_S9216x9216_S32x9216_1_0_0_1_n_n none l r (ix2 c j) = ∑ k : Fin 9216, l (ix2 c k) * r (ix2 k j) := by
  simp only [Host.dotGeneral]
  rw [Ideal.dotGeneral_apply, ← Equiv.sum_comp (ValueIdx.contrEquiv1 dot_S32x9216_S9216x9216_S32x9216_1_0_0_1_n_n 9216 rfl rfl).symm]
  refine Finset.sum_congr rfl fun k _ => ?_
  have hk := ValueIdx.contrEquiv1_symm_val dot_S32x9216_S9216x9216_S32x9216_1_0_0_1_n_n 9216 rfl rfl k
  have el : dot_S32x9216_S9216x9216_S32x9216_1_0_0_1_n_n.lhsIdx (ix2 c j) ((ValueIdx.contrEquiv1 dot_S32x9216_S9216x9216_S32x9216_1_0_0_1_n_n 9216 rfl rfl).symm k) = ix2 c k := funext fun a => Fin.ext (by
    match a with
    | ⟨0, _⟩ => exact lhs_main_v7_0 _ _
    | ⟨1, _⟩ => exact (lhs_main_v7_1 _ _).trans hk)
  have er : dot_S32x9216_S9216x9216_S32x9216_1_0_0_1_n_n.rhsIdx (ix2 c j) ((ValueIdx.contrEquiv1 dot_S32x9216_S9216x9216_S32x9216_1_0_0_1_n_n 9216 rfl rfl).symm k) = ix2 k j := funext fun a => Fin.ext (by
    match a with
    | ⟨0, _⟩ => exact (rhs_main_v7_0 _ _).trans hk
    | ⟨1, _⟩ => exact rhs_main_v7_1 _ _)
  rw [el, er]

/-- The sum down the columns of a square matrix, started from the zero pattern, at j: the sum over the rows. -/
theorem colReduce_at (K : MSq) (j : Fin 9216) :
    Host.reduceAdd K (constant (F := Ideal) S_ .f32 0x00000000#32) reducesTo_S9216x9216_S9216_d0 h_S_ (ix1 j) = ∑ k : Fin 9216, K (ix2 k j) := by
  simp only [Host.reduceAdd, Ideal.hostReduceAdd_def]
  rw [Ideal.hostReduceAdd_single reducesTo_S9216x9216_S9216_d0 (by decide)]
  have h0 : (constant (F := Ideal) S_ .f32 0x00000000#32) (Shape.Idx.first h_S_) = (0 : EReal) := Ideal.ofBits_zero_f32
  rw [h0, zero_add]
  refine Finset.sum_congr rfl fun k _ => ?_
  exact congrArg K (funext fun a => Fin.ext (by match a with | ⟨0, _⟩ => rfl | ⟨1, _⟩ => rfl))

/-! ## The stages are the specification's -/

theorem gram_at (y : M32) (i j : Fin 9216) : gram y (ix2 i j) = ∑ c : Fin 32, y (ix2 c i) * y (ix2 c j) := by
  unfold gram
  rw [dotFeat_at]
  exact Finset.sum_congr rfl fun c _ => congrArg (· * y (ix2 c j)) (transpose_at y i c)

theorem affn_at (y : M32) (i j : Fin 9216) : affn y (ix2 i j) = Cert.MS.aff y i j := by
  show FloatOps.hostUnary .exp (FloatOps.mulf (broadcastInDim S9216x9216 ![] bcast_S_S9216x9216 (constant (F := Ideal) S_ .f32 0x40400000#32) (ix2 i j)) (gram y (ix2 i j))) = _
  rw [splat_sq_at, gram_at]
  rfl

theorem colsum_at (y : M32) (j : Fin 9216) : colsum y (ix1 j) = Cert.MS.den y j := by
  unfold colsum
  rw [colReduce_at]
  exact Finset.sum_congr rfl fun k _ => affn_at y k j

theorem wsum_at (y : M32) (c : Fin 32) (j : Fin 9216) : wsum y (ix2 c j) = Cert.MS.num y c j := by
  unfold wsum
  rw [dotPix_at]
  exact Finset.sum_congr rfl fun k _ => congrArg (y (ix2 c k) * ·) (affn_at y k j)

theorem step_at (y : M32) (c : Fin 32) (j : Fin 9216) : step y (ix2 c j) = Cert.MS.refAt y c j := by
  show FloatOps.addf (FloatOps.hostDivf (FloatOps.mulf (broadcastInDim S32x9216 ![] bcast_S_S32x9216 (constant (F := Ideal) S_ .f32 0x3F000000#32) (ix2 c j)) (wsum y (ix2 c j)))
      (broadcastInDim S32x9216 ![0, 1] bcast_S1x9216_S32x9216_0_1 (broadcastInDim S1x9216 ![1] bcast_S9216_S1x9216_1 (colsum y)) (ix2 c j)))
    (FloatOps.mulf (broadcastInDim S32x9216 ![] bcast_S_S32x9216 (constant (F := Ideal) S_ .f32 0x3F000000#32) (ix2 c j)) (y (ix2 c j))) = _
  rw [splat_at, wsum_at, spread_at, colsum_at]
  rfl

/-- One iteration of the program is the specification's iteration, as matrices. -/
theorem step_eq (y : M32) : (step y : Cert.MS.Mat) = Cert.MS.refStep y := by
  funext q
  obtain ⟨c, j, rfl⟩ : ∃ (c : Fin 32) (j : Fin 9216), q = ix2 c j := ⟨q 0, q 1, eq_ix2 q⟩
  exact step_at y c j

/-! ## The program's three iterations -/

variable (x0 : (⟨S1x32x96x96, .f32⟩ : BufTy).Contents (Elt Ideal))

/-- Each iterate is the program's one iteration applied to the previous one: the stages, unfolded, are the same term. -/
theorem v15_step : val_main_v15 (F := Ideal) x0 = step (val_main_v0 (F := Ideal) x0) := rfl
theorem v31_step : val_main_v31 (F := Ideal) x0 = step (val_main_v15 (F := Ideal) x0) := rfl
theorem v47_step : val_main_v47 (F := Ideal) x0 = step (val_main_v31 (F := Ideal) x0) := rfl

theorem v15_eq : (val_main_v15 (F := Ideal) x0 : Cert.MS.Mat) = Cert.MS.refStep (val_main_v0 (F := Ideal) x0) :=
  (v15_step x0).trans (step_eq _)
theorem v31_eq : (val_main_v31 (F := Ideal) x0 : Cert.MS.Mat) = Cert.MS.refStep (val_main_v15 (F := Ideal) x0) :=
  (v31_step x0).trans (step_eq _)
theorem v47_eq : (val_main_v47 (F := Ideal) x0 : Cert.MS.Mat) = Cert.MS.refStep (val_main_v31 (F := Ideal) x0) :=
  (v47_step x0).trans (step_eq _)

/-- The first result: the last iterate as a 32 × 96 × 96 array. -/
theorem v49_eq : val_main_v49 (F := Ideal) x0 = shapeCast S32x96x96 (val_main_v47 (F := Ideal) x0) shapeCasts_S32x9216_S32x96x96 := rfl

/-- The second result: the three iterates, each as a 1 × 32 × 96 × 96 array, joined along the leading axis. -/
theorem v53_eq : val_main_v53 (F := Ideal) x0 = concatenate S3x32x96x96 0
    [⟨S1x32x96x96, broadcastInDim S1x32x96x96 ![1, 2, 3] bcast_S32x96x96_S1x32x96x96_1_2_3 (shapeCast S32x96x96 (val_main_v15 (F := Ideal) x0) shapeCasts_S32x9216_S32x96x96)⟩,
     ⟨S1x32x96x96, broadcastInDim S1x32x96x96 ![1, 2, 3] bcast_S32x96x96_S1x32x96x96_1_2_3 (shapeCast S32x96x96 (val_main_v31 (F := Ideal) x0) shapeCasts_S32x9216_S32x96x96)⟩,
     ⟨S1x32x96x96, broadcastInDim S1x32x96x96 ![1, 2, 3] bcast_S32x96x96_S1x32x96x96_1_2_3 (shapeCast S32x96x96 (val_main_v47 (F := Ideal) x0) shapeCasts_S32x9216_S32x96x96)⟩]
    concatenates_S1x32x96x96_S1x32x96x96_S1x32x96x96_S3x32x96x96_d0 := rfl

end Cert.MS.Ref

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«120442_j39496519254112_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.Algebra.lean ====
/-
  The two ways of writing one mean-shift iteration agree on matrices of real numbers, and the iteration keeps a
  matrix of real numbers real.

  For a matrix x of real numbers the affinity K(i,j) = exp(3 · Σ_c x(c,i)·x(c,j)) is the exponential of a real number,
  hence a positive real number. So the weighted sums N(c,j) = Σ_i x(c,i)·K(i,j) are real numbers, and the column sum
  D(j) = Σ_i K(i,j), a sum of positive real numbers over a nonempty index set, is a positive real number; in
  particular it is not zero and not an infinity. The column sum taken through a row of ones is the same sum, since the
  pattern of the ones denotes 1. Dividing by a nonzero real number d is multiplying by the real number 1/d, and the
  product of extended reals is associative, so (½·N)/d = ½·(N/d). The quotient of a real number by a nonzero real number
  is a real number, and so are ½ times a real number and the sum of two real numbers.
-/
import proofs.«120442_j39496519254112_2_alg».proof.Proof.Spec
import proofs.«120442_j39496519254112_2_alg».proof.Proof.LibReal
import proofs.«120442_j39496519254112_2_alg».proof.Proof.LibRealOps

noncomputable section

open scoped BigOperators

namespace Cert.MS

open Idealize.ShloMosaic Idealize.ShloMosaic.ValueIdx Cert.LibReal Cert.LibRealOps

/-! ### The three literals -/

/-- The pattern 0x40400000 denotes 3. -/
theorem three_eq : three = ((3 : ℝ) : EReal) := by
  unfold three; simp [Ideal.ofBits, Ideal.ieee, -EReal.coe_mul]; norm_num

/-- The pattern 0x3F000000 denotes ½. -/
theorem half_eq : half = ((1 / 2 : ℝ) : EReal) := by
  unfold half; simp [Ideal.ofBits, Ideal.ieee, -EReal.coe_mul]; norm_num

/-- The pattern 0x3F800000 denotes 1. -/
theorem one_eq : one = 1 := by
  unfold one; simp [Ideal.ofBits, Ideal.ieee, -EReal.coe_mul]; norm_num

theorem three_real : IsReal three := ⟨3, three_eq⟩
theorem half_real : IsReal half := ⟨1 / 2, half_eq⟩

/-! ### Positive real numbers among the extended reals -/

/-- An extended real that is a positive real number. -/
def IsPos (z : EReal) : Prop := ∃ r : ℝ, 0 < r ∧ z = (r : EReal)

theorem IsPos.isReal {z : EReal} (h : IsPos z) : IsReal z := by
  obtain ⟨r, _, hr⟩ := h; exact ⟨r, hr⟩

theorem IsPos.ne_zero {z : EReal} (h : IsPos z) : z ≠ 0 := by
  obtain ⟨r, hr0, rfl⟩ := h
  intro h0
  exact hr0.ne' (by exact_mod_cast h0)

/-- The exponential of a real number is a positive real number. -/
theorem exp_isPos {a : EReal} (ha : IsReal a) : IsPos (Ideal.exp a) := by
  obtain ⟨r, rfl⟩ := ha; exact ⟨Real.exp r, Real.exp_pos r, Ideal.exp_coe r⟩

/-- The coercion of a finite sum of real numbers is the sum of the coercions. -/
theorem coe_finset_sum {ι : Type*} (s : Finset ι) (f : ι → ℝ) :
    ((∑ k ∈ s, f k : ℝ) : EReal) = ∑ k ∈ s, (f k : EReal) := by
  classical
  refine Finset.induction_on s (by simp) ?_
  intro i s hi ih
  rw [Finset.sum_insert hi, Finset.sum_insert hi, EReal.coe_add, ih]

/-- A sum of positive real numbers over a nonempty finite index type is a positive real number. -/
theorem sum_isPos {ι : Type*} [Fintype ι] [Nonempty ι] (f : ι → EReal) (h : ∀ i, IsPos (f i)) : IsPos (∑ i, f i) := by
  choose g hg0 hg using h
  refine ⟨∑ i, g i, Finset.sum_pos (fun i _ => hg0 i) Finset.univ_nonempty, ?_⟩
  rw [coe_finset_sum]
  exact Finset.sum_congr rfl (fun i _ => hg i)

/-- Dividing by a nonzero real number commutes with a factor in front: (h·a)/d = h·(a/d). -/
theorem div_mul_left {d : EReal} (hd : IsReal d) (hd0 : d ≠ 0) (h a : EReal) :
    Ideal.div (h * a) d = h * Ideal.div a d := by
  obtain ⟨s, rfl⟩ := hd
  have hs : s ≠ 0 := fun e => hd0 (by rw [e, EReal.coe_zero])
  rw [Ideal.div_coe hs, Ideal.div_coe hs, mul_assoc]

/-! ### The iteration on a matrix of real numbers -/

section
variable (x : Mat) (hx : ∀ q, IsReal (x q))
include hx

/-- The affinity of two pixels is a positive real number. -/
theorem aff_isPos (i j : Fin 9216) : IsPos (aff x i j) :=
  exp_isPos (IsReal.mul three_real (IsReal.sum_univ _ (fun c => IsReal.mul (hx _) (hx _))))

/-- The weighted sum is a real number. -/
theorem num_real (c : Fin 32) (j : Fin 9216) : IsReal (num x c j) :=
  IsReal.sum_univ _ (fun i => IsReal.mul (hx _) (aff_isPos x hx i j).isReal)

/-- The column sum of the affinities is a positive real number. -/
theorem den_isPos (j : Fin 9216) : IsPos (den x j) :=
  sum_isPos _ (fun i => aff_isPos x hx i j)

omit hx in
/-- The column sum through the row of ones is the column sum. -/
theorem denOnes_eq_den (j : Fin 9216) : denOnes x j = den x j :=
  Finset.sum_congr rfl (fun i _ => by rw [one_eq, one_mul])

/-- The two ways of writing the iteration agree, entry by entry. -/
theorem kerAt_eq_refAt (c : Fin 32) (j : Fin 9216) : kerAt x c j = refAt x c j := by
  have hd := den_isPos x hx j
  unfold kerAt refAt
  rw [denOnes_eq_den, div_mul_left hd.isReal hd.ne_zero]

/-- An entry of the iteration is a real number. -/
theorem refAt_real (c : Fin 32) (j : Fin 9216) : IsReal (refAt x c j) := by
  have hd := den_isPos x hx j
  exact IsReal.add (IsReal.div (IsReal.mul half_real (num_real x hx c j)) hd.isReal hd.ne_zero)
    (IsReal.mul half_real (hx _))

end

/-- On a matrix of real numbers the two ways of writing the iteration give the same matrix. -/
theorem kerStep_eq_refStep (x : Mat) (hx : ∀ q, IsReal (x q)) : kerStep x = refStep x :=
  funext fun q => kerAt_eq_refAt x hx (q 0) (q 1)

/-- The iteration takes a matrix of real numbers to a matrix of real numbers. -/
theorem refStep_real (x : Mat) (hx : ∀ q, IsReal (x q)) : ∀ q, IsReal (refStep x q) :=
  fun q => refAt_real x hx (q 0) (q 1)

end Cert.MS

end
-- ==== Proof.Final.lean ====
/-
  Three mean-shift iterations from a matrix of real entries: at every iteration the kernel's form of the step and the
  reference's agree and the iterate stays real, so the three iterates agree.
-/
import proofs.«120442_j39496519254112_2_alg».proof.Proof.Algebra

noncomputable section

namespace Cert.MS

open Cert.LibReal

/-- Three iterates in the kernel's form from a real matrix are the reference's three iterates. -/
theorem chain_ker (X : Mat) (hX : ∀ q, IsReal (X q)) {a b c : Mat} (ha : a = kerStep X) (hb : b = kerStep a) (hc : c = kerStep b) :
    a = refStep X ∧ b = refStep (refStep X) ∧ c = refStep (refStep (refStep X)) := by
  have e1 := kerStep_eq_refStep X hX
  have r1 := refStep_real X hX
  have e2 := kerStep_eq_refStep (refStep X) r1
  have r2 := refStep_real (refStep X) r1
  have e3 := kerStep_eq_refStep (refStep (refStep X)) r2
  have ha' : a = refStep X := ha.trans e1
  have hb' : b = refStep (refStep X) := by rw [hb, ha']; exact e2
  have hc' : c = refStep (refStep (refStep X)) := by rw [hc, hb']; exact e3
  exact ⟨ha', hb', hc'⟩

/-- Three iterates in the reference's form, from a matrix equal to `X`. -/
theorem chain_ref {X v a b c : Mat} (h0 : v = X) (ha : a = refStep v) (hb : b = refStep a) (hc : c = refStep b) :
    a = refStep X ∧ b = refStep (refStep X) ∧ c = refStep (refStep (refStep X)) := by
  subst h0; subst ha; subst hb; subst hc; exact ⟨rfl, rfl, rfl⟩

end Cert.MS

end
-- ==== Proof.Finite.lean ====
/-
  The precondition on the input says every entry of the input is a real number.

  The precondition takes the absolute value of every entry, compares it with plus infinity (strictly below), and
  reduces the comparisons by "and" over all four axes into a single word, which it requires to be 1. A reduction by
  "and" into a result of one index that is 1 met a 1 at every entry; and an entry whose absolute value is strictly
  below plus infinity is neither infinity, that is, a real number.
-/
import proofs.«120442_j39496519254112_2_alg».proof.Pre_finite_inputs
import proofs.«120442_j39496519254112_2_alg».proof.Proof.Gen.Pre_finite_inputs
import proofs.«120442_j39496519254112_2_alg».proof.Proof.LibReal
import Idealize.ShloMosaic.Lib.ReduceAll
import Idealize.ShloMosaic.Lib.ValueIdx

noncomputable section

namespace Cert.MS

open Idealize.ShloMosaic Cert.LibReal

/-- Every entry of an input that meets the precondition is a real number. -/
theorem arg_real [Cert.Pre_finite_inputs.Facts]
    (x : Idealize.ShloMosaic.FVec Idealize.ShloMosaic.Ideal Cert.Pre_finite_inputs.S1x32x96x96 .f32)
    (h : Cert.Pre_finite_inputs.fn (F := Idealize.ShloMosaic.Ideal) x = fun _ => 1#1) : ∀ i, IsReal (x i) := by
  intro i
  have h0 := congrFun h ValueIdx.ix0
  dsimp only [Cert.Pre_finite_inputs.fn] at h0
  exact elem_real _ x i (Host.reduce_andi_all _ _ _ _ _ h0 i)

end Cert.MS

end
-- ==== Proof.lean ====
/-
  Mean shift, three iterations, on 32 features × 9216 pixels: a tiled kernel against the plain formula.

  Each iteration forms the affinities K(i,j) = exp(3·⟨x_i, x_j⟩), their column sums D(j) and the weighted sums
  N(c,j) = Σ_i x(c,i)·K(i,j), and moves x to ½·N/D + ½·x. The kernel never forms K: for each tile of 2304 query pixels
  it runs over 8 tiles of 1152 key pixels, adds each key tile's contribution to a 40 × 2304 accumulator (rows 0..31 the
  weighted sums, row 32 the column sums, obtained by appending a row of ones to the key operand), and after the last key
  tile writes ½·(N/D) + ½·x. The reference divides the halved numerator, (½·N)/D + ½·x.

  On the extended reals a sum may be regrouped into tiles freely, a change of float format is the identity, and a
  product with the entries of the row of ones is the factor itself; the one law that needs care is
  (½·N)/D = ½·(N/D), which holds because N is real and D is a positive real: the inputs are finite by the precondition,
  so every affinity is the exponential of a real, and every iterate is real again. The frames of the two kernel
  programs come from running each kernel call point by point with the accumulator carried in the region invariant.
-/
import proofs.«120442_j39496519254112_2_alg».proof.Defs
import proofs.«120442_j39496519254112_2_alg».proof.Proof.Gen.Kernel
import proofs.«120442_j39496519254112_2_alg».proof.Proof.Gen.KernelIdeal
import proofs.«120442_j39496519254112_2_alg».proof.Proof.Gen.ReferenceIdeal
import proofs.«120442_j39496519254112_2_alg».proof.Proof.Gen.Pre_finite_inputs
import proofs.«120442_j39496519254112_2_alg».proof.Proof.Gen.ReferenceIdeal.Run
import proofs.«120442_j39496519254112_2_alg».proof.Proof.Gen.ReferenceIdeal.Read
import proofs.«120442_j39496519254112_2_alg».proof.Proof.KB.Main
import proofs.«120442_j39496519254112_2_alg».proof.Proof.KI.Value
import proofs.«120442_j39496519254112_2_alg».proof.Proof.RefValue
import proofs.«120442_j39496519254112_2_alg».proof.Proof.Final
import proofs.«120442_j39496519254112_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.LibReal

attribute [local instance] Cert.Kernel.Gen.facts Cert.KernelIdeal.Gen.facts Cert.ReferenceIdeal.Gen.facts Cert.Pre_finite_inputs.Gen.facts

/-- The word-level kernel program runs and leaves its argument as launched. -/
theorem frame_k : Cert.frame_Kernel := fun m ρ _ => Cert.Kernel.Body.frame m ρ
/-- So does the idealized kernel program. -/
theorem frame_ki : Cert.frame_KernelIdeal := fun m ρ _ => Cert.KernelIdeal.Body.frame m ρ
/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The argument recast as a matrix is the same matrix on both sides, and its entries are real. -/
theorem X0_real (m : (ℓ : Loc Cert.KernelIdeal.nD Cert.KernelIdeal.τ Cert.KernelIdeal.sig) → Buf (Elt Ideal) ℓ)
    (hpre : Cert.Pre_KernelIdeal m) (c : Dev Cert.KernelIdeal.nD) (q : Cert.MS.SX.Idx) :
    IsReal (Cert.KernelIdeal.KValue.X0 m c q) := by
  have hx := Cert.MS.arg_real (m ((c.tc : Thread Cert.KernelIdeal.nD Cert.KernelIdeal.τ).loc Cert.KernelIdeal.main_arg0)) (hpre c)
  have e := Cert.ReferenceIdeal.Read.val_main_v0_apply (F := Ideal) (m ((c.tc : Thread Cert.KernelIdeal.nD Cert.KernelIdeal.τ).loc Cert.KernelIdeal.main_arg0)) q
  show IsReal (Cert.ReferenceIdeal.Read.val_main_v0 (F := Ideal) (m ((c.tc : Thread Cert.KernelIdeal.nD Cert.KernelIdeal.τ).loc Cert.KernelIdeal.main_arg0)) q)
  rw [e]
  exact hx _

/-- The two idealized programs end with equal results. -/
theorem algebraic : Cert.algebraic_KernelIdeal_ReferenceIdeal := by
  intro m ρ m' ρ' hpre hagree
  refine ⟨fun c => Cert.KernelIdeal.Body.Vfin m c Cert.KernelIdeal.main_v16, fun c => Cert.KernelIdeal.Body.Vfin m c Cert.KernelIdeal.main_v20, ?_, ?_⟩
  · exact (θ_run Cert.KernelIdeal.defs _ _).mono (fun r h c =>
      ⟨h c _ (Cert.KernelIdeal.Body.mem_uc Cert.KernelIdeal.main_v16 (by decide)),
       h c _ (Cert.KernelIdeal.Body.mem_uc Cert.KernelIdeal.main_v20 (by decide)),
       (h c _ (Cert.KernelIdeal.Body.mem_uc Cert.KernelIdeal.main_arg0 (by decide))).trans (Cert.KernelIdeal.Body.Vfin_main_arg0 m c)⟩)
      (Cert.KernelIdeal.Body.run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    all_goals
      have hX := X0_real m hpre c
      have a0 : (Cert.ReferenceIdeal.Read.val_main_v0 (F := Ideal) (m' ((c.tc : Thread Cert.ReferenceIdeal.nD Cert.ReferenceIdeal.τ).loc Cert.ReferenceIdeal.main_arg0)) : Cert.MS.Mat)
          = Cert.KernelIdeal.KValue.X0 m c := by rw [hagree c]; rfl
      obtain ⟨k1, k2, k3⟩ := Cert.MS.chain_ker (Cert.KernelIdeal.KValue.X0 m c) hX (Cert.KernelIdeal.KValue.o2_eq m c)
        (Cert.KernelIdeal.KValue.o4_eq m c) (Cert.KernelIdeal.KValue.o6_eq m c)
      obtain ⟨r1, r2, r3⟩ := Cert.MS.chain_ref a0 (Cert.MS.Ref.v15_eq (m' ((c.tc : Thread Cert.ReferenceIdeal.nD Cert.ReferenceIdeal.τ).loc Cert.ReferenceIdeal.main_arg0))) (Cert.MS.Ref.v31_eq (m' ((c.tc : Thread Cert.ReferenceIdeal.nD Cert.ReferenceIdeal.τ).loc Cert.ReferenceIdeal.main_arg0))) (Cert.MS.Ref.v47_eq (m' ((c.tc : Thread Cert.ReferenceIdeal.nD Cert.ReferenceIdeal.τ).loc Cert.ReferenceIdeal.main_arg0)))
    · -- the first result: the third iterate recast as 32 × 96 × 96
      refine (Cert.ReferenceIdeal.Read.val_main_v49_eq m' c).trans ((Cert.MS.Ref.v49_eq (m' ((c.tc : Thread Cert.ReferenceIdeal.nD Cert.ReferenceIdeal.τ).loc Cert.ReferenceIdeal.main_arg0))).trans ?_)
      refine Eq.trans ?_ (Cert.KernelIdeal.KValue.fin_v16 m c).symm
      rw [r3, k3]
    · -- the second result: the three iterates stacked
      refine (Cert.ReferenceIdeal.Read.val_main_v53_eq m' c).trans ((Cert.MS.Ref.v53_eq (m' ((c.tc : Thread Cert.ReferenceIdeal.nD Cert.ReferenceIdeal.τ).loc Cert.ReferenceIdeal.main_arg0))).trans ?_)
      refine Eq.trans ?_ (Cert.KernelIdeal.KValue.fin_v20 m c).symm
      rw [r1, r2, r3, k1, k2, k3]

/-- The claim. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
